-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S2000x128 : Shape := ⟨2, ![2000, 128]⟩

abbrev nBuf : Space → Nat
  | .hbm => 43
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S50000x128, .f32⟩
  | .hbm, ⟨26, _⟩ => ⟨S1x128, .f32⟩
  | .hbm, ⟨27, _⟩ => ⟨S1x128, .f32⟩
  | .hbm, ⟨28, _⟩ => ⟨S_, .f32⟩
  | .hbm, ⟨29, _⟩ => ⟨S1x128, .f32⟩
  | .hbm, ⟨30, _⟩ => ⟨S1x128, .f32⟩
  | .hbm, ⟨31, _⟩ => ⟨S_, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S_, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v41 : BitVec 1 := Scalar.cmpi .eq arg0 c24_i32
  let v42 : BitVec 32 := Scalar.extui v41
  let c0_i32_24 : BitVec 32 := 0#32
  let v43 : BitVec 1 := Scalar.cmpi .ne v42 c0_i32_24
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v14_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S50000x128, .f32⟩
  | .hbm, ⟨26, _⟩ => ⟨S50000x128, .f32⟩
  | .hbm, ⟨27, _⟩ => ⟨S1x128, .f32⟩
  | .hbm, ⟨28, _⟩ => ⟨S50000x128, .f32⟩
  | .hbm, ⟨29, _⟩ => ⟨S50000x128, .f32⟩
  | .hbm, ⟨30, _⟩ => ⟨S_, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | .hbm, ⟨37, _⟩ => ⟨S_, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S_, .i32⟩
  | .hbm, ⟨43, _⟩ => ⟨S_, .f32⟩
  | .hbm, ⟨44, _⟩ => ⟨S128, .f32⟩
  | .hbm, ⟨45, _⟩ => ⟨S1x128, .f32⟩
  | .hbm, ⟨46, _⟩ => ⟨S_, .f32⟩
  | .hbm, ⟨47, _⟩ => ⟨S1x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S_, .f32⟩
  | .hbm, ⟨60, _⟩ => ⟨S_, .i1⟩
  | .hbm, ⟨61, _⟩ => ⟨S_, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_cst_1 : Ref sig .tc := ⟨.hbm, 53, rfl⟩
abbrev main_call0_v8 : Ref sig .tc := ⟨.hbm, 54, rfl⟩
abbrev main_call0_cst_2 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_cst_3 : Ref sig .tc := ⟨.hbm, 59, rfl⟩
abbrev main_call0_v12 : Ref sig .tc := ⟨.hbm, 60, rfl⟩
abbrev main_call0_cst_4 : Ref sig .tc := ⟨.hbm, 61, rfl⟩
abbrev main_call0_call0_v0 : Ref sig .tc := ⟨.hbm, 62, rfl⟩
abbrev main_call0_call0_v1 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_5 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.BReg0Runs.lean ====
import proofs.«116873_j21114059227217_1_alg».proof.Proof.Gen.Kernel.Launch
import proofs.«116873_j21114059227217_1_alg».proof.Proof.Gen.Kernel.Skeleton
import proofs.«116873_j21114059227217_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered: everything below is stated at this parameter
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- The condition of the body's first conditional (the scratch accumulators are zeroed), from the grid coordinates. -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val = 0 :=
  (by decide +kernel : ∀ t : Fin grid0.N, cond0_0 (grid0.coords t) ↔ t.val = 0)

/-- The condition of the body's second conditional (the accumulators are copied to outputs 7 and 8). -/
abbrev cond0_1 (i : grid0.Coords) : Prop := k0_cond2 i = 1#1
/-- It holds at the last point only — decided over the grid. -/
theorem hcond0_1 : ∀ t : Fin cfg0.N, cond0_1 (grid0.coords t) ↔ t.val = 24 :=
  (by decide +kernel : ∀ t : Fin grid0.N, cond0_1 (grid0.coords t) ↔ t.val = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from the last point output 7 is idle and not written back; at the last point it is live. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7_C : ∀ t : Fin cfg0.N, cond0_1 (grid0.coords t) → cfg0.idle 7 (grid0.coords t) = false := by decide +kernel
/-- Away from the last point output 8 is idle and not written back; at the last point it is live. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8_C : ∀ t : Fin cfg0.N, cond0_1 (grid0.coords t) → cfg0.idle 8 (grid0.coords t) = false := by decide +kernel

/-! ## The staging and scratch memrefs -/

/-- One staging buffer of each output window, through which its contents are stated. -/
abbrev VO0_6 : View sig .tc .vmem S2000x128 .f32 := (Memref.whole cc0_stg6_0 : Memref sig .tc .vmem S2000x128 .f32).view
abbrev VO0_7 : View sig .tc .vmem S1x128 .f32 := (Memref.whole cc0_stg7_0 : Memref sig .tc .vmem S1x128 .f32).view
abbrev VO0_8 : View sig .tc .vmem S1x128 .f32 := (Memref.whole cc0_stg8_0 : Memref sig .tc .vmem S1x128 .f32).view
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
/-- The two scratch accumulators: whole scoped buffers of the kernel's own, passed beside the windows. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

/-- The core's other scoped buffers that are no staging buffer of this region (the other region's staging buffers),
    each whole at some contents: the body never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The region's invariant with the two scratch accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

end Cert.Kernel.Hand

end
-- ==== Proof.BReg0RunA.lean ====
import proofs.«116873_j21114059227217_1_alg».proof.Proof.BReg0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each buffer, as lists of pieces (last first), at the first point: the accumulators are zeroed, then added to; outputs 7 and 8 are not stored;
    with the proof that on whole staging memrefs — the inputs' at their contents, output 6's at anything, outputs 7 and 8's at contents handed back untouched,
    the two scratch accumulators at anything — the body runs to the continuation holding the inputs' as they were and each
    stored buffer with its pieces written. -/
noncomputable def kernelRun0_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) :
    Σ' (L6 : List (View.Piece (Elt F) S2000x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.BReg0RunB.lean ====
import proofs.«116873_j21114059227217_1_alg».proof.Proof.BReg0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each buffer, as lists of pieces (last first), at a point strictly between the first and the last: the accumulators are added to; outputs 7 and 8 are not stored;
    with the proof that on whole staging memrefs — the inputs' at their contents, output 6's at anything, outputs 7 and 8's at contents handed back untouched,
    the two scratch accumulators at what the point before left — the body runs to the continuation holding the inputs' as they were and each
    stored buffer with its pieces written. -/
noncomputable def kernelRun0_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) :
    Σ' (L6 : List (View.Piece (Elt F) S2000x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.BReg0RunC.lean ====
import proofs.«116873_j21114059227217_1_alg».proof.Proof.BReg0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each buffer, as lists of pieces (last first), at the last point: the accumulators are added to and copied to outputs 7 and 8;
    with the proof that on whole staging memrefs — the inputs' at their contents, output 6's at anything, outputs 7 and 8's at anything,
    the two scratch accumulators at what the point before left — the body runs to the continuation holding the inputs' as they were and each
    stored buffer with its pieces written. -/
noncomputable def kernelRun0_C (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.BReg0.lean ====
import proofs.«116873_j21114059227217_1_alg».proof.Proof.BReg0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Outputs 7 and 8 at a point that does not store them: a placeholder nothing consults, since at these points the
    window is neither written back nor read at the next point. -/
def idle0_7 : Vec F S1x128 .f32 := VO0_7.read (Elt F) VO0_7.junk
def idle0_8 : Vec F S1x128 .f32 := VO0_8.read (Elt F) VO0_8.junk

/-- Case A's pieces for output 6 tile its block, so they cover it. -/
theorem cover0_A_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) (y : S2000x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1 S2000x128.size (by sl_kernel_rfl) y

/-- What case A leaves in output 6's staging buffer: its pieces read back over junk. -/
def out0_A_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) : Vec F S2000x128 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1)

/-- Case A's pieces for scratch accumulator 0 cover it. -/
theorem scover0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x128.size (by sl_kernel_rfl) y

/-- What case A leaves in scratch accumulator 0: its pieces read back over junk. -/
def sout0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- Case A's pieces for scratch accumulator 1 cover it. -/
theorem scover0_A_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x128.size (by sl_kernel_rfl) y

/-- What case A leaves in scratch accumulator 1: its pieces read back over junk. -/
def sout0_A_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- Case B's pieces for output 6 tile its block, so they cover it. -/
theorem cover0_B_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) (y : S2000x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y

/-- What case B leaves in output 6's staging buffer: its pieces read back over junk. -/
def out0_B_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) : Vec F S2000x128 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- Case B's pieces for scratch accumulator 0 cover it. -/
theorem scover0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y

/-- What case B leaves in scratch accumulator 0: its pieces read back over junk. -/
def sout0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- Case B's pieces for scratch accumulator 1 cover it. -/
theorem scover0_B_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y

/-- What case B leaves in scratch accumulator 1: its pieces read back over junk. -/
def sout0_B_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case C's pieces for output 6 tile its block, so they cover it. -/
theorem cover0_C_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) (y : S2000x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y

/-- What case C leaves in output 6's staging buffer: its pieces read back over junk. -/
def out0_C_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) : Vec F S2000x128 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- Case C's pieces for output 7 tile its block, so they cover it. -/
theorem cover0_C_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y

/-- What case C leaves in output 7's staging buffer: its pieces read back over junk. -/
def out0_C_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) : Vec F S1x128 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- Case C's pieces for output 8 tile its block, so they cover it. -/
theorem cover0_C_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y

/-- What case C leaves in output 8's staging buffer: its pieces read back over junk. -/
def out0_C_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) : Vec F S1x128 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case C's pieces for scratch accumulator 0 cover it. -/
theorem scover0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y

/-- What case C leaves in scratch accumulator 0: its pieces read back over junk. -/
def sout0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- Case C's pieces for scratch accumulator 1 cover it. -/
theorem scover0_C_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y

/-- What case C leaves in scratch accumulator 1: its pieces read back over junk. -/
def sout0_C_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

section Region0
variable (V : (c : Dev nD) → (b : Ref sig .tc) → Buf (Elt F) ((c : Thread nD τ).loc b))

/-! ## What the outputs and the accumulators hold after each point -/

/-- THE ACCUMULATION. What outputs 6, 7, 8 's staging buffers and the two scratch accumulators hold after the body at
    position `n`: the first point's case at 0; the last point's case at 24; the middle case elsewhere — the latter two
    over what the accumulators held after position `n - 1`. -/
def outsAt0 (c : Dev nD) : (n : ℕ) → n < cfg0.N → (Vec F S2000x128 .f32 × Vec F S1x128 .f32 × Vec F S1x128 .f32) × (Vec F S1x128 .f32 × Vec F S1x128 .f32)
  | 0, hn => ((out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), idle0_7, idle0_8), (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)))
  | n + 1, hn =>
    if h1 : n + 1 = 24 then
      ((out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2), (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2))
    else
      ((out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2, idle0_7, idle0_8), (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2))

/-- `outsAt0` at the first point. -/
theorem outsAt0_A (c : Dev nD) (t : Fin cfg0.N) (h0 : t.val = 0) (h1 : ¬t.val = 24) :
    outsAt0 V c t.val t.isLt = ((out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), idle0_7, idle0_8), (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t))) := by
  obtain ⟨n, hn⟩ := t
  cases n with
  | zero => exact rfl
  | succ n => exact absurd h0 (Nat.succ_ne_zero n)

/-- `outsAt0` at a middle point: over what the point before left in the accumulators. -/
theorem outsAt0_B (c : Dev nD) (t : Fin cfg0.N) (h0 : ¬t.val = 0) (h1 : ¬t.val = 24) :
    outsAt0 V c t.val t.isLt = ((out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, idle0_7, idle0_8), (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2)) := by
  obtain ⟨n, hn⟩ := t
  cases n with
  | zero => exact absurd rfl h0
  | succ n => exact (dif_neg h1).trans rfl

/-- `outsAt0` at the last point: over what the point before left in the accumulators. -/
theorem outsAt0_C (c : Dev nD) (t : Fin cfg0.N) (h0 : ¬t.val = 0) (h1 : t.val = 24) :
    outsAt0 V c t.val t.isLt = ((out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2), (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2)) := by
  obtain ⟨n, hn⟩ := t
  cases n with
  | zero => exact absurd rfl h0
  | succ n => exact (dif_pos h1).trans rfl

/-- The region invariant before position `n`: before the first point the class's (every scratch at anything);
    afterwards the scoped rest with each accumulator at what the point before left in it, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ rest0 (F := F) c) ∗ (∃ r, prngReg c r)) := by
  cases n with
  | zero => exact absurd rfl hz
  | succ n => rfl

/-! ## The pipeline's proof data -/

/-- The proof data of this pipeline on core `c`: the arrays as the region finds them (`V`); after the body at point
    `t` each input's buffer at its block and the outputs' at `outsAt0`'s components; the invariant `PhiS`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1.1
    | ⟨7, _⟩ => (outsAt0 V c t.val t.isLt).1.2.1
    | ⟨8, _⟩ => (outsAt0 V c t.val t.isLt).1.2.2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1.1 := by dsimp only [dat0]
theorem after0_7 (c : Dev nD) (t : Fin cfg0.N) : (dat0 V c).after 7 t = (outsAt0 V c t.val t.isLt).1.2.1 := by dsimp only [dat0]
theorem after0_8 (c : Dev nD) (t : Fin cfg0.N) : (dat0 V c).after 8 t = (outsAt0 V c t.val t.isLt).1.2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4800000 in
/-- The body at any point: the inputs' memrefs hold their blocks; the closed forms say which case the point is in; the
    invariant hands the body the accumulators at what the point before left (at anything at the first point) and takes
    them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 25 := lt_of_lt_of_eq t.isLt (show cfg0.N = 25 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  by_cases h0 : t.val = 0
  · have h1 : ¬t.val = 24 := by omega
    rw [Dat.leavesExact_idle (dat0 V c) 7 t (idleAt0_7 t (fun h => h1 ((hcond0_1 t).mp h))) (noFlush0_7 t (fun h => h1 ((hcond0_1 t).mp h)))]
    rw [Dat.leavesExact_idle (dat0 V c) 8 t (idleAt0_8 t (fun h => h1 ((hcond0_1 t).mp h))) (noFlush0_8 t (fun h => h1 ((hcond0_1 t).mp h)))]
    rw [outsAt0_A V c t h0 h1]
    unfold out0_A_6 sout0_A_0 sout0_A_1; (try dsimp only)
    rw [PhiS_castSucc V c t, PhiS_zero V c _ _ h0, PhiA0_eq]
    iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hr Hg]
    · isplitl [HS0 HS1 Hr]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _)
    isplitl [H7]; · iexists _; iexact H7
    iexists _; iexact H8
  · by_cases h1 : t.val = 24
    · rw [show (dat0 V c).leavesExact 7 t = owns (c : Thread nD τ) (ms0_7 t) fullShare ((dat0 V c).after 7 t) from by
        unfold Dat.leavesExact; rw [liveAt0_7_C t ((hcond0_1 t).mpr h1)], after0_7]
      rw [show (dat0 V c).leavesExact 8 t = owns (c : Thread nD τ) (ms0_8 t) fullShare ((dat0 V c).after 8 t) from by
        unfold Dat.leavesExact; rw [liveAt0_8_C t ((hcond0_1 t).mpr h1)], after0_8]
      rw [outsAt0_C V c t h0 h1]
      unfold out0_C_6 out0_C_7 out0_C_8 sout0_C_0 sout0_C_1; (try dsimp only)
      rw [PhiS_castSucc V c t, PhiS_pos V c _ _ h0]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _)
    · rw [Dat.leavesExact_idle (dat0 V c) 7 t (idleAt0_7 t (fun h => h1 ((hcond0_1 t).mp h))) (noFlush0_7 t (fun h => h1 ((hcond0_1 t).mp h)))]
      rw [Dat.leavesExact_idle (dat0 V c) 8 t (idleAt0_8 t (fun h => h1 ((hcond0_1 t).mp h))) (noFlush0_8 t (fun h => h1 ((hcond0_1 t).mp h)))]
      rw [outsAt0_B V c t h0 h1]
      unfold out0_B_6 sout0_B_0 sout0_B_1; (try dsimp only)
      rw [PhiS_castSucc V c t, PhiS_pos V c _ _ h0]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hr⟩, Hg⟩
  isplitl [HS0 HS1 Hr]
  · isplitl [HS0]
    · iexists _; iexact HS0
    isplitl [HS1]
    · iexists _; iexact HS1
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 25 := N_0; omega)

end Region0

end Cert.Kernel.Hand

end
-- ==== Proof.BReg1.lean ====
import proofs.«116873_j21114059227217_1_alg».proof.Proof.Gen.Kernel.Launch
import proofs.«116873_j21114059227217_1_alg».proof.Proof.Gen.Kernel.Skeleton
import proofs.«116873_j21114059227217_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: the batch-norm normalisation body at a generic grid point

The second kernel region reads five input windows whole (a 2000x128 block of activations and four 1x128 rows:
mean, inverse standard deviation, scale, shift), computes
`((h - mean) * invstd) * gamma + beta` with the rows broadcast along the long axis, and stores the result whole
into the output window. Everything here is stated at a parameter `V`, the buffer contents when the region is
entered, and at any float model `F`. -/

-- membership in a rectangle of the long axes recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: where the window is not fetched its block
    index has not moved, so the previous point's block is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: where the window is not fetched its block
    index has not moved, so the previous point's block is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: where the window is not fetched its block
    index has not moved, so the previous point's block is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: where the window is not fetched its block
    index has not moved, so the previous point's block is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: where the window is not fetched its block
    index has not moved, so the previous point's block is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_big : Rect S2000x128 := Rect.unit (s := S2000x128) ![0, 0] S2000x128.size inb_S2000x128_S2000x128_0_0
abbrev r1_row : Rect S1x128 := Rect.unit (s := S1x128) ![0, 0] S1x128.size inb_S1x128_S1x128_0_0

/-! ## What the body leaves in the output window's buffer -/

/-- The output window's staging buffer after the body, from the input windows' blocks: its one store, of the
    payload computed from the five whole loads, as a single piece covering the buffer. -/
def out1_5 (x0 : Vec F S2000x128 .f32) (x1 x2 x3 x4 : Vec F S1x128 .f32) : Vec F S2000x128 .f32 :=
  View.canon [⟨r1_big, k1_pay1 (View.ld x0 r1_big) (View.ld x1 r1_row) (View.ld x2 r1_row) (View.ld x3 r1_row) (View.ld x4 r1_row)⟩]

/-- The single store is of the whole buffer, so it covers it. -/
theorem cover1_5 (p0 : Vec F S2000x128 .f32) (y : S2000x128.Idx) :
    ∃ pc ∈ ([⟨r1_big, p0⟩] : List (View.Piece (Elt F) S2000x128 .f32)), y ∈ pc.1.set :=
  View.cover_of_tiled [⟨r1_big, p0⟩] S2000x128.size (by rfl) y

/-! ## The body's triple -/

set_option maxHeartbeats 1000000 in
/-- The kernel body on whole staging memrefs, the inputs' at read contents `xW` and the output's at anything, runs
    to the continuation holding the inputs' as they were and the output's at `out1_5` of the inputs': five whole
    loads, a load of the output buffer whose value is dropped, and one whole store of the payload. -/
theorem sound_kernel1 (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_kernel i arg1 harg1 arg2 harg2 arg3 harg3 arg4 harg4 arg5 harg5 arg6 harg6) K := by
  simp only [cc1__bn_kernel_eq_skeleton]; unfold cc1__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the region's pipeline on core `c`: the arrays as the region finds them (`V`); after the body
    at point `t` each input's buffer at its block and the output's at `out1_5` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, what the core owes, and each window's current
    staging buffer — the inputs' at what the pipeline put there, the output's at anything. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.BFrame.lean ====
/-
  The run of the two-kernel program as a chain of four segments.

  @main is a stretch of host operations (the neighbour aggregation: a gather of rows and a scatter-add), the
  perceptron kernel over 25 row tiles, a second stretch of host operations (the column statistics), and the
  normalisation kernel over the same 25 tiles. Between two segments every unscoped buffer of a core is held whole at
  named contents: the launch memory, then what the first stretch computes from it, then — at the first kernel's
  three result arrays — what the pipeline's write-backs leave, and so on. The last contents are read off the final
  memory, which gives both the frame (no argument array is ever written) and the value of the result array: what the
  second pipeline's write-backs leave in it.
-/
import proofs.«116873_j21114059227217_1_alg».proof.Proof.BReg0
import proofs.«116873_j21114059227217_1_alg».proof.Proof.BReg1
import proofs.«116873_j21114059227217_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the five boundaries -/

/-- Core `c`'s buffers at launch. -/
abbrev W0 : Dev nD → Valuation τ sig (Elt F) := fun c b => m ((c : Dev nD), b)
/-- After the aggregation stretch: what the perceptron kernel is entered from. -/
abbrev W1 : Dev nD → Valuation τ sig (Elt F) := fun c => StableHlo.after hostOps0 (W0 m c)
/-- The same read at the TensorCore's references. -/
abbrev E1 : (c : Dev nD) → (b : Ref sig .tc) → Buf (Elt F) ((c : Thread nD τ).loc b) := fun c b => W1 m c b
/-- After the perceptron kernel: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev X2 : (c : Dev nD) → (b : Ref sig .tc) → Buf (Elt F) ((c : Thread nD τ).loc b) := fun c b => W2 m c b
theorem hF0 (c : Dev nD) (w : Fin cfg0.W) : (dat0 (E1 m) c).arrAt w cfg0.N = X2 m c (Pipeline.arrRef spec0 w) :=
  (W2_arr m c w).symm
theorem hrest0 (c : Dev nD) : ∀ b, b ∉ Finset.univ.image (Pipeline.arrRef spec0) → X2 m c b = E1 m c b :=
  fun b hb => W2_of_ne m c b fun w e => hb (Finset.mem_image.mpr ⟨w, Finset.mem_univ _, e⟩)

/-- After the statistics stretch: what the normalisation kernel is entered from. -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- After the normalisation kernel. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev X4 : (c : Dev nD) → (b : Ref sig .tc) → Buf (Elt F) ((c : Thread nD τ).loc b) := fun c b => W4 m c b
theorem hF1 (c : Dev nD) (w : Fin cfg1.W) : (dat1 (E3 m) c).arrAt w cfg1.N = X4 m c (Pipeline.arrRef spec1 w) :=
  (W4_arr m c w).symm
theorem hrest1 (c : Dev nD) : ∀ b, b ∉ Finset.univ.image (Pipeline.arrRef spec1) → X4 m c b = E3 m c b :=
  fun b hb => W4_of_ne m c b fun w e => hb (Finset.mem_image.mpr ⟨w, Finset.mem_univ _, e⟩)

/-! ## What each segment leaves unchanged -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h

/-- An input array of the perceptron kernel leaves it as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (E1 m) c).arrAt_in w hw _).trans (A_eq0 (E1 m) c w))

/-- The argument arrays reach the end as launched: no host stretch writes one, and a kernel only reads one. -/
theorem W4_main_arg0 (c : Dev nD) : W4 m c (Proc.devRef .tc main_arg0) = m ((c : Thread nD τ).loc main_arg0) :=
  (W4_of_ne m c main_arg0 (by decide)).trans <| (W3_of m c main_arg0 (by decide)).trans <| (W2_in m c 0 rfl).trans <| (W1_of m c main_arg0 (by decide)).trans rfl
theorem W4_main_arg1 (c : Dev nD) : W4 m c (Proc.devRef .tc main_arg1) = m ((c : Thread nD τ).loc main_arg1) :=
  (W4_of_ne m c main_arg1 (by decide)).trans <| (W3_of m c main_arg1 (by decide)).trans <| (W2_of_ne m c main_arg1 (by decide)).trans <| (W1_of m c main_arg1 (by decide)).trans rfl
theorem W4_main_arg2 (c : Dev nD) : W4 m c (Proc.devRef .tc main_arg2) = m ((c : Thread nD τ).loc main_arg2) :=
  (W4_of_ne m c main_arg2 (by decide)).trans <| (W3_of m c main_arg2 (by decide)).trans <| (W2_in m c 2 rfl).trans <| (W1_of m c main_arg2 (by decide)).trans rfl
theorem W4_main_arg3 (c : Dev nD) : W4 m c (Proc.devRef .tc main_arg3) = m ((c : Thread nD τ).loc main_arg3) :=
  (W4_of_ne m c main_arg3 (by decide)).trans <| (W3_of m c main_arg3 (by decide)).trans <| (W2_in m c 3 rfl).trans <| (W1_of m c main_arg3 (by decide)).trans rfl
theorem W4_main_arg4 (c : Dev nD) : W4 m c (Proc.devRef .tc main_arg4) = m ((c : Thread nD τ).loc main_arg4) :=
  (W4_of_ne m c main_arg4 (by decide)).trans <| (W3_of m c main_arg4 (by decide)).trans <| (W2_in m c 4 rfl).trans <| (W1_of m c main_arg4 (by decide)).trans rfl
theorem W4_main_arg5 (c : Dev nD) : W4 m c (Proc.devRef .tc main_arg5) = m ((c : Thread nD τ).loc main_arg5) :=
  (W4_of_ne m c main_arg5 (by decide)).trans <| (W3_of m c main_arg5 (by decide)).trans <| (W2_in m c 5 rfl).trans <| (W1_of m c main_arg5 (by decide)).trans rfl
theorem W4_main_arg6 (c : Dev nD) : W4 m c (Proc.devRef .tc main_arg6) = m ((c : Thread nD τ).loc main_arg6) :=
  (W4_of_ne m c main_arg6 (by decide)).trans <| (W3_of m c main_arg6 (by decide)).trans <| (W2_of_ne m c main_arg6 (by decide)).trans <| (W1_of m c main_arg6 (by decide)).trans rfl
theorem W4_main_arg7 (c : Dev nD) : W4 m c (Proc.devRef .tc main_arg7) = m ((c : Thread nD τ).loc main_arg7) :=
  (W4_of_ne m c main_arg7 (by decide)).trans <| (W3_of m c main_arg7 (by decide)).trans <| (W2_of_ne m c main_arg7 (by decide)).trans <| (W1_of m c main_arg7 (by decide)).trans rfl

/-- The result array ends at what the normalisation pipeline's write-backs leave in it. -/
theorem W4_main_v26 (c : Dev nD) : W4 m c (Proc.devRef .tc main_v26) = (dat1 (E3 m) c).arrAt 5 cfg1.N :=
  W4_arr m c 5

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The kernels as segments -/

/-- The plain region invariant of the perceptron kernel gives back the generator register and the scoped buffers no
    window stages. -/
theorem PhiA_out0 (c : Dev nD) :
    (Pipeline.ΦA spec0 c : sProp 𝕄) ⊢ iprop((∃ r, prngReg c r) ∗ emp ∗ Pipeline.scopedRest spec0 c) := by
  unfold Pipeline.ΦA
  iintro ⟨Hr, Hp⟩
  isplitl [Hp]; · iexact Hp
  isplitr; · iempintro
  iexact Hr

set_option backward.isDefEq.respectTransparency.types false in
/-- The perceptron kernel over the thread state: entered from every unscoped buffer at `W1`, left at `W2`. Its
    arrays are split out of the unscoped buffers and put back at the exit contents; the generator register and the
    two accumulator buffers go into the region's invariant (at its first point the plain one) and come back out of
    its last. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    exact (hout0 (E1 m) c).trans (PhiA_out0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalisation kernel over the thread state: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (X4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and the final memory holds every unscoped buffer of every core at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c)⟩) (run_all m ρ)

/-- The value run: the result array ends at what the normalisation pipeline leaves, the arguments as launched. -/
theorem run_value : θ_run defs (onTc (τ := τ) (main (F := F))) ⟨m, fun _ => 0, ρ⟩ (fun r => ∀ c : Dev nD,
      r.2.mem ((c.tc : Thread nD τ).loc main_v26) = (dat1 (E3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_v26 (by decide))).trans (W4_main_v26 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c)⟩) (run_all m ρ)

end Cert.Kernel.Hand

end
-- ==== Proof.Reg0Runs.lean ====
import proofs.«116873_j21114059227217_1_alg».proof.Proof.Gen.KernelIdeal.Launch
import proofs.«116873_j21114059227217_1_alg».proof.Proof.Gen.KernelIdeal.Skeleton
import proofs.«116873_j21114059227217_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered: everything below is stated at this parameter
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- The condition of the body's first conditional (the scratch accumulators are zeroed), from the grid coordinates. -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val = 0 :=
  (by decide +kernel : ∀ t : Fin grid0.N, cond0_0 (grid0.coords t) ↔ t.val = 0)

/-- The condition of the body's second conditional (the accumulators are copied to outputs 7 and 8). -/
abbrev cond0_1 (i : grid0.Coords) : Prop := k0_cond2 i = 1#1
/-- It holds at the last point only — decided over the grid. -/
theorem hcond0_1 : ∀ t : Fin cfg0.N, cond0_1 (grid0.coords t) ↔ t.val = 24 :=
  (by decide +kernel : ∀ t : Fin grid0.N, cond0_1 (grid0.coords t) ↔ t.val = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from the last point output 7 is idle and not written back; at the last point it is live. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7_C : ∀ t : Fin cfg0.N, cond0_1 (grid0.coords t) → cfg0.idle 7 (grid0.coords t) = false := by decide +kernel
/-- Away from the last point output 8 is idle and not written back; at the last point it is live. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8_C : ∀ t : Fin cfg0.N, cond0_1 (grid0.coords t) → cfg0.idle 8 (grid0.coords t) = false := by decide +kernel

/-! ## The staging and scratch memrefs -/

/-- One staging buffer of each output window, through which its contents are stated. -/
abbrev VO0_6 : View sig .tc .vmem S2000x128 .f32 := (Memref.whole cc0_stg6_0 : Memref sig .tc .vmem S2000x128 .f32).view
abbrev VO0_7 : View sig .tc .vmem S1x128 .f32 := (Memref.whole cc0_stg7_0 : Memref sig .tc .vmem S1x128 .f32).view
abbrev VO0_8 : View sig .tc .vmem S1x128 .f32 := (Memref.whole cc0_stg8_0 : Memref sig .tc .vmem S1x128 .f32).view
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
/-- The two scratch accumulators: whole scoped buffers of the kernel's own, passed beside the windows. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

/-- The core's other scoped buffers that are no staging buffer of this region (the other region's staging buffers),
    each whole at some contents: the body never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The region's invariant with the two scratch accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

end Cert.KernelIdeal.Hand

end
-- ==== Proof.Reg0RunA.lean ====
import proofs.«116873_j21114059227217_1_alg».proof.Proof.Reg0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each buffer, as lists of pieces (last first), at the first point: the accumulators are zeroed, then added to; outputs 7 and 8 are not stored;
    with the proof that on whole staging memrefs — the inputs' at their contents, output 6's at anything, outputs 7 and 8's at contents handed back untouched,
    the two scratch accumulators at anything — the body runs to the continuation holding the inputs' as they were and each
    stored buffer with its pieces written. -/
noncomputable def kernelRun0_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) :
    Σ' (L6 : List (View.Piece (Elt F) S2000x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.Reg0RunB.lean ====
import proofs.«116873_j21114059227217_1_alg».proof.Proof.Reg0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each buffer, as lists of pieces (last first), at a point strictly between the first and the last: the accumulators are added to; outputs 7 and 8 are not stored;
    with the proof that on whole staging memrefs — the inputs' at their contents, output 6's at anything, outputs 7 and 8's at contents handed back untouched,
    the two scratch accumulators at what the point before left — the body runs to the continuation holding the inputs' as they were and each
    stored buffer with its pieces written. -/
noncomputable def kernelRun0_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) :
    Σ' (L6 : List (View.Piece (Elt F) S2000x128 .f32)) (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K } := by
  refine ⟨?_, ?_, ?_, fun xi7 xi8 E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.Reg0RunC.lean ====
import proofs.«116873_j21114059227217_1_alg».proof.Proof.Reg0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each buffer, as lists of pieces (last first), at the last point: the accumulators are added to and copied to outputs 7 and 8;
    with the proof that on whole staging memrefs — the inputs' at their contents, output 6's at anything, outputs 7 and 8's at anything,
    the two scratch accumulators at what the point before left — the body runs to the continuation holding the inputs' as they were and each
    stored buffer with its pieces written. -/
noncomputable def kernelRun0_C (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) :
    Σ' (L6 : List (View.Piece (Elt F) S2000x128 .f32)) (L7 : List (View.Piece (Elt F) S1x128 .f32)) (L8 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.Reg0.lean ====
import proofs.«116873_j21114059227217_1_alg».proof.Proof.Reg0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Outputs 7 and 8 at a point that does not store them: a placeholder nothing consults, since at these points the
    window is neither written back nor read at the next point. -/
def idle0_7 : Vec F S1x128 .f32 := VO0_7.read (Elt F) VO0_7.junk
def idle0_8 : Vec F S1x128 .f32 := VO0_8.read (Elt F) VO0_8.junk

/-- Case A's pieces for output 6 tile its block, so they cover it. -/
theorem cover0_A_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) (y : S2000x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1 S2000x128.size (by sl_kernel_rfl) y

/-- What case A leaves in output 6's staging buffer: its pieces read back over junk. -/
def out0_A_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) : Vec F S2000x128 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1)

/-- Case A's pieces for scratch accumulator 0 cover it. -/
theorem scover0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1 S1x128.size (by sl_kernel_rfl) y

/-- What case A leaves in scratch accumulator 0: its pieces read back over junk. -/
def sout0_A_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- Case A's pieces for scratch accumulator 1 cover it. -/
theorem scover0_A_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1 S1x128.size (by sl_kernel_rfl) y

/-- What case A leaves in scratch accumulator 1: its pieces read back over junk. -/
def sout0_A_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- Case B's pieces for output 6 tile its block, so they cover it. -/
theorem cover0_B_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) (y : S2000x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y

/-- What case B leaves in output 6's staging buffer: its pieces read back over junk. -/
def out0_B_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) : Vec F S2000x128 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- Case B's pieces for scratch accumulator 0 cover it. -/
theorem scover0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y

/-- What case B leaves in scratch accumulator 0: its pieces read back over junk. -/
def sout0_B_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- Case B's pieces for scratch accumulator 1 cover it. -/
theorem scover0_B_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y

/-- What case B leaves in scratch accumulator 1: its pieces read back over junk. -/
def sout0_B_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case C's pieces for output 6 tile its block, so they cover it. -/
theorem cover0_C_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) (y : S2000x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S2000x128.size (by sl_kernel_rfl) y

/-- What case C leaves in output 6's staging buffer: its pieces read back over junk. -/
def out0_C_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) : Vec F S2000x128 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- Case C's pieces for output 7 tile its block, so they cover it. -/
theorem cover0_C_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y

/-- What case C leaves in output 7's staging buffer: its pieces read back over junk. -/
def out0_C_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) : Vec F S1x128 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- Case C's pieces for output 8 tile its block, so they cover it. -/
theorem cover0_C_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y

/-- What case C leaves in output 8's staging buffer: its pieces read back over junk. -/
def out0_C_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) : Vec F S1x128 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case C's pieces for scratch accumulator 0 cover it. -/
theorem scover0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y

/-- What case C leaves in scratch accumulator 0: its pieces read back over junk. -/
def sout0_C_0 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- Case C's pieces for scratch accumulator 1 cover it. -/
theorem scover0_C_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y

/-- What case C leaves in scratch accumulator 1: its pieces read back over junk. -/
def sout0_C_1 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

section Region0
variable (V : (c : Dev nD) → (b : Ref sig .tc) → Buf (Elt F) ((c : Thread nD τ).loc b))

/-! ## What the outputs and the accumulators hold after each point -/

/-- THE ACCUMULATION. What outputs 6, 7, 8 's staging buffers and the two scratch accumulators hold after the body at
    position `n`: the first point's case at 0; the last point's case at 24; the middle case elsewhere — the latter two
    over what the accumulators held after position `n - 1`. -/
def outsAt0 (c : Dev nD) : (n : ℕ) → n < cfg0.N → (Vec F S2000x128 .f32 × Vec F S1x128 .f32 × Vec F S1x128 .f32) × (Vec F S1x128 .f32 × Vec F S1x128 .f32)
  | 0, hn => ((out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), idle0_7, idle0_8), (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)))
  | n + 1, hn =>
    if h1 : n + 1 = 24 then
      ((out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2), (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2))
    else
      ((out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2, idle0_7, idle0_8), (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2))

/-- `outsAt0` at the first point. -/
theorem outsAt0_A (c : Dev nD) (t : Fin cfg0.N) (h0 : t.val = 0) (h1 : ¬t.val = 24) :
    outsAt0 V c t.val t.isLt = ((out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), idle0_7, idle0_8), (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t))) := by
  obtain ⟨n, hn⟩ := t
  cases n with
  | zero => exact rfl
  | succ n => exact absurd h0 (Nat.succ_ne_zero n)

/-- `outsAt0` at a middle point: over what the point before left in the accumulators. -/
theorem outsAt0_B (c : Dev nD) (t : Fin cfg0.N) (h0 : ¬t.val = 0) (h1 : ¬t.val = 24) :
    outsAt0 V c t.val t.isLt = ((out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, idle0_7, idle0_8), (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2)) := by
  obtain ⟨n, hn⟩ := t
  cases n with
  | zero => exact absurd rfl h0
  | succ n => exact (dif_neg h1).trans rfl

/-- `outsAt0` at the last point: over what the point before left in the accumulators. -/
theorem outsAt0_C (c : Dev nD) (t : Fin cfg0.N) (h0 : ¬t.val = 0) (h1 : t.val = 24) :
    outsAt0 V c t.val t.isLt = ((out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2), (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2)) := by
  obtain ⟨n, hn⟩ := t
  cases n with
  | zero => exact absurd rfl h0
  | succ n => exact (dif_pos h1).trans rfl

/-- The region invariant before position `n`: before the first point the class's (every scratch at anything);
    afterwards the scoped rest with each accumulator at what the point before left in it, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ rest0 (F := F) c) ∗ (∃ r, prngReg c r)) := by
  cases n with
  | zero => exact absurd rfl hz
  | succ n => rfl

/-! ## The pipeline's proof data -/

/-- The proof data of this pipeline on core `c`: the arrays as the region finds them (`V`); after the body at point
    `t` each input's buffer at its block and the outputs' at `outsAt0`'s components; the invariant `PhiS`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1.1
    | ⟨7, _⟩ => (outsAt0 V c t.val t.isLt).1.2.1
    | ⟨8, _⟩ => (outsAt0 V c t.val t.isLt).1.2.2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1.1 := by dsimp only [dat0]
theorem after0_7 (c : Dev nD) (t : Fin cfg0.N) : (dat0 V c).after 7 t = (outsAt0 V c t.val t.isLt).1.2.1 := by dsimp only [dat0]
theorem after0_8 (c : Dev nD) (t : Fin cfg0.N) : (dat0 V c).after 8 t = (outsAt0 V c t.val t.isLt).1.2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4800000 in
/-- The body at any point: the inputs' memrefs hold their blocks; the closed forms say which case the point is in; the
    invariant hands the body the accumulators at what the point before left (at anything at the first point) and takes
    them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 25 := lt_of_lt_of_eq t.isLt (show cfg0.N = 25 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  by_cases h0 : t.val = 0
  · have h1 : ¬t.val = 24 := by omega
    rw [Dat.leavesExact_idle (dat0 V c) 7 t (idleAt0_7 t (fun h => h1 ((hcond0_1 t).mp h))) (noFlush0_7 t (fun h => h1 ((hcond0_1 t).mp h)))]
    rw [Dat.leavesExact_idle (dat0 V c) 8 t (idleAt0_8 t (fun h => h1 ((hcond0_1 t).mp h))) (noFlush0_8 t (fun h => h1 ((hcond0_1 t).mp h)))]
    rw [outsAt0_A V c t h0 h1]
    unfold out0_A_6 sout0_A_0 sout0_A_1; (try dsimp only)
    rw [PhiS_castSucc V c t, PhiS_zero V c _ _ h0, PhiA0_eq]
    iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hr Hg]
    · isplitl [HS0 HS1 Hr]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _)
    isplitl [H7]; · iexists _; iexact H7
    iexists _; iexact H8
  · by_cases h1 : t.val = 24
    · rw [show (dat0 V c).leavesExact 7 t = owns (c : Thread nD τ) (ms0_7 t) fullShare ((dat0 V c).after 7 t) from by
        unfold Dat.leavesExact; rw [liveAt0_7_C t ((hcond0_1 t).mpr h1)], after0_7]
      rw [show (dat0 V c).leavesExact 8 t = owns (c : Thread nD τ) (ms0_8 t) fullShare ((dat0 V c).after 8 t) from by
        unfold Dat.leavesExact; rw [liveAt0_8_C t ((hcond0_1 t).mpr h1)], after0_8]
      rw [outsAt0_C V c t h0 h1]
      unfold out0_C_6 out0_C_7 out0_C_8 sout0_C_0 sout0_C_1; (try dsimp only)
      rw [PhiS_castSucc V c t, PhiS_pos V c _ _ h0]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _)
    · rw [Dat.leavesExact_idle (dat0 V c) 7 t (idleAt0_7 t (fun h => h1 ((hcond0_1 t).mp h))) (noFlush0_7 t (fun h => h1 ((hcond0_1 t).mp h)))]
      rw [Dat.leavesExact_idle (dat0 V c) 8 t (idleAt0_8 t (fun h => h1 ((hcond0_1 t).mp h))) (noFlush0_8 t (fun h => h1 ((hcond0_1 t).mp h)))]
      rw [outsAt0_B V c t h0 h1]
      unfold out0_B_6 sout0_B_0 sout0_B_1; (try dsimp only)
      rw [PhiS_castSucc V c t, PhiS_pos V c _ _ h0]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _).2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hr⟩, Hg⟩
  isplitl [HS0 HS1 Hr]
  · isplitl [HS0]
    · iexists _; iexact HS0
    isplitl [HS1]
    · iexists _; iexact HS1
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 25 := N_0; omega)

end Region0

end Cert.KernelIdeal.Hand

end
-- ==== Proof.Reg1.lean ====
import proofs.«116873_j21114059227217_1_alg».proof.Proof.Gen.KernelIdeal.Launch
import proofs.«116873_j21114059227217_1_alg».proof.Proof.Gen.KernelIdeal.Skeleton
import proofs.«116873_j21114059227217_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: the batch-norm normalisation body at a generic grid point

The second kernel region reads five input windows whole (a 2000x128 block of activations and four 1x128 rows:
mean, inverse standard deviation, scale, shift), computes
`((h - mean) * invstd) * gamma + beta` with the rows broadcast along the long axis, and stores the result whole
into the output window. Everything here is stated at a parameter `V`, the buffer contents when the region is
entered, and at any float model `F`. -/

-- membership in a rectangle of the long axes recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: where the window is not fetched its block
    index has not moved, so the previous point's block is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: where the window is not fetched its block
    index has not moved, so the previous point's block is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: where the window is not fetched its block
    index has not moved, so the previous point's block is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: where the window is not fetched its block
    index has not moved, so the previous point's block is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: where the window is not fetched its block
    index has not moved, so the previous point's block is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_big : Rect S2000x128 := Rect.unit (s := S2000x128) ![0, 0] S2000x128.size inb_S2000x128_S2000x128_0_0
abbrev r1_row : Rect S1x128 := Rect.unit (s := S1x128) ![0, 0] S1x128.size inb_S1x128_S1x128_0_0

/-! ## What the body leaves in the output window's buffer -/

/-- The output window's staging buffer after the body, from the input windows' blocks: its one store, of the
    payload computed from the five whole loads, as a single piece covering the buffer. -/
def out1_5 (x0 : Vec F S2000x128 .f32) (x1 x2 x3 x4 : Vec F S1x128 .f32) : Vec F S2000x128 .f32 :=
  View.canon [⟨r1_big, k1_pay1 (View.ld x0 r1_big) (View.ld x1 r1_row) (View.ld x2 r1_row) (View.ld x3 r1_row) (View.ld x4 r1_row)⟩]

/-- The single store is of the whole buffer, so it covers it. -/
theorem cover1_5 (p0 : Vec F S2000x128 .f32) (y : S2000x128.Idx) :
    ∃ pc ∈ ([⟨r1_big, p0⟩] : List (View.Piece (Elt F) S2000x128 .f32)), y ∈ pc.1.set :=
  View.cover_of_tiled [⟨r1_big, p0⟩] S2000x128.size (by rfl) y

/-! ## The body's triple -/

set_option maxHeartbeats 1000000 in
/-- The kernel body on whole staging memrefs, the inputs' at read contents `xW` and the output's at anything, runs
    to the continuation holding the inputs' as they were and the output's at `out1_5` of the inputs': five whole
    loads, a load of the output buffer whose value is dropped, and one whole store of the payload. -/
theorem sound_kernel1 (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_kernel i arg1 harg1 arg2 harg2 arg3 harg3 arg4 harg4 arg5 harg5 arg6 harg6) K := by
  simp only [cc1__bn_kernel_eq_skeleton]; unfold cc1__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the region's pipeline on core `c`: the arrays as the region finds them (`V`); after the body
    at point `t` each input's buffer at its block and the output's at `out1_5` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, what the core owes, and each window's current
    staging buffer — the inputs' at what the pipeline put there, the output's at anything. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KFrame.lean ====
/-
  The run of the two-kernel program as a chain of four segments.

  @main is a stretch of host operations (the neighbour aggregation: a gather of rows and a scatter-add), the
  perceptron kernel over 25 row tiles, a second stretch of host operations (the column statistics), and the
  normalisation kernel over the same 25 tiles. Between two segments every unscoped buffer of a core is held whole at
  named contents: the launch memory, then what the first stretch computes from it, then — at the first kernel's
  three result arrays — what the pipeline's write-backs leave, and so on. The last contents are read off the final
  memory, which gives both the frame (no argument array is ever written) and the value of the result array: what the
  second pipeline's write-backs leave in it.
-/
import proofs.«116873_j21114059227217_1_alg».proof.Proof.Reg0
import proofs.«116873_j21114059227217_1_alg».proof.Proof.Reg1
import proofs.«116873_j21114059227217_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the five boundaries -/

/-- Core `c`'s buffers at launch. -/
abbrev W0 : Dev nD → Valuation τ sig (Elt F) := fun c b => m ((c : Dev nD), b)
/-- After the aggregation stretch: what the perceptron kernel is entered from. -/
abbrev W1 : Dev nD → Valuation τ sig (Elt F) := fun c => StableHlo.after hostOps0 (W0 m c)
/-- The same read at the TensorCore's references. -/
abbrev E1 : (c : Dev nD) → (b : Ref sig .tc) → Buf (Elt F) ((c : Thread nD τ).loc b) := fun c b => W1 m c b
/-- After the perceptron kernel: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev X2 : (c : Dev nD) → (b : Ref sig .tc) → Buf (Elt F) ((c : Thread nD τ).loc b) := fun c b => W2 m c b
theorem hF0 (c : Dev nD) (w : Fin cfg0.W) : (dat0 (E1 m) c).arrAt w cfg0.N = X2 m c (Pipeline.arrRef spec0 w) :=
  (W2_arr m c w).symm
theorem hrest0 (c : Dev nD) : ∀ b, b ∉ Finset.univ.image (Pipeline.arrRef spec0) → X2 m c b = E1 m c b :=
  fun b hb => W2_of_ne m c b fun w e => hb (Finset.mem_image.mpr ⟨w, Finset.mem_univ _, e⟩)

/-- After the statistics stretch: what the normalisation kernel is entered from. -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- After the normalisation kernel. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev X4 : (c : Dev nD) → (b : Ref sig .tc) → Buf (Elt F) ((c : Thread nD τ).loc b) := fun c b => W4 m c b
theorem hF1 (c : Dev nD) (w : Fin cfg1.W) : (dat1 (E3 m) c).arrAt w cfg1.N = X4 m c (Pipeline.arrRef spec1 w) :=
  (W4_arr m c w).symm
theorem hrest1 (c : Dev nD) : ∀ b, b ∉ Finset.univ.image (Pipeline.arrRef spec1) → X4 m c b = E3 m c b :=
  fun b hb => W4_of_ne m c b fun w e => hb (Finset.mem_image.mpr ⟨w, Finset.mem_univ _, e⟩)

/-! ## What each segment leaves unchanged -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h

/-- An input array of the perceptron kernel leaves it as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (E1 m) c).arrAt_in w hw _).trans (A_eq0 (E1 m) c w))

/-- The argument arrays reach the end as launched: no host stretch writes one, and a kernel only reads one. -/
theorem W4_main_arg0 (c : Dev nD) : W4 m c (Proc.devRef .tc main_arg0) = m ((c : Thread nD τ).loc main_arg0) :=
  (W4_of_ne m c main_arg0 (by decide)).trans <| (W3_of m c main_arg0 (by decide)).trans <| (W2_in m c 0 rfl).trans <| (W1_of m c main_arg0 (by decide)).trans rfl
theorem W4_main_arg1 (c : Dev nD) : W4 m c (Proc.devRef .tc main_arg1) = m ((c : Thread nD τ).loc main_arg1) :=
  (W4_of_ne m c main_arg1 (by decide)).trans <| (W3_of m c main_arg1 (by decide)).trans <| (W2_of_ne m c main_arg1 (by decide)).trans <| (W1_of m c main_arg1 (by decide)).trans rfl
theorem W4_main_arg2 (c : Dev nD) : W4 m c (Proc.devRef .tc main_arg2) = m ((c : Thread nD τ).loc main_arg2) :=
  (W4_of_ne m c main_arg2 (by decide)).trans <| (W3_of m c main_arg2 (by decide)).trans <| (W2_in m c 2 rfl).trans <| (W1_of m c main_arg2 (by decide)).trans rfl
theorem W4_main_arg3 (c : Dev nD) : W4 m c (Proc.devRef .tc main_arg3) = m ((c : Thread nD τ).loc main_arg3) :=
  (W4_of_ne m c main_arg3 (by decide)).trans <| (W3_of m c main_arg3 (by decide)).trans <| (W2_in m c 3 rfl).trans <| (W1_of m c main_arg3 (by decide)).trans rfl
theorem W4_main_arg4 (c : Dev nD) : W4 m c (Proc.devRef .tc main_arg4) = m ((c : Thread nD τ).loc main_arg4) :=
  (W4_of_ne m c main_arg4 (by decide)).trans <| (W3_of m c main_arg4 (by decide)).trans <| (W2_in m c 4 rfl).trans <| (W1_of m c main_arg4 (by decide)).trans rfl
theorem W4_main_arg5 (c : Dev nD) : W4 m c (Proc.devRef .tc main_arg5) = m ((c : Thread nD τ).loc main_arg5) :=
  (W4_of_ne m c main_arg5 (by decide)).trans <| (W3_of m c main_arg5 (by decide)).trans <| (W2_in m c 5 rfl).trans <| (W1_of m c main_arg5 (by decide)).trans rfl
theorem W4_main_arg6 (c : Dev nD) : W4 m c (Proc.devRef .tc main_arg6) = m ((c : Thread nD τ).loc main_arg6) :=
  (W4_of_ne m c main_arg6 (by decide)).trans <| (W3_of m c main_arg6 (by decide)).trans <| (W2_of_ne m c main_arg6 (by decide)).trans <| (W1_of m c main_arg6 (by decide)).trans rfl
theorem W4_main_arg7 (c : Dev nD) : W4 m c (Proc.devRef .tc main_arg7) = m ((c : Thread nD τ).loc main_arg7) :=
  (W4_of_ne m c main_arg7 (by decide)).trans <| (W3_of m c main_arg7 (by decide)).trans <| (W2_of_ne m c main_arg7 (by decide)).trans <| (W1_of m c main_arg7 (by decide)).trans rfl

/-- The result array ends at what the normalisation pipeline's write-backs leave in it. -/
theorem W4_main_v26 (c : Dev nD) : W4 m c (Proc.devRef .tc main_v26) = (dat1 (E3 m) c).arrAt 5 cfg1.N :=
  W4_arr m c 5

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The kernels as segments -/

/-- The plain region invariant of the perceptron kernel gives back the generator register and the scoped buffers no
    window stages. -/
theorem PhiA_out0 (c : Dev nD) :
    (Pipeline.ΦA spec0 c : sProp 𝕄) ⊢ iprop((∃ r, prngReg c r) ∗ emp ∗ Pipeline.scopedRest spec0 c) := by
  unfold Pipeline.ΦA
  iintro ⟨Hr, Hp⟩
  isplitl [Hp]; · iexact Hp
  isplitr; · iempintro
  iexact Hr

set_option backward.isDefEq.respectTransparency.types false in
/-- The perceptron kernel over the thread state: entered from every unscoped buffer at `W1`, left at `W2`. Its
    arrays are split out of the unscoped buffers and put back at the exit contents; the generator register and the
    two accumulator buffers go into the region's invariant (at its first point the plain one) and come back out of
    its last. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    exact (hout0 (E1 m) c).trans (PhiA_out0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalisation kernel over the thread state: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (X4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and the final memory holds every unscoped buffer of every core at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c)⟩) (run_all m ρ)

/-- The value run: the result array ends at what the normalisation pipeline leaves, the arguments as launched. -/
theorem run_value : θ_run defs (onTc (τ := τ) (main (F := F))) ⟨m, fun _ => 0, ρ⟩ (fun r => ∀ c : Dev nD,
      r.2.mem ((c.tc : Thread nD τ).loc main_v26) = (dat1 (E3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_v26 (by decide))).trans (W4_main_v26 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c)⟩) (run_all m ρ)

end Cert.KernelIdeal.Hand

end
-- ==== Proof.KHost.lean ====
/-
  The two stretches of host operations of the two-kernel program, read as values over the extended reals.

  The first stretch computes every node's neighbour aggregate from the feature array and the edge list (a gather
  of the source rows and a scatter-add into the destination rows). The second turns the two column accumulators
  the perceptron kernel leaves (the column sums S and the column sums of squares Q) into the column statistics the
  normalisation kernel reads: the mean S / n, the inverse deviation rsqrt (Q / n - mean · mean + ε), and the scale
  and shift vectors laid out as one-row matrices.
-/
import proofs.«116873_j21114059227217_1_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal

noncomputable section

namespace Cert.KernelIdeal.Hand

open Idealize.ShloMosaic Idealize.ShloMosaic.TcCoe Idealize.SL.Sem Idealize.ShloMosaic.ValueIdx
open Cert.KernelIdeal Cert.KernelIdeal.Gen

/-- The neighbour aggregate: row i is the sum of the feature rows x[src e] over the edges e whose destination is i
    (a source index below zero counted from the end, as array indexing does). -/
def kerAgg (x : FVec Ideal S50000x128 .f32) (ei : (⟨S2x800000, .i32⟩ : BufTy).Contents (Elt Ideal)) : FVec Ideal S50000x128 .f32 :=
  Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0
        (shapeCast S800000 (extractStridedSlice S1x800000 ![1, 0] ei slices_S2x800000_S1x800000_1_0) shapeCasts_S1x800000_S800000))
      (Host.gather gather_S50000x128_S800000x1_S800000x128_1_0_n_n_0_1_1128 x
        (broadcastInDim S800000x1 ![0] bcast_S800000_S800000x1_0
          (select
            (cmpi .slt (shapeCast S800000 (extractStridedSlice S1x800000 ![0, 0] ei slices_S2x800000_S1x800000_0_0) shapeCasts_S1x800000_S800000)
              (broadcastInDim S800000 ![] bcast_S_S800000 (constantI S_ 32 0#32)))
            (addi (shapeCast S800000 (extractStridedSlice S1x800000 ![0, 0] ei slices_S2x800000_S1x800000_0_0) shapeCasts_S1x800000_S800000)
              (broadcastInDim S800000 ![] bcast_S_S800000 (constantI S_ 32 50000#32)))
            (shapeCast S800000 (extractStridedSlice S1x800000 ![0, 0] ei slices_S2x800000_S1x800000_0_0) shapeCasts_S1x800000_S800000))))

/-- After the first stretch the aggregate's buffer holds the aggregate of the feature array and the edge list. -/
theorem after0_v13 (V : Valuation τ sig (Elt Ideal)) :
    StableHlo.after (hostOps0 (F := Ideal)) V (Proc.devRef .tc main_v13)
      = kerAgg (V (Proc.devRef .tc main_arg0)) (V (Proc.devRef .tc main_arg1)) := by
  after_results
  rfl

/-- The count of nodes as the programs write it. -/
abbrev cntLit : EReal := Ideal.ofBits .f32 0x47435000#32
/-- The variance floor as the programs write it. -/
abbrev epsLit : EReal := Ideal.ofBits .f32 0x3727C5AC#32

/-- A scalar constant broadcast to any shape reads the constant everywhere. -/
theorem bcast_const_apply {t : Shape} (h : S_.BroadcastsInDim t (![] : Fin 0 → Fin t.rank)) (b : BitVec 32) (j : t.Idx) :
    broadcastInDim t ![] h (constant (F := Ideal) S_ .f32 b) j = Ideal.ofBits .f32 b := by
  rw [broadcastInDim_apply ![] h (constant (F := Ideal) S_ .f32 b) j (fun a => a.elim0) (fun a => a.elim0)]
  rfl

/-- The mean row after the second stretch: the column sum over the count. -/
theorem stat_mean (V : Valuation τ sig (Elt Ideal)) (q : Fin 128) :
    (StableHlo.after (hostOps1 (F := Ideal)) V (Proc.devRef .tc main_v16) : S1x128.Idx → EReal) (ix2 (0 : Fin 1) q)
      = Ideal.div ((V (Proc.devRef .tc main_v14_1) : S1x128.Idx → EReal) (ix2 (0 : Fin 1) q)) cntLit := by
  have e : (StableHlo.after (hostOps1 (F := Ideal)) V (Proc.devRef .tc main_v16) : S1x128.Idx → EReal)
      = Host.divf (F := Ideal) (V (Proc.devRef .tc main_v14_1)) (broadcastInDim S1x128 ![] bcast_S_S1x128 (constant (F := Ideal) S_ .f32 0x47435000#32)) := by
    after_results; try rfl
  rw [e]
  show Ideal.div _ (broadcastInDim S1x128 ![] bcast_S_S1x128 (constant (F := Ideal) S_ .f32 0x47435000#32) (ix2 (0 : Fin 1) q)) = _
  rw [bcast_const_apply]

/-- The inverse-deviation row after the second stretch. -/
theorem stat_invstd (V : Valuation τ sig (Elt Ideal)) (q : Fin 128) :
    (StableHlo.after (hostOps1 (F := Ideal)) V (Proc.devRef .tc main_v23) : S1x128.Idx → EReal) (ix2 (0 : Fin 1) q)
      = Ideal.rsqrt ((Ideal.div ((V (Proc.devRef .tc main_v14_2) : S1x128.Idx → EReal) (ix2 (0 : Fin 1) q)) cntLit
          - Ideal.div ((V (Proc.devRef .tc main_v14_1) : S1x128.Idx → EReal) (ix2 (0 : Fin 1) q)) cntLit
            * Ideal.div ((V (Proc.devRef .tc main_v14_1) : S1x128.Idx → EReal) (ix2 (0 : Fin 1) q)) cntLit) + epsLit) := by
  have e : (StableHlo.after (hostOps1 (F := Ideal)) V (Proc.devRef .tc main_v23) : S1x128.Idx → EReal)
      = Host.rsqrt (F := Ideal) (addf (subf
          (Host.divf (F := Ideal) (V (Proc.devRef .tc main_v14_2)) (broadcastInDim S1x128 ![] bcast_S_S1x128 (constant (F := Ideal) S_ .f32 0x47435000#32)))
          (mulf (Host.divf (F := Ideal) (V (Proc.devRef .tc main_v14_1)) (broadcastInDim S1x128 ![] bcast_S_S1x128 (constant (F := Ideal) S_ .f32 0x47435000#32)))
            (Host.divf (F := Ideal) (V (Proc.devRef .tc main_v14_1)) (broadcastInDim S1x128 ![] bcast_S_S1x128 (constant (F := Ideal) S_ .f32 0x47435000#32)))))
          (broadcastInDim S1x128 ![] bcast_S_S1x128 (constant (F := Ideal) S_ .f32 0x3727C5AC#32))) := by
    after_results; try rfl
  rw [e]
  show Ideal.rsqrt ((Ideal.div _ (broadcastInDim S1x128 ![] bcast_S_S1x128 (constant (F := Ideal) S_ .f32 0x47435000#32) (ix2 (0 : Fin 1) q))
      - Ideal.div _ (broadcastInDim S1x128 ![] bcast_S_S1x128 (constant (F := Ideal) S_ .f32 0x47435000#32) (ix2 (0 : Fin 1) q))
        * Ideal.div _ (broadcastInDim S1x128 ![] bcast_S_S1x128 (constant (F := Ideal) S_ .f32 0x47435000#32) (ix2 (0 : Fin 1) q)))
      + broadcastInDim S1x128 ![] bcast_S_S1x128 (constant (F := Ideal) S_ .f32 0x3727C5AC#32) (ix2 (0 : Fin 1) q)) = _
  rw [bcast_const_apply bcast_S_S1x128 0x47435000#32 (ix2 (0 : Fin 1) q), bcast_const_apply bcast_S_S1x128 0x3727C5AC#32 (ix2 (0 : Fin 1) q)]

/-- The scale row after the second stretch: the scale vector. -/
theorem stat_gamma (V : Valuation τ sig (Elt Ideal)) (q : Fin 128) :
    (StableHlo.after (hostOps1 (F := Ideal)) V (Proc.devRef .tc main_v24) : S1x128.Idx → EReal) (ix2 (0 : Fin 1) q)
      = (V (Proc.devRef .tc main_arg6) : S128.Idx → EReal) (ix1 q) := by
  have e : (StableHlo.after (hostOps1 (F := Ideal)) V (Proc.devRef .tc main_v24) : S1x128.Idx → EReal)
      = shapeCast S1x128 (V (Proc.devRef .tc main_arg6) : S128.Idx → EReal) shapeCasts_S128_S1x128 := by
    after_results; try rfl
  rw [e]
  exact shapeCast_a_1a_apply _ _ _ _

/-- The shift row after the second stretch: the shift vector. -/
theorem stat_beta (V : Valuation τ sig (Elt Ideal)) (q : Fin 128) :
    (StableHlo.after (hostOps1 (F := Ideal)) V (Proc.devRef .tc main_v25) : S1x128.Idx → EReal) (ix2 (0 : Fin 1) q)
      = (V (Proc.devRef .tc main_arg7) : S128.Idx → EReal) (ix1 q) := by
  have e : (StableHlo.after (hostOps1 (F := Ideal)) V (Proc.devRef .tc main_v25) : S1x128.Idx → EReal)
      = shapeCast S1x128 (V (Proc.devRef .tc main_arg7) : S128.Idx → EReal) shapeCasts_S128_S1x128 := by
    after_results; try rfl
  rw [e]
  exact shapeCast_a_1a_apply _ _ _ _

end Cert.KernelIdeal.Hand

end
-- ==== Proof.LibFinite.lean ====
/-
  Finite extended reals. An extended real is FINITE when it is a real number. Sums, products, maxima and quotients
  by a non-zero divisor of finite values are finite, and on finite values multiplication distributes over addition
  (on the extended reals it does not in general: `⊤ * (1 + -1) = 0` but `⊤ * 1 + ⊤ * -1 = ⊥`). The last section
  states the two laws a "dense combine" step needs: a sum of products against a sum of two matrices splits into two
  sums of products, and the regrouping of six summands that carries a combined bias to the two summands it belongs to.
-/
import Idealize.ShloMosaic.PureOps.Ideal.Laws

noncomputable section

namespace Cert.LibFinite

open Idealize.ShloMosaic

/-- `x` is a real number (neither `⊤` nor `⊥`). -/
def IsFin (x : EReal) : Prop := ∃ r : ℝ, x = (r : EReal)

namespace IsFin

theorem coe (r : ℝ) : IsFin (r : EReal) := ⟨r, rfl⟩
theorem zero : IsFin (0 : EReal) := ⟨0, rfl⟩
theorem one : IsFin (1 : EReal) := ⟨1, rfl⟩

theorem add {x y : EReal} (hx : IsFin x) (hy : IsFin y) : IsFin (x + y) := by
  obtain ⟨a, rfl⟩ := hx; obtain ⟨b, rfl⟩ := hy
  exact ⟨a + b, (EReal.coe_add a b).symm⟩

theorem mul {x y : EReal} (hx : IsFin x) (hy : IsFin y) : IsFin (x * y) := by
  obtain ⟨a, rfl⟩ := hx; obtain ⟨b, rfl⟩ := hy
  exact ⟨a * b, (EReal.coe_mul a b).symm⟩

theorem max {x y : EReal} (hx : IsFin x) (hy : IsFin y) : IsFin (max x y) := by
  obtain ⟨a, rfl⟩ := hx; obtain ⟨b, rfl⟩ := hy
  rcases le_total a b with h | h
  · rw [max_eq_right (EReal.coe_le_coe_iff.mpr h)]; exact ⟨b, rfl⟩
  · rw [max_eq_left (EReal.coe_le_coe_iff.mpr h)]; exact ⟨a, rfl⟩

theorem sum {ι : Type} (s : Finset ι) (f : ι → EReal) (h : ∀ i ∈ s, IsFin (f i)) : IsFin (∑ i ∈ s, f i) :=
  Finset.sum_induction f IsFin (fun _ _ => add) zero h

/-- The quotient of the ideal instance by a finite non-zero divisor. -/
theorem div {x y : EReal} (hx : IsFin x) (hy : IsFin y) (h0 : y ≠ 0) : IsFin (Ideal.div x y) := by
  obtain ⟨a, rfl⟩ := hx; obtain ⟨b, rfl⟩ := hy
  unfold Ideal.div
  rw [if_neg h0, ← EReal.coe_inv, ← EReal.coe_mul]
  exact ⟨_, rfl⟩

/-- A maximum against one is not zero (the divisor of a mean over a count that may be zero). -/
theorem max_one_ne_zero (x : EReal) : Max.max x 1 ≠ 0 :=
  ne_of_gt (lt_of_lt_of_le zero_lt_one (le_max_right x 1))

end IsFin

/-! ## The laws on finite values -/

/-- On finite values multiplication distributes over addition. -/
theorem mul_add_of_fin {x a b : EReal} (hx : IsFin x) (ha : IsFin a) (hb : IsFin b) : x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-- A sum of products against a sum of two families splits, all factors finite: row `x` against the column of
    `A + B` is row `x` against the column of `A` plus row `x` against the column of `B`. -/
theorem sum_mul_add {ι : Type} [Fintype ι] (x a b : ι → EReal) (hx : ∀ k, IsFin (x k)) (ha : ∀ k, IsFin (a k))
    (hb : ∀ k, IsFin (b k)) : ∑ k, x k * (a k + b k) = ∑ k, x k * a k + ∑ k, x k * b k := by
  rw [← Finset.sum_add_distrib]
  exact Finset.sum_congr rfl fun k _ => mul_add_of_fin (hx k) (ha k) (hb k)

/-- Six summands regrouped: the two aggregated terms `P`, `Q`, the two self terms `X₀`, `X₃` and the two biases, summed
    as "(P + Q) + (X₀ + X₃) + (b₀ + b₃)", are the sum of the two relations' own "(P + b₀) + X₀" and "(Q + b₃) + X₃".
    Addition of extended reals is commutative and associative everywhere, so no finiteness is needed. -/
theorem combine_regroup (P Q X₀ X₃ b₀ b₃ : EReal) :
    P + Q + (X₀ + X₃) + (b₀ + b₃) = (P + b₀ + X₀) + (Q + b₃ + X₃) := by
  abel

end Cert.LibFinite

end
-- ==== Proof.Spec.lean ====
/-
  The mathematics both programs compute, over the extended reals.

  A graph layer: every node's feature row plus the sum of its in-neighbours' rows goes through a two-layer
  perceptron (a hidden layer with a rectifier), and the result is normalised column by column over all the
  nodes (batch normalisation with the biased variance), scaled and shifted.

  The two programs differ only in how they take the variance of a column: one as the mean of the squares minus the
  square of the mean, the other as the mean of the squared deviations from the mean. On real numbers these agree;
  on the extended reals they do not in general (with an infinite entry one side is ⊥ and the other ⊤), so the
  identity is proved for columns of real numbers. The column's length is a parameter `n` (50000 in the programs).
-/
import proofs.«116873_j21114059227217_1_alg».proof.Proof.LibFinite

noncomputable section

open scoped BigOperators

namespace Cert.Spec

open Idealize.ShloMosaic Cert.LibFinite

/-- A node's hidden activation k: the rectified  Σ_j (x_j + a_j) · W1(j,k) + b1_k  (x the node's row, a its aggregate). -/
def hid {d : ℕ} (xr ar : Fin d → EReal) (w1 : Fin d → Fin d → EReal) (b1 : Fin d → EReal) (k : Fin d) : EReal :=
  max (∑ j : Fin d, (xr j + ar j) * w1 j k + b1 k) 0

/-- A node's output feature q of the perceptron:  Σ_k hid_k · W2(k,q) + b2_q. -/
def mlp {d : ℕ} (xr ar : Fin d → EReal) (w1 : Fin d → Fin d → EReal) (b1 : Fin d → EReal)
    (w2 : Fin d → Fin d → EReal) (b2 : Fin d → EReal) (q : Fin d) : EReal :=
  ∑ k : Fin d, hid xr ar w1 b1 k * w2 k q + b2 q

/-- The count of nodes, as the divisor of a mean. -/
def cnt (n : ℕ) : EReal := ((n : ℝ) : EReal)

/-- The mean of a column. -/
def mean {n : ℕ} (H : Fin n → EReal) : EReal := Ideal.div (∑ p : Fin n, H p) (cnt n)

/-- The variance as the mean of the squares minus the square of the mean. -/
def varMoments {n : ℕ} (H : Fin n → EReal) : EReal :=
  Ideal.div (∑ p : Fin n, H p * H p) (cnt n) - mean H * mean H

/-- The variance as the mean of the squared deviations. -/
def varCentered {n : ℕ} (H : Fin n → EReal) : EReal :=
  Ideal.div (∑ p : Fin n, (H p - mean H) * (H p - mean H)) (cnt n)

/-- The normalisation of one entry. -/
def bn (h μ v eps g b : EReal) : EReal := ((h - μ) * Ideal.rsqrt (v + eps)) * g + b

theorem div_cnt {n : ℕ} (hn : n ≠ 0) (r : ℝ) : Ideal.div (r : EReal) (cnt n) = ((r / n : ℝ) : EReal) := by
  unfold cnt
  rw [Ideal.div_coe (by exact_mod_cast hn : (n : ℝ) ≠ 0)]
  rw [← EReal.coe_mul]; congr 1; ring

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity on the reals: the mean of the squared deviations is the mean of the squares less the squared mean. -/
theorem real_var {n : ℕ} (hn : n ≠ 0) (h : Fin n → ℝ) :
    (∑ p, h p * h p) / n - ((∑ p, h p) / n) * ((∑ p, h p) / n)
      = (∑ p, (h p - (∑ p, h p) / n) * (h p - (∑ p, h p) / n)) / n := by
  have hn' : (n : ℝ) ≠ 0 := by exact_mod_cast hn
  set μ := (∑ p, h p) / n with hμ
  have hs : (∑ p, h p) = n * μ := by rw [hμ]; field_simp
  have hexp : (∑ p, (h p - μ) * (h p - μ)) = (∑ p, h p * h p) - 2 * μ * (∑ p, h p) + n * (μ * μ) := by
    have : ∀ p, (h p - μ) * (h p - μ) = h p * h p - 2 * μ * h p + μ * μ := fun p => by ring
    simp only [this, Finset.sum_add_distrib, Finset.sum_sub_distrib, ← Finset.mul_sum, Finset.sum_const, Finset.card_univ,
      Fintype.card_fin, nsmul_eq_mul]
    ring
  rw [hexp, hs]; field_simp; ring

/-- On a column of real numbers the two variances agree. -/
theorem varMoments_eq_varCentered {n : ℕ} (hn : n ≠ 0) (H : Fin n → EReal) (hH : ∀ p, IsFin (H p)) :
    varMoments H = varCentered H := by
  choose h hh using hH
  have hmean : mean H = (((∑ p, h p) / n : ℝ) : EReal) := by
    unfold mean
    rw [show (∑ p, H p) = ((∑ p, h p : ℝ) : EReal) from by rw [coe_sum]; exact Finset.sum_congr rfl fun p _ => hh p]
    exact div_cnt hn _
  unfold varMoments varCentered
  rw [hmean]
  have e1 : (∑ p, H p * H p) = ((∑ p, h p * h p : ℝ) : EReal) := by
    rw [coe_sum]; exact Finset.sum_congr rfl fun p _ => by rw [hh p, EReal.coe_mul]
  have e2 : (∑ p, (H p - (((∑ p, h p) / n : ℝ) : EReal)) * (H p - (((∑ p, h p) / n : ℝ) : EReal)))
      = ((∑ p, (h p - (∑ p, h p) / n) * (h p - (∑ p, h p) / n) : ℝ) : EReal) := by
    rw [coe_sum]; exact Finset.sum_congr rfl fun p _ => by rw [hh p, ← EReal.coe_sub, ← EReal.coe_mul]
  rw [e1, e2, div_cnt hn, div_cnt hn, ← EReal.coe_mul, ← EReal.coe_sub, real_var hn h]

end Cert.Spec

end
-- ==== Proof.KOut.lean ====
/-
  The result of the two-kernel program as one function of its argument arrays: the batch normalisation of the
  perceptron output of the features and their neighbour aggregates, the variance taken as the mean of the squares
  less the squared mean.
-/
import proofs.«116873_j21114059227217_1_alg».proof.Proof.KHost
import proofs.«116873_j21114059227217_1_alg».proof.Proof.Spec

noncomputable section

namespace Cert.KernelIdeal.Hand

open Idealize.ShloMosaic Idealize.ShloMosaic.ValueIdx
open Cert.KernelIdeal

/-- The perceptron output of node `p`, feature `q`, from the argument arrays. -/
def kerH (x : FVec Ideal S50000x128 .f32) (ei : (⟨S2x800000, .i32⟩ : BufTy).Contents (Elt Ideal))
    (W1 : FVec Ideal S128x128 .f32) (b1 : FVec Ideal S128 .f32) (W2 : FVec Ideal S128x128 .f32) (b2 : FVec Ideal S128 .f32)
    (q : Fin 128) (p : Fin 50000) : EReal :=
  Cert.Spec.mlp (fun j => x (ix2 p j)) (fun j => kerAgg x ei (ix2 p j)) (fun j k => W1 (ix2 j k)) (fun k => b1 (ix1 k))
    (fun k q' => W2 (ix2 k q')) (fun q' => b2 (ix1 q')) q

/-- The result array: the normalised perceptron output, the variance by moments. -/
def kerOut (x : FVec Ideal S50000x128 .f32) (ei : (⟨S2x800000, .i32⟩ : BufTy).Contents (Elt Ideal))
    (W1 : FVec Ideal S128x128 .f32) (b1 : FVec Ideal S128 .f32) (W2 : FVec Ideal S128x128 .f32) (b2 : FVec Ideal S128 .f32)
    (g bt : FVec Ideal S128 .f32) : FVec Ideal S50000x128 .f32 := fun i =>
  Cert.Spec.bn (kerH x ei W1 b1 W2 b2 (i 1) (i 0)) (Cert.Spec.mean (kerH x ei W1 b1 W2 b2 (i 1)))
    (Cert.Spec.varMoments (kerH x ei W1 b1 W2 b2 (i 1))) epsLit (g (ix1 (i 1))) (bt (ix1 (i 1)))

end Cert.KernelIdeal.Hand

end
-- ==== Proof.Reg0Value.lean ====
import proofs.«116873_j21114059227217_1_alg».proof.Proof.Reg0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz1 : (![0] : Fin 1 → Nat) = fun _ => 0 := funext fun a => by fin_cases a <;> rfl

/-! ## What each case's found pieces are, as payloads of the input blocks and the accumulators' previous contents -/

/-- At the first point output 6 holds the layer's value of the input blocks. -/
theorem out0_A_6_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) :
    out0_A_6 c i arg1 harg1 arg2 harg2 arg3 harg3 arg4 harg4 arg5 harg5 arg6 harg6 arg7 harg7 arg8 harg8 arg9 harg9 arg10 harg10 arg11 harg11 hc0 hc1 x0 x1 x2 x3 x4 x5 = k0_pay4 x0 x1 x2 x4 x3 x5 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_unit_zero (S := S2000x128) hz2]
  simp only [View.readAt_eq_ld, harg1.read_unread, harg2.read_unread, harg3.read_unread, harg4.read_unread, harg5.read_unread, harg6.read_unread, View.ld_unit_zero (S := S2000x128) hz2, View.ld_unit_zero (S := S128x128) hz2, View.ld_unit_zero (S := S128) hz1, View.ld_unit_zero (S := S1x128) hz2]

/-- At the first point accumulator 0 holds the column sums added to the zeros just stored. -/
theorem sout0_A_0_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) :
    sout0_A_0 c i arg1 harg1 arg2 harg2 arg3 harg3 arg4 harg4 arg5 harg5 arg6 harg6 arg7 harg7 arg8 harg8 arg9 harg9 arg10 harg10 arg11 harg11 hc0 hc1 x0 x1 x2 x3 x4 x5 = k0_pay5 x0 x1 x2 x4 x3 x5 (k0_pay2 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, View.ld_unit_zero (S := S2000x128) hz2, View.ld_unit_zero (S := S128x128) hz2, View.ld_unit_zero (S := S128) hz1, View.ld_unit_zero (S := S1x128) hz2]

/-- At the first point accumulator 1 holds the column sums of squares added to the zeros just stored. -/
theorem sout0_A_1_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) :
    sout0_A_1 c i arg1 harg1 arg2 harg2 arg3 harg3 arg4 harg4 arg5 harg5 arg6 harg6 arg7 harg7 arg8 harg8 arg9 harg9 arg10 harg10 arg11 harg11 hc0 hc1 x0 x1 x2 x3 x4 x5 = k0_pay1 (k0_pay4 x0 x1 x2 x4 x3 x5) (k0_pay3 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, View.ld_unit_zero (S := S2000x128) hz2, View.ld_unit_zero (S := S128x128) hz2, View.ld_unit_zero (S := S128) hz1, View.ld_unit_zero (S := S1x128) hz2]

/-- At a middle point output 6 holds the layer's value of the input blocks. -/
theorem out0_B_6_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) :
    out0_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay4 x0 x1 x2 x4 x3 x5 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero (S := S2000x128) hz2]
  simp only [View.readAt_eq_ld, harg1.read_unread, harg2.read_unread, harg3.read_unread, harg4.read_unread, harg5.read_unread, harg6.read_unread, View.ld_unit_zero (S := S2000x128) hz2, View.ld_unit_zero (S := S128x128) hz2, View.ld_unit_zero (S := S128) hz1, View.ld_unit_zero (S := S1x128) hz2]

/-- Accumulator 0 holds the column sums added to what the point before left. -/
theorem sout0_B_0_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) :
    sout0_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay5 x0 x1 x2 x4 x3 x5 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero (S := S1x128) hz2]
  simp only [View.readAt_eq_ld, harg1.read_unread, harg2.read_unread, harg3.read_unread, harg4.read_unread, harg5.read_unread, harg6.read_unread, harg10.read_unread, harg11.read_unread, View.ld_unit_zero (S := S2000x128) hz2, View.ld_unit_zero (S := S128x128) hz2, View.ld_unit_zero (S := S128) hz1, View.ld_unit_zero (S := S1x128) hz2]

/-- Accumulator 1 holds the column sums of squares added to what the point before left. -/
theorem sout0_B_1_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) :
    sout0_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay4 x0 x1 x2 x4 x3 x5) xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero (S := S1x128) hz2]
  simp only [View.readAt_eq_ld, harg1.read_unread, harg2.read_unread, harg3.read_unread, harg4.read_unread, harg5.read_unread, harg6.read_unread, harg10.read_unread, harg11.read_unread, View.ld_unit_zero (S := S2000x128) hz2, View.ld_unit_zero (S := S128x128) hz2, View.ld_unit_zero (S := S128) hz1, View.ld_unit_zero (S := S1x128) hz2]

/-- At the last point output 6 holds the layer's value of the input blocks. -/
theorem out0_C_6_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) :
    out0_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay4 x0 x1 x2 x4 x3 x5 := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero (S := S2000x128) hz2]
  simp only [View.readAt_eq_ld, harg1.read_unread, harg2.read_unread, harg3.read_unread, harg4.read_unread, harg5.read_unread, harg6.read_unread, View.ld_unit_zero (S := S2000x128) hz2, View.ld_unit_zero (S := S128x128) hz2, View.ld_unit_zero (S := S128) hz1, View.ld_unit_zero (S := S1x128) hz2]

/-- Accumulator 0 holds the column sums added to what the point before left. -/
theorem sout0_C_0_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) :
    sout0_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay5 x0 x1 x2 x4 x3 x5 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero (S := S1x128) hz2]
  simp only [View.readAt_eq_ld, harg1.read_unread, harg2.read_unread, harg3.read_unread, harg4.read_unread, harg5.read_unread, harg6.read_unread, harg10.read_unread, harg11.read_unread, View.ld_unit_zero (S := S2000x128) hz2, View.ld_unit_zero (S := S128x128) hz2, View.ld_unit_zero (S := S128) hz1, View.ld_unit_zero (S := S1x128) hz2]

/-- Accumulator 1 holds the column sums of squares added to what the point before left. -/
theorem sout0_C_1_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) :
    sout0_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay4 x0 x1 x2 x4 x3 x5) xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero (S := S1x128) hz2]
  simp only [View.readAt_eq_ld, harg1.read_unread, harg2.read_unread, harg3.read_unread, harg4.read_unread, harg5.read_unread, harg6.read_unread, harg10.read_unread, harg11.read_unread, View.ld_unit_zero (S := S2000x128) hz2, View.ld_unit_zero (S := S128x128) hz2, View.ld_unit_zero (S := S128) hz1, View.ld_unit_zero (S := S1x128) hz2]

/-- At the last point output 7 is a copy of accumulator 0 as the point leaves it. -/
theorem out0_C_7_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) :
    out0_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay5 x0 x1 x2 x4 x3 x5 xs0 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero (S := S1x128) hz2, View.readCov_unit_zero (S := S1x128) _ hz2]
  simp only [View.readAt_eq_ld, harg1.read_unread, harg2.read_unread, harg3.read_unread, harg4.read_unread, harg5.read_unread, harg6.read_unread, harg10.read_unread, harg11.read_unread, View.ld_unit_zero (S := S2000x128) hz2, View.ld_unit_zero (S := S128x128) hz2, View.ld_unit_zero (S := S128) hz1, View.ld_unit_zero (S := S1x128) hz2]

/-- At the last point output 8 is a copy of accumulator 1 as the point leaves it. -/
theorem out0_C_8_eq (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S2000x128 .f32) (x1 : Vec F S2000x128 .f32) (x2 : Vec F S128x128 .f32) (x3 : Vec F S128 .f32) (x4 : Vec F S128x128 .f32) (x5 : Vec F S128 .f32) (xs0 : Vec F S1x128 .f32) (xs1 : Vec F S1x128 .f32) :
    out0_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay4 x0 x1 x2 x4 x3 x5) xs1 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero (S := S1x128) hz2, View.readCov_unit_zero (S := S1x128) _ hz2]
  simp only [View.readAt_eq_ld, harg1.read_unread, harg2.read_unread, harg3.read_unread, harg4.read_unread, harg5.read_unread, harg6.read_unread, harg10.read_unread, harg11.read_unread, View.ld_unit_zero (S := S2000x128) hz2, View.ld_unit_zero (S := S128x128) hz2, View.ld_unit_zero (S := S128) hz1, View.ld_unit_zero (S := S1x128) hz2]

section Region0
variable (V : (c : Dev nD) → (b : Ref sig .tc) → Buf (Elt F) ((c : Thread nD τ).loc b))

/-! ## The accumulation, point by point -/

/-- After every point output 6's buffer holds the layer's value of the point's input blocks. -/
theorem outs6_eq (c : Dev nD) (t : Fin cfg0.N) :
    (outsAt0 V c t.val t.isLt).1.1 = k0_pay4 (iblk0 V c 0 t) (iblk0 V c 1 t) (iblk0 V c 2 t) (iblk0 V c 4 t) (iblk0 V c 3 t) (iblk0 V c 5 t) := by
  by_cases h0 : t.val = 0
  · have h1 : ¬t.val = 24 := by omega
    rw [outsAt0_A V c t h0 h1]; dsimp only
    exact out0_A_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun hh => h1 ((hcond0_1 t).mp hh)) (iblk0 V c 0 t) (iblk0 V c 1 t) (iblk0 V c 2 t) (iblk0 V c 3 t) (iblk0 V c 4 t) (iblk0 V c 5 t)
  · by_cases h1 : t.val = 24
    · rw [outsAt0_C V c t h0 h1]; dsimp only
      exact out0_C_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hh => h0 ((hcond0_0 t).mp hh)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2
    · rw [outsAt0_B V c t h0 h1]; dsimp only
      exact out0_B_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hh => h0 ((hcond0_0 t).mp hh)) (fun hh => h1 ((hcond0_1 t).mp hh)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2

/-- After the first point accumulator 0 is the point's column sums over zeros. -/
theorem sc0_zero (c : Dev nD) (h0 : 0 < cfg0.N) :
    (outsAt0 V c 0 h0).2.1 = k0_pay5 (iblk0 V c 0 ⟨0, h0⟩) (iblk0 V c 1 ⟨0, h0⟩) (iblk0 V c 2 ⟨0, h0⟩) (iblk0 V c 4 ⟨0, h0⟩) (iblk0 V c 3 ⟨0, h0⟩) (iblk0 V c 5 ⟨0, h0⟩) (k0_pay2 (F := F)) :=
  sout0_A_0_eq c (grid0.coords ⟨0, h0⟩) (ms0_0 ⟨0, h0⟩) (hs0_0 ⟨0, h0⟩) (ms0_1 ⟨0, h0⟩) (hs0_1 ⟨0, h0⟩) (ms0_2 ⟨0, h0⟩) (hs0_2 ⟨0, h0⟩) (ms0_3 ⟨0, h0⟩) (hs0_3 ⟨0, h0⟩) (ms0_4 ⟨0, h0⟩) (hs0_4 ⟨0, h0⟩) (ms0_5 ⟨0, h0⟩) (hs0_5 ⟨0, h0⟩) (ms0_6 ⟨0, h0⟩) (hs0_6 ⟨0, h0⟩) (ms0_7 ⟨0, h0⟩) (hs0_7 ⟨0, h0⟩) (ms0_8 ⟨0, h0⟩) (hs0_8 ⟨0, h0⟩) scM0_0 (Memref.isWhole_whole _) scM0_1 (Memref.isWhole_whole _) ((hcond0_0 ⟨0, h0⟩).mpr rfl) (fun hh => (fun hh => by (try dsimp only at hh); omega) ((hcond0_1 ⟨0, h0⟩).mp hh)) (iblk0 V c 0 ⟨0, h0⟩) (iblk0 V c 1 ⟨0, h0⟩) (iblk0 V c 2 ⟨0, h0⟩) (iblk0 V c 3 ⟨0, h0⟩) (iblk0 V c 4 ⟨0, h0⟩) (iblk0 V c 5 ⟨0, h0⟩)

/-- After the first point accumulator 1 is the point's column sums of squares over zeros. -/
theorem sc1_zero (c : Dev nD) (h0 : 0 < cfg0.N) :
    (outsAt0 V c 0 h0).2.2 = k0_pay1 (k0_pay4 (iblk0 V c 0 ⟨0, h0⟩) (iblk0 V c 1 ⟨0, h0⟩) (iblk0 V c 2 ⟨0, h0⟩) (iblk0 V c 4 ⟨0, h0⟩) (iblk0 V c 3 ⟨0, h0⟩) (iblk0 V c 5 ⟨0, h0⟩)) (k0_pay3 (F := F)) :=
  sout0_A_1_eq c (grid0.coords ⟨0, h0⟩) (ms0_0 ⟨0, h0⟩) (hs0_0 ⟨0, h0⟩) (ms0_1 ⟨0, h0⟩) (hs0_1 ⟨0, h0⟩) (ms0_2 ⟨0, h0⟩) (hs0_2 ⟨0, h0⟩) (ms0_3 ⟨0, h0⟩) (hs0_3 ⟨0, h0⟩) (ms0_4 ⟨0, h0⟩) (hs0_4 ⟨0, h0⟩) (ms0_5 ⟨0, h0⟩) (hs0_5 ⟨0, h0⟩) (ms0_6 ⟨0, h0⟩) (hs0_6 ⟨0, h0⟩) (ms0_7 ⟨0, h0⟩) (hs0_7 ⟨0, h0⟩) (ms0_8 ⟨0, h0⟩) (hs0_8 ⟨0, h0⟩) scM0_0 (Memref.isWhole_whole _) scM0_1 (Memref.isWhole_whole _) ((hcond0_0 ⟨0, h0⟩).mpr rfl) (fun hh => (fun hh => by (try dsimp only at hh); omega) ((hcond0_1 ⟨0, h0⟩).mp hh)) (iblk0 V c 0 ⟨0, h0⟩) (iblk0 V c 1 ⟨0, h0⟩) (iblk0 V c 2 ⟨0, h0⟩) (iblk0 V c 3 ⟨0, h0⟩) (iblk0 V c 4 ⟨0, h0⟩) (iblk0 V c 5 ⟨0, h0⟩)

/-- After a point that is not the first accumulator 0 is the point's column sums added to what the point before left. -/
theorem sc0_at (c : Dev nD) (t : Fin cfg0.N) (h0 : ¬t.val = 0) :
    (outsAt0 V c t.val t.isLt).2.1 = k0_pay5 (iblk0 V c 0 t) (iblk0 V c 1 t) (iblk0 V c 2 t) (iblk0 V c 4 t) (iblk0 V c 3 t) (iblk0 V c 5 t) (outsAt0 V c (t.val - 1) (Nat.lt_of_le_of_lt (Nat.sub_le _ _) t.isLt)).2.1 := by
  by_cases h1 : t.val = 24
  · rw [outsAt0_C V c t h0 h1]; dsimp only
    exact sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hh => h0 ((hcond0_0 t).mp hh)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2
  · rw [outsAt0_B V c t h0 h1]; dsimp only
    exact sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hh => h0 ((hcond0_0 t).mp hh)) (fun hh => h1 ((hcond0_1 t).mp hh)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2

/-- After a point that is not the first accumulator 1 is the point's column sums of squares added to what the point
    before left. -/
theorem sc1_at (c : Dev nD) (t : Fin cfg0.N) (h0 : ¬t.val = 0) :
    (outsAt0 V c t.val t.isLt).2.2 = k0_pay1 (k0_pay4 (iblk0 V c 0 t) (iblk0 V c 1 t) (iblk0 V c 2 t) (iblk0 V c 4 t) (iblk0 V c 3 t) (iblk0 V c 5 t)) (outsAt0 V c (t.val - 1) (Nat.lt_of_le_of_lt (Nat.sub_le _ _) t.isLt)).2.2 := by
  by_cases h1 : t.val = 24
  · rw [outsAt0_C V c t h0 h1]; dsimp only
    exact sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hh => h0 ((hcond0_0 t).mp hh)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2
  · rw [outsAt0_B V c t h0 h1]; dsimp only
    exact sout0_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hh => h0 ((hcond0_0 t).mp hh)) (fun hh => h1 ((hcond0_1 t).mp hh)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2

theorem sc0_succ (c : Dev nD) (n : ℕ) (hn : n + 1 < cfg0.N) :
    (outsAt0 V c (n + 1) hn).2.1 = k0_pay5 (iblk0 V c 0 ⟨n + 1, hn⟩) (iblk0 V c 1 ⟨n + 1, hn⟩) (iblk0 V c 2 ⟨n + 1, hn⟩) (iblk0 V c 4 ⟨n + 1, hn⟩) (iblk0 V c 3 ⟨n + 1, hn⟩) (iblk0 V c 5 ⟨n + 1, hn⟩) (outsAt0 V c n (Nat.lt_of_succ_lt hn)).2.1 :=
  sc0_at V c ⟨n + 1, hn⟩ (Nat.succ_ne_zero n)

theorem sc1_succ (c : Dev nD) (n : ℕ) (hn : n + 1 < cfg0.N) :
    (outsAt0 V c (n + 1) hn).2.2 = k0_pay1 (k0_pay4 (iblk0 V c 0 ⟨n + 1, hn⟩) (iblk0 V c 1 ⟨n + 1, hn⟩) (iblk0 V c 2 ⟨n + 1, hn⟩) (iblk0 V c 4 ⟨n + 1, hn⟩) (iblk0 V c 3 ⟨n + 1, hn⟩) (iblk0 V c 5 ⟨n + 1, hn⟩)) (outsAt0 V c n (Nat.lt_of_succ_lt hn)).2.2 :=
  sc1_at V c ⟨n + 1, hn⟩ (Nat.succ_ne_zero n)

/-- After the last point output 7's buffer is accumulator 0, output 8's is accumulator 1. -/
theorem out7_at (c : Dev nD) (t : Fin cfg0.N) (h1 : t.val = 24) :
    (outsAt0 V c t.val t.isLt).1.2.1 = (outsAt0 V c t.val t.isLt).2.1 := by
  have h0 : ¬t.val = 0 := by omega
  rw [outsAt0_C V c t h0 h1]; dsimp only
  exact (out0_C_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hh => h0 ((hcond0_0 t).mp hh)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2).trans
    (sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hh => h0 ((hcond0_0 t).mp hh)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2).symm

theorem out8_at (c : Dev nD) (t : Fin cfg0.N) (h1 : t.val = 24) :
    (outsAt0 V c t.val t.isLt).1.2.2 = (outsAt0 V c t.val t.isLt).2.2 := by
  have h0 : ¬t.val = 0 := by omega
  rw [outsAt0_C V c t h0 h1]; dsimp only
  exact (out0_C_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hh => h0 ((hcond0_0 t).mp hh)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2).trans
    (sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hh => h0 ((hcond0_0 t).mp hh)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2).symm

theorem out7_last (c : Dev nD) (h : 24 < cfg0.N) : (outsAt0 V c 24 h).1.2.1 = (outsAt0 V c 24 h).2.1 := by
  have key : ∀ (n : ℕ) (hn : n < cfg0.N), n = 24 → (outsAt0 V c n hn).1.2.1 = (outsAt0 V c n hn).2.1 :=
    fun n hn e => out7_at V c ⟨n, hn⟩ e
  exact key 24 h rfl

theorem out8_last (c : Dev nD) (h : 24 < cfg0.N) : (outsAt0 V c 24 h).1.2.2 = (outsAt0 V c 24 h).2.2 := by
  have key : ∀ (n : ℕ) (hn : n < cfg0.N), n = 24 → (outsAt0 V c n hn).1.2.2 = (outsAt0 V c n hn).2.2 :=
    fun n hn e => out8_at V c ⟨n, hn⟩ e
  exact key 24 h rfl

end Region0

end Cert.KernelIdeal.Hand

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«116873_j21114059227217_1_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.LibDense.lean ====
/-
  A dense layer read at an entry, over the extended reals.

  A dense layer is a plain matrix product plus a bias vector added to every row. On the matrix unit it is written as the
  product into a zero accumulator plus the bias, held as a one-row matrix, broadcast over the rows; on the host as the
  dot_general plus the bias vector broadcast first to one row and then over the rows. Either way the entry (p, q) is
  the row-by-column sum Σ_k A (p, k) · B (k, q) plus the bias at q. The extents and the operands' float formats are
  arbitrary.
-/
import proofs.«116873_j21114059227217_1_alg».proof.Proof.LibMatmulPlain
import proofs.«116873_j21114059227217_1_alg».proof.Proof.LibHostDotPlain
import Idealize.ShloMosaic.Lib.ValueLayout
import Idealize.ShloMosaic.Lib.Pipeline.Value

noncomputable section

open scoped BigOperators

namespace Idealize.ShloMosaic.Dense

open Idealize.ShloMosaic Idealize.ShloMosaic.ValueIdx

variable {M K N : Nat}

/-- The matrix unit's dense layer at an entry: the product into the zero accumulator, plus the one-row bias broadcast
    over the rows. -/
theorem matmul_bias_apply {φ₁ φ₂ : FTy} (A : FVec Ideal ⟨2, ![M, K]⟩ φ₁) (B : FVec Ideal ⟨2, ![K, N]⟩ φ₂)
    (c : FVec Ideal ⟨2, ![1, N]⟩ .f32) (h : (⟨2, ![1, N]⟩ : Shape).Broadcasts ⟨2, ![M, N]⟩) (p : Fin M) (q : Fin N) :
    addf (matmul (DotDims.plain M K N) none A B (constant (F := Ideal) ⟨2, ![M, N]⟩ .f32 0x00000000#32))
        (broadcastTo ⟨2, ![M, N]⟩ c h) (ix2 p q)
      = ∑ k : Fin K, A (ix2 p k) * B (ix2 k q) + c (ix2 (0 : Fin 1) q) := by
  show matmul (DotDims.plain M K N) none A B (constant (F := Ideal) ⟨2, ![M, N]⟩ .f32 0x00000000#32) (ix2 p q)
      + broadcastTo ⟨2, ![M, N]⟩ c h (ix2 p q) = _
  rw [MatmulPlain.matmul_zero_apply, broadcastTo_1b_ab_apply]
  rfl

/-- A bias vector broadcast to one row and then over the rows, at an entry: the bias at the column. -/
theorem bias_rows_apply (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  have hq : (if N = 1 then 0 else q.val) = q.val := by
    split
    · have := q.isLt; omega
    · rfl
  refine (broadcastInDim_apply ![0, 1] h2 _ (ix2 p q) (ix2 (0 : Fin 1) q) fun ax => ?_).trans ?_
  · match ax with
    | ⟨0, _⟩ => rfl
    | ⟨1, _⟩ => exact hq.symm
  · refine broadcastInDim_apply ![1] h1 b (ix2 (0 : Fin 1) q) (ix1 q) fun ax => ?_
    match ax with
    | ⟨0, _⟩ => exact hq.symm

/-- The host's dense layer at an entry: the dot_general plus the bias vector broadcast over the rows. -/
theorem dot_bias_apply {φ₁ φ₂ : FTy} (A : FVec Ideal ⟨2, ![M, K]⟩ φ₁) (B : FVec Ideal ⟨2, ![K, N]⟩ φ₂)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (F := Ideal) (DotDims.plain M K N) none A B)
        (broadcastInDim ⟨2, ![M, N]⟩ ![0, 1] h2 (broadcastInDim ⟨2, ![1, N]⟩ ![1] h1 b)) (ix2 p q)
      = ∑ k : Fin K, A (ix2 p k) * B (ix2 k q) + b (ix1 q) := by
  show Host.dotGeneral (F := Ideal) (DotDims.plain M K N) none A B (ix2 p q)
      + broadcastInDim ⟨2, ![M, N]⟩ ![0, 1] h2 (broadcastInDim ⟨2, ![1, N]⟩ ![1] h1 b) (ix2 p q) = _
  rw [HostDotPlain.dotGeneral_apply, bias_rows_apply]
  rfl

end Idealize.ShloMosaic.Dense

end
-- ==== Proof.LibRowReduce.lean ====
/-
  A matrix reduced along one axis, read at an index, at the ideal values.

  For an `[a, b]` matrix `src`: the reduction by `max` along the columns (axis 1) is, at row `i`, the fold of `max`
  from the accumulator's value over `src (i, k)`, `k < b`; the reduction by `+` along the columns is, at row `i`,
  `Σ_k src (i, k)`; and the reduction by `+` along the rows (axis 0) is, at column `j`, `Σ_i src (i, j)`. Arbitrary
  extents and any float format. (The library states these over the reduced shape's own index `h.lift j k`; here the
  index is spelt by its two coordinates.)
-/
import Idealize.ShloMosaic.PureOps.Ideal.Laws
import Idealize.ShloMosaic.Lib.ValueIdx

noncomputable section

namespace Idealize.ShloMosaic.RowReduce

open Idealize.ShloMosaic Idealize.ShloMosaic.ValueIdx

variable {a b : ℕ} {φ : FTy}

/-- The row maxima: at row `i`, the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (Finset.fold max (Ideal.ofBits φ acc) · (Finset.univ : Finset (Fin b))) (funext fun k => ?_)
  exact congrArg src (funext fun c => Fin.ext (by match c with | ⟨0, _⟩ => rfl | ⟨1, _⟩ => rfl))

/-- The row sums: at row `i`, the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => ?_
  exact congrArg src (funext fun c => Fin.ext (by match c with | ⟨0, _⟩ => rfl | ⟨1, _⟩ => rfl))

/-- The column sums: at column `j`, the sum of the column's entries. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun c => Fin.ext (by match c with | ⟨0, _⟩ => rfl | ⟨1, _⟩ => rfl))

end Idealize.ShloMosaic.RowReduce

end
-- ==== Proof.Pay0.lean ====
/-
  What the perceptron kernel's body computes from one tile, entry by entry, over the extended reals.

  From a tile of 2000 feature rows x and their aggregates a it computes the tile's perceptron outputs
  h(r, q) = Σ_k max(Σ_j (x(r,j) + a(r,j)) · W1(j,k) + b1(k), 0) · W2(k,q) + b2(q)  (both products on the matrix unit
  into a zero accumulator, a change of float format being the identity here), and adds to each of two one-row
  accumulators the tile's column sums of h and of h · h.
-/
import proofs.«116873_j21114059227217_1_alg».proof.Proof.Gen.KernelIdeal.Skeleton
import proofs.«116873_j21114059227217_1_alg».proof.Proof.Spec
import proofs.«116873_j21114059227217_1_alg».proof.Proof.LibDense
import proofs.«116873_j21114059227217_1_alg».proof.Proof.LibRowReduce
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Idealize.ShloMosaic Idealize.ShloMosaic.ValueIdx
open Cert.KernelIdeal Cert.KernelIdeal.Gen

/-- The tile's perceptron output at (r, q). -/
theorem k0_pay4_apply (x a : Vec Ideal S2000x128 .f32) (w1 w2 : Vec Ideal S128x128 .f32) (b1 b2 : Vec Ideal S128 .f32)
    (r : Fin 2000) (q : Fin 128) :
    k0_pay4 (F := Ideal) x a w1 w2 b1 b2 (ix2 r q)
      = Cert.Spec.mlp (fun j => x (ix2 r j)) (fun j => a (ix2 r j)) (fun j k => w1 (ix2 j k)) (fun k => b1 (ix1 k))
          (fun k q' => w2 (ix2 k q')) (fun q' => b2 (ix1 q')) q := by
  unfold k0_pay4
  refine (Dense.matmul_bias_apply (M := 2000) (K := 128) (N := 128) _ _ _ broadcasts_S1x128_S2000x128 r q).trans ?_
  unfold Cert.Spec.mlp
  congr 1
  · refine Finset.sum_congr rfl fun k _ => ?_
    congr 1
    unfold Cert.Spec.hid
    refine congrArg₂ max ((Dense.matmul_bias_apply (M := 2000) (K := 128) (N := 128) _ _ _ broadcasts_S1x128_S2000x128 r k).trans ?_) Ideal.ofBits_zero_f32
    congr 1
    · refine Finset.sum_congr rfl fun j _ => ?_
      show (x (ix2 r j) + shapeCast S2000x128 a shapeCasts_S2000x128_S2000x128 (ix2 r j)) * w1 (ix2 j k) = _
      rw [shapeCast_self]
    · exact shapeCast_a_1a_apply _ _ _ _
  · exact shapeCast_a_1a_apply _ _ _ _

/-- The accumulator of column sums after a tile: what it held plus the tile's column sums of the perceptron output. -/
theorem k0_pay5_apply (x a : Vec Ideal S2000x128 .f32) (w1 w2 : Vec Ideal S128x128 .f32) (b1 b2 : Vec Ideal S128 .f32)
    (prev : Vec Ideal S1x128 .f32) (q : Fin 128) :
    k0_pay5 (F := Ideal) x a w1 w2 b1 b2 prev (ix2 (0 : Fin 1) q)
      = prev (ix2 (0 : Fin 1) q) + ∑ r : Fin 2000, k0_pay4 (F := Ideal) x a w1 w2 b1 b2 (ix2 r q) := by
  unfold k0_pay5
  rw [shapeCast_self]
  show prev (ix2 (0 : Fin 1) q) + shapeCast S1x128 (multiReduction .add [0] S128 (k0_pay4 (F := Ideal) x a w1 w2 b1 b2) 0x00000000#32 reduces_S2000x128_S128 (.inl rfl) rfl) shapeCasts_S128_S1x128 (ix2 (0 : Fin 1) q) = _
  rw [shapeCast_a_1a_apply]
  exact congrArg (prev (ix2 (0 : Fin 1) q) + ·) (RowReduce.colSum_apply (a := 2000) (b := 128) _ _ _ _ _ q)

/-- The accumulator of column sums of squares after a tile. -/
theorem k0_pay1_apply (h : FVec Ideal S2000x128 .f32) (prev : Vec Ideal S1x128 .f32) (q : Fin 128) :
    k0_pay1 (F := Ideal) h prev (ix2 (0 : Fin 1) q)
      = prev (ix2 (0 : Fin 1) q) + ∑ r : Fin 2000, h (ix2 r q) * h (ix2 r q) := by
  unfold k0_pay1
  rw [shapeCast_self]
  show prev (ix2 (0 : Fin 1) q) + shapeCast S1x128 (multiReduction .add [0] S128 (mulf h h) 0x00000000#32 reduces_S2000x128_S128 (.inl rfl) rfl) shapeCasts_S128_S1x128 (ix2 (0 : Fin 1) q) = _
  rw [shapeCast_a_1a_apply]
  exact congrArg (prev (ix2 (0 : Fin 1) q) + ·) (RowReduce.colSum_apply (a := 2000) (b := 128) _ _ _ _ _ q)

/-- The accumulators start at zero. -/
theorem k0_pay2_apply (j : S1x128.Idx) : k0_pay2 (F := Ideal) j = 0 := by
  unfold k0_pay2
  rw [shapeCast_self]
  exact Ideal.ofBits_zero_f32

theorem k0_pay3_apply (j : S1x128.Idx) : k0_pay3 (F := Ideal) j = 0 := by
  unfold k0_pay3
  rw [shapeCast_self]
  exact Ideal.ofBits_zero_f32

end Cert.KernelIdeal.Hand

end
-- ==== Proof.Final0.lean ====
/-
  The three arrays the perceptron kernel leaves, each as one function of the arrays it was entered with.

  The kernel walks 25 tiles of 2000 rows. Its first result is the perceptron output h, written back tile by tile:
  entry (p, q) depends on row p of the features and of the aggregates and on the two weight matrices and biases.
  Its second and third results are written once, at the last tile, from two one-row accumulators that start at zero
  at the first tile and receive every tile's column sums of h and of h · h: after the last tile they hold the
  column sums over all 50000 rows, the tiles' partial sums being consecutive runs of one long sum.
-/
import proofs.«116873_j21114059227217_1_alg».proof.Proof.Reg0Value
import proofs.«116873_j21114059227217_1_alg».proof.Proof.Pay0
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The index maps, decided once over the grid -/

theorem idx0_big : ∀ t : Fin cfg0.N, win0_0.index t (0 : Fin 2) = t.val ∧ win0_0.index t (1 : Fin 2) = 0
    ∧ win0_1.index t (0 : Fin 2) = t.val ∧ win0_1.index t (1 : Fin 2) = 0
    ∧ win0_6.index t (0 : Fin 2) = t.val ∧ win0_6.index t (1 : Fin 2) = 0 :=
  (by decide +kernel : ∀ t : Fin grid0.N, _)

theorem idx0_small : ∀ t : Fin cfg0.N, win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem t_lt (t : Fin cfg0.N) : t.val < 25 := lt_of_lt_of_eq t.isLt (show cfg0.N = 25 from N_0)

/-- Row `r` of tile `t` is row `2000 t + r` of the array. -/
def rowOf (t : Fin cfg0.N) (r : Fin 2000) : Fin 50000 := ⟨t.val * 2000 + r.val, by have := t_lt t; have := r.isLt; omega⟩

/-! ## The input blocks read at an entry -/

theorem iblk0_0_apply (c : Dev nD) (t : Fin cfg0.N) (r : Fin 2000) (j : Fin 128) :
    (iblk0 V c 0 t : S2000x128.Idx → EReal) (ix2 r j) = (V c main_arg0 : S50000x128.Idx → EReal) (ix2 (rowOf t r) j) := by
  show (V c main_arg0 : S50000x128.Idx → EReal) (((cfg0.win 0).blk t).view.emb (ix2 r j)) = _
  refine congrArg _ (funext fun a => Fin.ext ?_)
  obtain ⟨e0, e1, -⟩ := idx0_big t
  match a with
  | ⟨0, _⟩ => show win0_0.index t (0 : Fin 2) * 2000 + 1 * r.val = t.val * 2000 + r.val; rw [e0]; omega
  | ⟨1, _⟩ => show win0_0.index t (1 : Fin 2) * 128 + 1 * j.val = j.val; rw [e1]; omega

theorem iblk0_1_apply (c : Dev nD) (t : Fin cfg0.N) (r : Fin 2000) (j : Fin 128) :
    (iblk0 V c 1 t : S2000x128.Idx → EReal) (ix2 r j) = (V c main_v13 : S50000x128.Idx → EReal) (ix2 (rowOf t r) j) := by
  show (V c main_v13 : S50000x128.Idx → EReal) (((cfg0.win 1).blk t).view.emb (ix2 r j)) = _
  refine congrArg _ (funext fun a => Fin.ext ?_)
  obtain ⟨-, -, e0, e1, -⟩ := idx0_big t
  match a with
  | ⟨0, _⟩ => show win0_1.index t (0 : Fin 2) * 2000 + 1 * r.val = t.val * 2000 + r.val; rw [e0]; omega
  | ⟨1, _⟩ => show win0_1.index t (1 : Fin 2) * 128 + 1 * j.val = j.val; rw [e1]; omega

theorem iblk0_2_apply (c : Dev nD) (t : Fin cfg0.N) (j k : Fin 128) :
    (iblk0 V c 2 t : S128x128.Idx → EReal) (ix2 j k) = (V c main_arg2 : S128x128.Idx → EReal) (ix2 j k) := by
  show (V c main_arg2 : S128x128.Idx → EReal) (((cfg0.win 2).blk t).view.emb (ix2 j k)) = _
  refine congrArg _ (funext fun a => Fin.ext ?_)
  obtain ⟨e0, e1, -⟩ := idx0_small t
  match a with
  | ⟨0, _⟩ => show win0_2.index t (0 : Fin 2) * 128 + 1 * j.val = j.val; rw [e0]; omega
  | ⟨1, _⟩ => show win0_2.index t (1 : Fin 2) * 128 + 1 * k.val = k.val; rw [e1]; omega

theorem iblk0_4_apply (c : Dev nD) (t : Fin cfg0.N) (j k : Fin 128) :
    (iblk0 V c 4 t : S128x128.Idx → EReal) (ix2 j k) = (V c main_arg4 : S128x128.Idx → EReal) (ix2 j k) := by
  show (V c main_arg4 : S128x128.Idx → EReal) (((cfg0.win 4).blk t).view.emb (ix2 j k)) = _
  refine congrArg _ (funext fun a => Fin.ext ?_)
  obtain ⟨-, -, -, e0, e1, -⟩ := idx0_small t
  match a with
  | ⟨0, _⟩ => show win0_4.index t (0 : Fin 2) * 128 + 1 * j.val = j.val; rw [e0]; omega
  | ⟨1, _⟩ => show win0_4.index t (1 : Fin 2) * 128 + 1 * k.val = k.val; rw [e1]; omega

theorem iblk0_3_apply (c : Dev nD) (t : Fin cfg0.N) (k : Fin 128) :
    (iblk0 V c 3 t : S128.Idx → EReal) (ix1 k) = (V c main_arg3 : S128.Idx → EReal) (ix1 k) := by
  show (V c main_arg3 : S128.Idx → EReal) (((cfg0.win 3).blk t).view.emb (ix1 k)) = _
  refine congrArg _ (funext fun a => Fin.ext ?_)
  obtain ⟨-, -, e0, -⟩ := idx0_small t
  match a with
  | ⟨0, _⟩ => show win0_3.index t (0 : Fin 1) * 128 + 1 * k.val = k.val; rw [e0]; omega

theorem iblk0_5_apply (c : Dev nD) (t : Fin cfg0.N) (k : Fin 128) :
    (iblk0 V c 5 t : S128.Idx → EReal) (ix1 k) = (V c main_arg5 : S128.Idx → EReal) (ix1 k) := by
  show (V c main_arg5 : S128.Idx → EReal) (((cfg0.win 5).blk t).view.emb (ix1 k)) = _
  refine congrArg _ (funext fun a => Fin.ext ?_)
  obtain ⟨-, -, -, -, -, e0, -⟩ := idx0_small t
  match a with
  | ⟨0, _⟩ => show win0_5.index t (0 : Fin 1) * 128 + 1 * k.val = k.val; rw [e0]; omega

/-! ## The perceptron output -/

/-- The perceptron output of node `p`, feature `q`, from the arrays the kernel is entered with. -/
def hAt (c : Dev nD) (p : Fin 50000) (q : Fin 128) : EReal :=
  Cert.Spec.mlp (fun j => (V c main_arg0 : S50000x128.Idx → EReal) (ix2 p j)) (fun j => (V c main_v13 : S50000x128.Idx → EReal) (ix2 p j))
    (fun j k => (V c main_arg2 : S128x128.Idx → EReal) (ix2 j k)) (fun k => (V c main_arg3 : S128.Idx → EReal) (ix1 k))
    (fun k q' => (V c main_arg4 : S128x128.Idx → EReal) (ix2 k q')) (fun q' => (V c main_arg5 : S128.Idx → EReal) (ix1 q')) q

/-- The same as an array. -/
def Harr (c : Dev nD) : S50000x128.Idx → EReal := fun i => hAt V c (i 0) (i 1)

/-- What tile `t`'s body computes at (r, q) is the perceptron output of node `2000 t + r`. -/
theorem tile_apply (c : Dev nD) (t : Fin cfg0.N) (r : Fin 2000) (q : Fin 128) :
    k0_pay4 (F := Ideal) (iblk0 V c 0 t) (iblk0 V c 1 t) (iblk0 V c 2 t) (iblk0 V c 4 t) (iblk0 V c 3 t) (iblk0 V c 5 t) (ix2 r q)
      = hAt V c (rowOf t r) q := by
  rw [k0_pay4_apply]
  unfold hAt
  simp only [iblk0_0_apply, iblk0_1_apply, iblk0_2_apply, iblk0_3_apply, iblk0_4_apply, iblk0_5_apply]

/-! ## Consecutive runs of one long sum -/

/-- An accumulator that starts from zero plus the first run of 2000 terms and receives the next run at every step
    holds, after step `n`, the sum of the first `(n + 1) · 2000` terms. -/
theorem acc_runs (g : ℕ → EReal) (A : (n : ℕ) → n < 25 → EReal)
    (h0 : A 0 (by norm_num) = 0 + ∑ x ∈ Finset.range 2000, g x)
    (hs : ∀ n (hn : n + 1 < 25), A (n + 1) hn = A n (by omega) + ∑ x ∈ Finset.range 2000, g ((n + 1) * 2000 + x)) :
    ∀ n (hn : n < 25), A n hn = ∑ p ∈ Finset.range ((n + 1) * 2000), g p := by
  intro n
  induction n with
  | zero => intro hn; rw [h0, zero_add, Nat.zero_add, Nat.one_mul]
  | succ n ih =>
    intro hn
    rw [hs n hn, ih (by omega), show (n + 1 + 1) * 2000 = (n + 1) * 2000 + 2000 by ring, Finset.sum_range_add]

/-- A function of the nodes continued by zero to all natural numbers. -/
def ext0 (f : Fin 50000 → EReal) (p : ℕ) : EReal := if h : p < 50000 then f ⟨p, h⟩ else 0

theorem ext0_total (f : Fin 50000 → EReal) : ∑ p ∈ Finset.range 50000, ext0 f p = ∑ p : Fin 50000, f p := by
  rw [← Fin.sum_univ_eq_sum_range (ext0 f) 50000]
  exact Finset.sum_congr rfl fun p _ => by unfold ext0; rw [dif_pos p.isLt]

/-- A tile's run of a sum over the nodes. -/
theorem tile_run (f : Fin 50000 → EReal) (t : Fin cfg0.N) :
    ∑ r : Fin 2000, f (rowOf t r) = ∑ x ∈ Finset.range 2000, ext0 f (t.val * 2000 + x) := by
  rw [← Fin.sum_univ_eq_sum_range (fun x => ext0 f (t.val * 2000 + x)) 2000]
  refine Finset.sum_congr rfl fun r _ => ?_
  have h : t.val * 2000 + r.val < 50000 := by have := t_lt t; have := r.isLt; omega
  unfold ext0; rw [dif_pos h]; rfl

/-! ## The two accumulators -/

theorem N25 : cfg0.N = 25 := N_0

/-- The accumulator of column sums after tile `n`, at column `q`: the sum of the perceptron outputs of the first
    `(n + 1) · 2000` nodes. -/
theorem acc0_apply (c : Dev nD) (q : Fin 128) (n : ℕ) (hn : n < 25) :
    ((outsAt0 V c n (by rw [N25]; exact hn)).2.1 : S1x128.Idx → EReal) (ix2 (0 : Fin 1) q)
      = ∑ p ∈ Finset.range ((n + 1) * 2000), ext0 (fun p => hAt V c p q) p := by
  refine acc_runs (ext0 fun p => hAt V c p q)
    (fun n hn => ((outsAt0 V c n (by rw [N25]; exact hn)).2.1 : S1x128.Idx → EReal) (ix2 (0 : Fin 1) q)) ?_ ?_ n hn
  · show ((outsAt0 V c 0 _).2.1 : S1x128.Idx → EReal) (ix2 (0 : Fin 1) q) = _
    rw [sc0_zero, k0_pay5_apply, k0_pay2_apply]
    refine congrArg (0 + ·) ?_
    simp only [tile_apply]
    refine (tile_run (fun p => hAt V c p q) ⟨0, by rw [N25]; norm_num⟩).trans ?_
    simp only [Nat.zero_mul, Nat.zero_add]
  · intro n hn
    show ((outsAt0 V c (n + 1) _).2.1 : S1x128.Idx → EReal) (ix2 (0 : Fin 1) q) = _
    rw [sc0_succ, k0_pay5_apply]
    refine congrArg (_ + ·) ?_
    simp only [tile_apply]
    exact tile_run (fun p => hAt V c p q) ⟨n + 1, by rw [N25]; exact hn⟩

/-- The accumulator of column sums of squares after tile `n`, at column `q`. -/
theorem acc1_apply (c : Dev nD) (q : Fin 128) (n : ℕ) (hn : n < 25) :
    ((outsAt0 V c n (by rw [N25]; exact hn)).2.2 : S1x128.Idx → EReal) (ix2 (0 : Fin 1) q)
      = ∑ p ∈ Finset.range ((n + 1) * 2000), ext0 (fun p => hAt V c p q * hAt V c p q) p := by
  refine acc_runs (ext0 fun p => hAt V c p q * hAt V c p q)
    (fun n hn => ((outsAt0 V c n (by rw [N25]; exact hn)).2.2 : S1x128.Idx → EReal) (ix2 (0 : Fin 1) q)) ?_ ?_ n hn
  · show ((outsAt0 V c 0 _).2.2 : S1x128.Idx → EReal) (ix2 (0 : Fin 1) q) = _
    rw [sc1_zero, k0_pay1_apply, k0_pay3_apply]
    refine congrArg (0 + ·) ?_
    simp only [tile_apply]
    refine (tile_run (fun p => hAt V c p q * hAt V c p q) ⟨0, by rw [N25]; norm_num⟩).trans ?_
    simp only [Nat.zero_mul, Nat.zero_add]
  · intro n hn
    show ((outsAt0 V c (n + 1) _).2.2 : S1x128.Idx → EReal) (ix2 (0 : Fin 1) q) = _
    rw [sc1_succ, k0_pay1_apply]
    refine congrArg (_ + ·) ?_
    simp only [tile_apply]
    exact tile_run (fun p => hAt V c p q * hAt V c p q) ⟨n + 1, by rw [N25]; exact hn⟩

/-- After the last tile the accumulators hold the column sums over all the nodes. -/
theorem acc0_last (c : Dev nD) (q : Fin 128) :
    ((outsAt0 V c 24 (by rw [N25]; norm_num)).2.1 : S1x128.Idx → EReal) (ix2 (0 : Fin 1) q) = ∑ p : Fin 50000, hAt V c p q :=
  (acc0_apply V c q 24 (by norm_num)).trans (ext0_total _)
theorem acc1_last (c : Dev nD) (q : Fin 128) :
    ((outsAt0 V c 24 (by rw [N25]; norm_num)).2.2 : S1x128.Idx → EReal) (ix2 (0 : Fin 1) q) = ∑ p : Fin 50000, hAt V c p q * hAt V c p q :=
  (acc1_apply V c q 24 (by norm_num)).trans (ext0_total _)

/-! ## The arrays after the kernel -/

/-- The column sums of the perceptron output, as a one-row array. -/
def Sarr (c : Dev nD) : S1x128.Idx → EReal := fun i => ∑ p : Fin 50000, hAt V c p (i 1)
/-- The column sums of its squares. -/
def Qarr (c : Dev nD) : S1x128.Idx → EReal := fun i => ∑ p : Fin 50000, hAt V c p (i 1) * hAt V c p (i 1)

/-- What tile `t` writes back of the first result is block `t` of the perceptron output array. -/
theorem flushed0_6_eq (c : Dev nD) (t : Fin cfg0.N) :
    (dat0 V c).flushed 6 t = ((cfg0.win 6).blk t).view.read (Elt Ideal) (Harr V c) := by
  show (cfg0.win 6).cut (grid0.coords t) ((dat0 V c).after 6 t) = _
  rw [after0_6, outs6_eq]
  funext j
  obtain ⟨r, q, rfl⟩ : ∃ (r : Fin 2000) (q : Fin 128), j = ix2 r q := ⟨j 0, j 1, eq_ix2 j⟩
  show k0_pay4 (F := Ideal) (iblk0 V c 0 t) (iblk0 V c 1 t) (iblk0 V c 2 t) (iblk0 V c 4 t) (iblk0 V c 3 t) (iblk0 V c 5 t) (ix2 r q)
    = Harr V c (((cfg0.win 6).blk t).view.emb (ix2 r q))
  rw [tile_apply]
  have hemb : ((cfg0.win 6).blk t).view.emb (ix2 r q) = ix2 (rowOf t r) q := by
    funext a; apply Fin.ext
    obtain ⟨-, -, -, -, e0, e1⟩ := idx0_big t
    match a with
    | ⟨0, _⟩ => show win0_6.index t (0 : Fin 2) * 2000 + 1 * r.val = t.val * 2000 + r.val; rw [e0]; omega
    | ⟨1, _⟩ => show win0_6.index t (1 : Fin 2) * 128 + 1 * q.val = q.val; rw [e1]; omega
  rw [hemb]
  rfl

theorem mem_blk0_6 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v14_0).slice (win0_6.rect t)).set ↔ _
  rw [View.set_slice_whole, Rect.mem_set_unit]
  exact Iff.rfl

theorem cover0_6 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have ht : (i 0).val / 2000 < cfg0.N := by rw [N25]; omega
  refine ⟨⟨(i 0).val / 2000, ht⟩, flush0_6 _, ?_⟩
  rw [mem_blk0_6]
  obtain ⟨-, -, -, -, e0, e1⟩ := idx0_big ⟨(i 0).val / 2000, ht⟩
  intro a
  match a with
  | ⟨0, _⟩ =>
    show win0_6.index ⟨(i 0).val / 2000, ht⟩ (0 : Fin 2) * 2000 ≤ (i 0).val ∧ (i 0).val < win0_6.index ⟨(i 0).val / 2000, ht⟩ (0 : Fin 2) * 2000 + 2000
    rw [e0]; dsimp only; omega
  | ⟨1, _⟩ =>
    show win0_6.index ⟨(i 0).val / 2000, ht⟩ (1 : Fin 2) * 128 ≤ (i 1).val ∧ (i 1).val < win0_6.index ⟨(i 0).val / 2000, ht⟩ (1 : Fin 2) * 128 + 128
    rw [e1]; omega

/-- THE FIRST RESULT after the kernel: the perceptron output array. -/
theorem final0_6 (c : Dev nD) : (dat0 V c).arrAt 6 cfg0.N = Harr V c :=
  (dat0 V c).arrAt_eq_of_cover 6 (Harr V c) (fun t _ => flushed0_6_eq V c t) cover0_6

/-! ## The two accumulator results -/

theorem flush7_last (t : Fin cfg0.N) (h : (cfg0.win 7).flush t = true) : t.val = 24 := by
  have h1 := (flush0_7 t).mp h; have h2 := t_lt t; omega
theorem flush8_last (t : Fin cfg0.N) (h : (cfg0.win 8).flush t = true) : t.val = 24 := by
  have h1 := (flush0_8 t).mp h; have h2 := t_lt t; omega

theorem lastPt : (24 : ℕ) < cfg0.N := by rw [N25]; norm_num

/-- What the last tile writes back of the second result is the row of column sums. -/
theorem flushed0_7_eq (c : Dev nD) (t : Fin cfg0.N) (hf : (cfg0.win 7).flush t = true) :
    (dat0 V c).flushed 7 t = ((cfg0.win 7).blk t).view.read (Elt Ideal) (Sarr V c) := by
  have ht : t.val = 24 := flush7_last t hf
  have hO : outsAt0 V c t.val t.isLt = outsAt0 V c 24 lastPt := by
    have : ∀ n (hn : n < cfg0.N), n = 24 → outsAt0 V c n hn = outsAt0 V c 24 lastPt := by
      intro n hn h; subst h; rfl
    exact this _ _ ht
  have hacc : ∀ j : S1x128.Idx, ((outsAt0 V c 24 lastPt).2.1 : S1x128.Idx → EReal) j = ∑ p : Fin 50000, hAt V c p (j 1) := by
    intro j
    obtain ⟨u, q, rfl⟩ : ∃ (u : Fin 1) (q : Fin 128), j = ix2 u q := ⟨j 0, j 1, eq_ix2 j⟩
    obtain rfl : u = 0 := Subsingleton.elim _ _
    exact acc0_last V c q
  show (cfg0.win 7).cut (grid0.coords t) ((dat0 V c).after 7 t) = _
  rw [after0_7, hO, out7_last]
  generalize (outsAt0 V c 24 lastPt).2.1 = acc at hacc ⊢
  funext j
  show acc ((cfg0.win 7).xinj (grid0.coords t) j) = _
  rw [hacc, View.read_apply]
  simp only [Sarr]
  obtain ⟨-, -, -, -, -, -, e0, e1, -⟩ := idx0_small t
  have h1 : ((cfg0.win 7).xinj (grid0.coords t) j) 1 = (((cfg0.win 7).blk t).view.emb j) 1 := by
    apply Fin.ext
    show (j 1).val = win0_7.index t (1 : Fin 2) * 128 + 1 * (j 1).val
    rw [e1]; omega
  rw [h1]
  exact (cast_eq _ _).symm

theorem flushed0_8_eq (c : Dev nD) (t : Fin cfg0.N) (hf : (cfg0.win 8).flush t = true) :
    (dat0 V c).flushed 8 t = ((cfg0.win 8).blk t).view.read (Elt Ideal) (Qarr V c) := by
  have ht : t.val = 24 := flush8_last t hf
  have hO : outsAt0 V c t.val t.isLt = outsAt0 V c 24 lastPt := by
    have : ∀ n (hn : n < cfg0.N), n = 24 → outsAt0 V c n hn = outsAt0 V c 24 lastPt := by
      intro n hn h; subst h; rfl
    exact this _ _ ht
  have hacc : ∀ j : S1x128.Idx, ((outsAt0 V c 24 lastPt).2.2 : S1x128.Idx → EReal) j = ∑ p : Fin 50000, hAt V c p (j 1) * hAt V c p (j 1) := by
    intro j
    obtain ⟨u, q, rfl⟩ : ∃ (u : Fin 1) (q : Fin 128), j = ix2 u q := ⟨j 0, j 1, eq_ix2 j⟩
    obtain rfl : u = 0 := Subsingleton.elim _ _
    exact acc1_last V c q
  show (cfg0.win 8).cut (grid0.coords t) ((dat0 V c).after 8 t) = _
  rw [after0_8, hO, out8_last]
  generalize (outsAt0 V c 24 lastPt).2.2 = acc at hacc ⊢
  funext j
  show acc ((cfg0.win 8).xinj (grid0.coords t) j) = _
  rw [hacc, View.read_apply]
  simp only [Qarr]
  obtain ⟨-, -, -, -, -, -, -, -, e0, e1⟩ := idx0_small t
  have h1 : ((cfg0.win 8).xinj (grid0.coords t) j) 1 = (((cfg0.win 8).blk t).view.emb j) 1 := by
    apply Fin.ext
    show (j 1).val = win0_8.index t (1 : Fin 2) * 128 + 1 * (j 1).val
    rw [e1]; omega
  rw [h1]
  exact (cast_eq _ _).symm

theorem mem_blk0_7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v14_1).slice (win0_7.rect t)).set ↔ _
  rw [View.set_slice_whole, Rect.mem_set_unit]
  exact Iff.rfl
theorem mem_blk0_8 (t : Fin cfg0.N) (i : S1x128.Idx) :
    i ∈ ((cfg0.win 8).blk t).view.set ↔ ∀ a : Fin 2, win0_8.index t a * S1x128.size a ≤ (i a).val ∧ (i a).val < win0_8.index t a * S1x128.size a + S1x128.size a := by
  show i ∈ ((View.whole main_v14_2).slice (win0_8.rect t)).set ↔ _
  rw [View.set_slice_whole, Rect.mem_set_unit]
  exact Iff.rfl

theorem cover0_7 (i : S1x128.Idx) : ∃ t : Fin cfg0.N, (cfg0.win 7).flush t = true ∧ i ∈ ((cfg0.win 7).blk t).view.set := by
  have hi0 : (i 0).val < 1 := (i 0).isLt
  have hi1 : (i 1).val < 128 := (i 1).isLt
  obtain ⟨t, ht⟩ : ∃ t : Fin cfg0.N, t.val = 24 := ⟨⟨24, lastPt⟩, rfl⟩
  refine ⟨t, (flush0_7 t).mpr (by rw [ht]), ?_⟩
  rw [mem_blk0_7]
  obtain ⟨-, -, -, -, -, -, e0, e1, -⟩ := idx0_small t
  intro a
  match a with
  | ⟨0, _⟩ => show win0_7.index t (0 : Fin 2) * 1 ≤ (i 0).val ∧ (i 0).val < win0_7.index t (0 : Fin 2) * 1 + 1; rw [e0]; omega
  | ⟨1, _⟩ => show win0_7.index t (1 : Fin 2) * 128 ≤ (i 1).val ∧ (i 1).val < win0_7.index t (1 : Fin 2) * 128 + 128; rw [e1]; omega
theorem cover0_8 (i : S1x128.Idx) : ∃ t : Fin cfg0.N, (cfg0.win 8).flush t = true ∧ i ∈ ((cfg0.win 8).blk t).view.set := by
  have hi0 : (i 0).val < 1 := (i 0).isLt
  have hi1 : (i 1).val < 128 := (i 1).isLt
  obtain ⟨t, ht⟩ : ∃ t : Fin cfg0.N, t.val = 24 := ⟨⟨24, lastPt⟩, rfl⟩
  refine ⟨t, (flush0_8 t).mpr (by rw [ht]), ?_⟩
  rw [mem_blk0_8]
  obtain ⟨-, -, -, -, -, -, -, -, e0, e1⟩ := idx0_small t
  intro a
  match a with
  | ⟨0, _⟩ => show win0_8.index t (0 : Fin 2) * 1 ≤ (i 0).val ∧ (i 0).val < win0_8.index t (0 : Fin 2) * 1 + 1; rw [e0]; omega
  | ⟨1, _⟩ => show win0_8.index t (1 : Fin 2) * 128 ≤ (i 1).val ∧ (i 1).val < win0_8.index t (1 : Fin 2) * 128 + 128; rw [e1]; omega

/-- THE SECOND AND THIRD RESULTS after the kernel: the column sums and the column sums of squares. -/
theorem final0_7 (c : Dev nD) : (dat0 V c).arrAt 7 cfg0.N = Sarr V c :=
  (dat0 V c).arrAt_eq_of_cover 7 (Sarr V c) (fun t hf => flushed0_7_eq V c t hf) cover0_7
theorem final0_8 (c : Dev nD) : (dat0 V c).arrAt 8 cfg0.N = Qarr V c :=
  (dat0 V c).arrAt_eq_of_cover 8 (Qarr V c) (fun t hf => flushed0_8_eq V c t hf) cover0_8

end Cert.KernelIdeal.Hand

end
-- ==== Proof.Reg1Value.lean ====
import proofs.«116873_j21114059227217_1_alg».proof.Proof.Reg1
import Idealize.ShloMosaic.Lib.ValueIdx
import Idealize.ShloMosaic.Lib.ValueLayout
import Idealize.ShloMosaic.Lib.Pipeline.Value
import Idealize.ShloMosaic.PureOps.Ideal

/-! # Region 1's output block, read at an index, over the extended reals

At the ideal float model the block the normalisation body stores is, entry by entry,
`((h - mean) * invstd) * gamma + beta`: the activations' entry at `(r, q)` and the four rows' entries at lane `q`,
in the order the body computes it (a subtraction, two multiplications, an addition). -/

noncomputable section

namespace Cert.KernelIdeal.Hand

open Cert.KernelIdeal Cert.KernelIdeal.Gen
open Idealize.ShloMosaic Idealize.ShloMosaic.ValueIdx

/-- The zero offsets of a whole two-axis access, as a constant function. -/
theorem zero_offsets2 : (![0, 0] : Fin 2 → Nat) = fun _ => 0 := funext fun a => by fin_cases a <;> rfl

/-- The body's payload at an index: each row is cast to its own shape (the identity), broadcast along the long
    axis (so read at lane `q` of its one row), and combined pointwise. -/
theorem k1_pay1_apply (v0 : Vec Ideal S2000x128 .f32) (v2 v6 v10 v14 : Vec Ideal S1x128 .f32) (r : Fin 2000) (q : Fin 128) :
    k1_pay1 (F := Ideal) v0 v2 v6 v10 v14 (ix2 r q)
      = ((v0 (ix2 r q) - v2 (ix2 0 q)) * v6 (ix2 0 q)) * v10 (ix2 0 q) + v14 (ix2 0 q) := by
  unfold k1_pay1
  simp only [shapeCast_self]
  rw [addf_apply, mulf_apply, mulf_apply, subf_apply,
    broadcastTo_1b_ab_apply, broadcastTo_1b_ab_apply, broadcastTo_1b_ab_apply, broadcastTo_1b_ab_apply]

/-- The output block at an index: the one store covers the buffer and every load is of a whole buffer, so the
    block is the payload of the input blocks themselves. -/
theorem out1_5_apply (x0 : Vec Ideal S2000x128 .f32) (x1 x2 x3 x4 : Vec Ideal S1x128 .f32) (r : Fin 2000) (q : Fin 128) :
    out1_5 (F := Ideal) x0 x1 x2 x3 x4 (ValueIdx.ix2 r q)
      = ((x0 (ValueIdx.ix2 r q) - x1 (ValueIdx.ix2 0 q)) * x2 (ValueIdx.ix2 0 q)) * x3 (ValueIdx.ix2 0 q) + x4 (ValueIdx.ix2 0 q) := by
  unfold out1_5
  rw [View.canon_unit_zero zero_offsets2]
  simp only [View.ld_unit_zero (S := S2000x128) zero_offsets2, View.ld_unit_zero (S := S1x128) zero_offsets2]
  exact k1_pay1_apply x0 x1 x2 x3 x4 r q

end Cert.KernelIdeal.Hand

end
-- ==== Proof.Reg1Final.lean ====
import proofs.«116873_j21114059227217_1_alg».proof.Proof.Reg1Value

/-! # Region 1's result array as one function of the arrays it reads

The region's 25 grid points each write back one 2000-row tile of the output array; the tiles partition its 50000
rows. Point `t`'s tile is the body's output block, which entry by entry is
`((h - mean) * invstd) * gamma + beta` of the activations' tile at the same rows and of the four one-row arrays.
So after the last point the output array holds that function of the whole activations array and the rows. -/

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- The normalised array: entry `(p, q)` is `((h (p, q) - mu q) * iv q) * g q + b q`, each row array read at
    lane `q` of its one row. -/
def normArr (h : S50000x128.Idx → EReal) (mu iv g b : S1x128.Idx → EReal) : S50000x128.Idx → EReal := fun i =>
  ((h i - mu (ValueIdx.ix2 (0 : Fin 1) (i 1))) * iv (ValueIdx.ix2 (0 : Fin 1) (i 1))) * g (ValueIdx.ix2 (0 : Fin 1) (i 1))
    + b (ValueIdx.ix2 (0 : Fin 1) (i 1))

variable (V : (c : Dev nD) → (b : Ref sig .tc) → Buf (Elt Ideal) ((c : Thread nD τ).loc b))

/-- The windows' block indices at each grid point, decided over the grid: the activations' tile and the output's
    tile are both tile `t` of the rows and the only tile of the lanes; each row array's block is its whole array. -/
theorem idx_facts1 : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- What point `t` writes back is tile `t` of the normalised array of the arrays as the region finds them. -/
theorem flushed1_5_eq (c : Dev nD) (t : Fin cfg1.N) :
    (dat1 (F := Ideal) V c).flushed 5 t = ((cfg1.win 5).blk t).view.read (Elt Ideal)
      (normArr (V c main_v14_0) (V c main_v16) (V c main_v23) (V c main_v24) (V c main_v25)) := by
  show (cfg1.win 5).cut (grid1.coords t) ((dat1 (F := Ideal) V c).after 5 t) = _
  rw [after1_5]
  obtain ⟨e50, e51, e00, e01, e10, e11, e20, e21, e30, e31, e40, e41⟩ := idx_facts1 t
  funext j
  obtain ⟨r, q, rfl⟩ : ∃ (r : Fin 2000) (q : Fin 128), j = ix2 r q := ⟨j 0, j 1, eq_ix2 j⟩
  show out1_5 (F := Ideal) (iblk1 V c 0 t) (iblk1 V c 1 t) (iblk1 V c 2 t) (iblk1 V c 3 t) (iblk1 V c 4 t) (ix2 r q)
    = normArr (V c main_v14_0) (V c main_v16) (V c main_v23) (V c main_v24) (V c main_v25) (((cfg1.win 5).blk t).view.emb (ix2 r q))
  rw [out1_5_apply]
  have h0 : ((cfg1.win 0).blk t).view.emb (ix2 r q) = ((cfg1.win 5).blk t).view.emb (ix2 r q) := by
    funext a; apply Fin.ext
    match a with
    | ⟨0, _⟩ => show win1_0.index t (0 : Fin 2) * 2000 + 1 * r.val = win1_5.index t (0 : Fin 2) * 2000 + 1 * r.val; omega
    | ⟨1, _⟩ => show win1_0.index t (1 : Fin 2) * 128 + 1 * q.val = win1_5.index t (1 : Fin 2) * 128 + 1 * q.val; omega
  have h1 : ((cfg1.win 1).blk t).view.emb (ix2 (0 : Fin 1) q) = ix2 (0 : Fin 1) ((((cfg1.win 5).blk t).view.emb (ix2 r q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_5.index t (1 : Fin 2) * 128 + 1 * q.val; omega
  have h2 : ((cfg1.win 2).blk t).view.emb (ix2 (0 : Fin 1) q) = ix2 (0 : Fin 1) ((((cfg1.win 5).blk t).view.emb (ix2 r q)) 1) := by
    funext a; apply Fin.ext
    match a with
    | ⟨0, _⟩ => show win1_2.index t (0 : Fin 2) * 1 + 1 * 0 = 0; omega
    | ⟨1, _⟩ => show win1_2.index t (1 : Fin 2) * 128 + 1 * q.val = win1_5.index t (1 : Fin 2) * 128 + 1 * q.val; omega
  have h3 : ((cfg1.win 3).blk t).view.emb (ix2 (0 : Fin 1) q) = ix2 (0 : Fin 1) ((((cfg1.win 5).blk t).view.emb (ix2 r q)) 1) := by
    funext a; apply Fin.ext
    match a with
    | ⟨0, _⟩ => show win1_3.index t (0 : Fin 2) * 1 + 1 * 0 = 0; omega
    | ⟨1, _⟩ => show win1_3.index t (1 : Fin 2) * 128 + 1 * q.val = win1_5.index t (1 : Fin 2) * 128 + 1 * q.val; omega
  have h4 : ((cfg1.win 4).blk t).view.emb (ix2 (0 : Fin 1) q) = ix2 (0 : Fin 1) ((((cfg1.win 5).blk t).view.emb (ix2 r q)) 1) := by
    funext a; apply Fin.ext
    match a with
    | ⟨0, _⟩ => show win1_4.index t (0 : Fin 2) * 1 + 1 * 0 = 0; omega
    | ⟨1, _⟩ => show win1_4.index t (1 : Fin 2) * 128 + 1 * q.val = win1_5.index t (1 : Fin 2) * 128 + 1 * q.val; omega
  have key : ∀ (A0 : S50000x128.Idx → EReal) (A1 A2 A3 A4 : S1x128.Idx → EReal),
      ((A0 (((cfg1.win 0).blk t).view.emb (ix2 r q)) - A1 (((cfg1.win 1).blk t).view.emb (ix2 (0 : Fin 1) q)))
          * A2 (((cfg1.win 2).blk t).view.emb (ix2 (0 : Fin 1) q))) * A3 (((cfg1.win 3).blk t).view.emb (ix2 (0 : Fin 1) q))
          + A4 (((cfg1.win 4).blk t).view.emb (ix2 (0 : Fin 1) q))
        = normArr A0 A1 A2 A3 A4 (((cfg1.win 5).blk t).view.emb (ix2 r q)) := by
    intro A0 A1 A2 A3 A4
    unfold normArr
    rw [h0, h1, h2, h3, h4]
    rfl
  exact key (V c main_v14_0) (V c main_v16) (V c main_v23) (V c main_v24) (V c main_v25)

/-- An index of the output array is in point `t`'s tile iff each coordinate is in the tile's range on its axis. -/
theorem mem_blk1_5 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v26).slice (win1_5.rect t)).set ↔ _
  rw [View.set_slice_whole, Rect.mem_set_unit]
  exact Iff.rfl

/-- The tiles cover the output array: row `p` is in the tile of point `p / 2000`, and every point writes back. -/
theorem covered1_5 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨e50, e51, -⟩ := idx_facts1 t
  have ht : t.val = (i 0).val / 2000 := rfl
  refine ⟨t, flush1_5 t, ?_⟩
  rw [mem_blk1_5]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The output array after the region's last point: the normalised array of the arrays as the region finds them. -/
theorem final1 (c : Dev nD) : (dat1 (F := Ideal) V c).arrAt 5 cfg1.N
    = normArr (V c main_v14_0) (V c main_v16) (V c main_v23) (V c main_v24) (V c main_v25) :=
  (dat1 (F := Ideal) V c).arrAt_eq_of_cover 5 _ (fun t _ => flushed1_5_eq V c t) covered1_5

end Cert.KernelIdeal.Hand

end
-- ==== Proof.Consts.lean ====
/-
  The float constants the programs spell, as the real numbers their bit patterns denote: the count of nodes 50000
  (sign 0, exponent 142, fraction 0x435000: (2^23 + 4411392) · 2^(142 - 127 - 23) = 12800000 / 256).
-/
import Idealize.ShloMosaic.PureOps.Ideal

noncomputable section

namespace Cert.Consts

open Idealize.ShloMosaic

/-- `50000.0` denotes the real 50000. -/
theorem ofBits_50000 : Ideal.ofBits .f32 0x47435000#32 = ((50000 : ℝ) : EReal) := by
  simp [Ideal.ofBits, Ideal.ieee, -EReal.coe_mul]; norm_num

/-- `+0.0` denotes 0. -/
theorem ofBits_zero : Ideal.ofBits .f32 0x00000000#32 = 0 := by
  simp [Ideal.ofBits, Ideal.ieee]

end Cert.Consts

end
-- ==== Proof.KVal.lean ====
/-
  The value of the two-kernel program's result, as one function of its argument arrays.

  Reading the run's last contents back through the four segments: the normalisation kernel leaves
  ((h − mean) · invstd) · scale + shift, entry by entry; the statistics stretch computes mean and invstd from the two
  accumulator rows the perceptron kernel leaves, which are the column sums of h and of h · h over all the nodes; and h
  itself is the perceptron output of the feature array and of the aggregate the first stretch computes. So the result
  is the batch normalisation of h with the variance taken as the mean of the squares less the squared mean.
-/
import proofs.«116873_j21114059227217_1_alg».proof.Proof.KFrame
import proofs.«116873_j21114059227217_1_alg».proof.Proof.KHost
import proofs.«116873_j21114059227217_1_alg».proof.Proof.KOut
import proofs.«116873_j21114059227217_1_alg».proof.Proof.Final0
import proofs.«116873_j21114059227217_1_alg».proof.Proof.Reg1Final
import proofs.«116873_j21114059227217_1_alg».proof.Proof.Consts

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (m : (ℓ : Loc nD τ sig) → Buf (Elt Ideal) ℓ)

/-! ## What the perceptron kernel is entered with -/

theorem E1_arg0 (c : Dev nD) : E1 m c main_arg0 = m ((c : Thread nD τ).loc main_arg0) := (W1_of m c main_arg0 (by decide)).trans rfl
theorem E1_arg2 (c : Dev nD) : E1 m c main_arg2 = m ((c : Thread nD τ).loc main_arg2) := (W1_of m c main_arg2 (by decide)).trans rfl
theorem E1_arg3 (c : Dev nD) : E1 m c main_arg3 = m ((c : Thread nD τ).loc main_arg3) := (W1_of m c main_arg3 (by decide)).trans rfl
theorem E1_arg4 (c : Dev nD) : E1 m c main_arg4 = m ((c : Thread nD τ).loc main_arg4) := (W1_of m c main_arg4 (by decide)).trans rfl
theorem E1_arg5 (c : Dev nD) : E1 m c main_arg5 = m ((c : Thread nD τ).loc main_arg5) := (W1_of m c main_arg5 (by decide)).trans rfl
theorem E1_v13 (c : Dev nD) :
    E1 m c main_v13 = kerAgg (m ((c : Thread nD τ).loc main_arg0)) (m ((c : Thread nD τ).loc main_arg1)) :=
  after0_v13 (W0 m c)

theorem hAt_E1 (c : Dev nD) (p : Fin 50000) (q : Fin 128) :
    hAt (E1 m) c p q = kerH (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) q p := by
  unfold hAt kerH
  rw [E1_arg0, E1_arg2, E1_arg3, E1_arg4, E1_arg5, E1_v13]

theorem cntLit_eq : cntLit = Cert.Spec.cnt 50000 := by
  unfold cntLit Cert.Spec.cnt
  rw [Cert.Consts.ofBits_50000]; norm_num

/-! ## What the normalisation kernel is entered with -/

theorem E3_v14_0 (c : Dev nD) : (E3 m c main_v14_0 : S50000x128.Idx → EReal) = Harr (E1 m) c :=
  (W3_of m c main_v14_0 (by decide)).trans ((W2_arr m c 6).trans (final0_6 (E1 m) c))

theorem W2_v14_1 (c : Dev nD) : (W2 m c (Proc.devRef .tc main_v14_1) : S1x128.Idx → EReal) = Sarr (E1 m) c :=
  (W2_arr m c 7).trans (final0_7 (E1 m) c)
theorem W2_v14_2 (c : Dev nD) : (W2 m c (Proc.devRef .tc main_v14_2) : S1x128.Idx → EReal) = Qarr (E1 m) c :=
  (W2_arr m c 8).trans (final0_8 (E1 m) c)
theorem W2_arg6 (c : Dev nD) : W2 m c (Proc.devRef .tc main_arg6) = m ((c : Thread nD τ).loc main_arg6) :=
  (W2_of_ne m c main_arg6 (by decide)).trans ((W1_of m c main_arg6 (by decide)).trans rfl)
theorem W2_arg7 (c : Dev nD) : W2 m c (Proc.devRef .tc main_arg7) = m ((c : Thread nD τ).loc main_arg7) :=
  (W2_of_ne m c main_arg7 (by decide)).trans ((W1_of m c main_arg7 (by decide)).trans rfl)

theorem Harr_apply (V : (c : Dev nD) → (b : Ref sig .tc) → Buf (Elt Ideal) ((c : Thread nD τ).loc b)) (c : Dev nD) (p : Fin 50000) (q : Fin 128) :
    Harr V c (ix2 p q) = hAt V c p q := rfl

theorem normArr_apply (h : S50000x128.Idx → EReal) (mu iv g b : S1x128.Idx → EReal) (p : Fin 50000) (q : Fin 128) :
    normArr h mu iv g b (ix2 p q)
      = ((h (ix2 p q) - mu (ix2 (0 : Fin 1) q)) * iv (ix2 (0 : Fin 1) q)) * g (ix2 (0 : Fin 1) q) + b (ix2 (0 : Fin 1) q) := rfl

theorem kerOut_apply (x : FVec Ideal S50000x128 .f32) (ei : (⟨S2x800000, .i32⟩ : BufTy).Contents (Elt Ideal))
    (W1 : FVec Ideal S128x128 .f32) (b1 : FVec Ideal S128 .f32) (W2 : FVec Ideal S128x128 .f32) (b2 : FVec Ideal S128 .f32)
    (g bt : FVec Ideal S128 .f32) (p : Fin 50000) (q : Fin 128) :
    kerOut x ei W1 b1 W2 b2 g bt (ix2 p q)
      = ((kerH x ei W1 b1 W2 b2 q p - Cert.Spec.mean (kerH x ei W1 b1 W2 b2 q))
          * Ideal.rsqrt (Cert.Spec.varMoments (kerH x ei W1 b1 W2 b2 q) + epsLit)) * g (ix1 q) + bt (ix1 q) := rfl

/-- THE RESULT of the two-kernel program. -/
theorem kernel_value (c : Dev nD) :
    (dat1 (E3 m) c).arrAt 5 cfg1.N
      = kerOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [final1 (E3 m) c]
  funext i
  obtain ⟨p, q, rfl⟩ : ∃ (p : Fin 50000) (q : Fin 128), i = ix2 p q := ⟨i 0, i 1, eq_ix2 i⟩
  have hmean : (E3 m c main_v16 : S1x128.Idx → EReal) (ix2 (0 : Fin 1) q)
      = Cert.Spec.mean (kerH (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) q) := by
    refine (stat_mean (W2 m c) q).trans ?_
    rw [W2_v14_1, cntLit_eq]
    unfold Cert.Spec.mean Sarr
    simp only [hAt_E1]
  have hinv : (E3 m c main_v23 : S1x128.Idx → EReal) (ix2 (0 : Fin 1) q)
      = Ideal.rsqrt (Cert.Spec.varMoments (kerH (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) q) + epsLit) := by
    refine (stat_invstd (W2 m c) q).trans ?_
    rw [W2_v14_1, W2_v14_2, cntLit_eq]
    unfold Cert.Spec.varMoments Cert.Spec.mean Sarr Qarr
    simp only [hAt_E1]
  have hg : (E3 m c main_v24 : S1x128.Idx → EReal) (ix2 (0 : Fin 1) q) = (m ((c : Thread nD τ).loc main_arg6) : S128.Idx → EReal) (ix1 q) :=
    (stat_gamma (W2 m c) q).trans (by rw [W2_arg6])
  have hb : (E3 m c main_v25 : S1x128.Idx → EReal) (ix2 (0 : Fin 1) q) = (m ((c : Thread nD τ).loc main_arg7) : S128.Idx → EReal) (ix1 q) :=
    (stat_beta (W2 m c) q).trans (by rw [W2_arg7])
  rw [normArr_apply, hmean, hinv, hg, hb, E3_v14_0, Harr_apply, hAt_E1, kerOut_apply]

end Cert.KernelIdeal.Hand

end
-- ==== Proof.LibHostPieces.lean ====
/-
  Two facts for reading a long line of host operations piece by piece.

  What a buffer holds after a line of host operations is a fold over the line. When the whole line's result is too
  large a term to compare in one step, the line can be cut at any point: the fold over a concatenation is the fold
  over the second part, started from what the first part leaves (`after_append`); with `List.take_append_drop` this
  cuts a line given as one list into stretches whose results are small terms, each read from any incoming contents.

  An operation spelt over typed references moves its operands from each buffer's own type to the tensor type it
  carries and its result back; these transports are identities, and a value moved to a buffer's type and back is the
  value (`ofBuf_toBuf`). Rewriting with it before comparing a stretch's result with a closed term removes the pairs
  of transports that otherwise stand between the two sides. Both facts hold for any topology, signature and element
  values.
-/
import Idealize.ShloMosaic.Lib.StableHlo.Run

namespace Idealize.ShloMosaic.HostPieces

open Idealize.ShloMosaic Idealize.ShloMosaic.StableHlo

variable {τ : Topo} {sig : RefSig} {Val : EltTy → Type}

/-- Running two stretches of operations one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => exact ih _

/-- A line of operations cut at position `n`: the part after `n` run from what the first `n` leave. -/
theorem after_take_drop (n : ℕ) (l : List (HloOp τ sig Val)) (V : Valuation τ sig Val) :
    after l V = after (l.drop n) (after (l.take n) V) := by
  rw [← after_append, List.take_append_drop]

/-- Contents moved to a buffer's own type and back are unchanged. -/
theorem ofBuf_toBuf {T : BufTy} (x : TRef sig T) (v : T.Contents Val) : x.ofBuf (x.toBuf v) = v := by
  obtain ⟨r, rfl, _, _⟩ := x
  rfl

end Idealize.ShloMosaic.HostPieces
-- ==== Proof.RefRun.lean ====
/-
  The reference program's run.

  The program is a straight line of host tensor operations; two of its lines call functions stated apart from it (the
  column variance, and inside it a select), which are read here with their bodies put in the callers' place. The line
  is listed as one list of operations; running it from any memory ends with every buffer at the fold of the
  operations' results over the launch contents. The result buffer's fold is named: the neighbourhood sum (a
  scatter-add of gathered rows), the two dense layers, the column mean, the column variance, the normalisation.
-/
import proofs.«116873_j21114059227217_1_alg».proof.Defs
import proofs.«116873_j21114059227217_1_alg».proof.Proof.Gen.ReferenceIdeal
import proofs.«116873_j21114059227217_1_alg».proof.Proof.LibHostPieces
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## The operations' composed term, stage by stage (at the ideal instance) -/

/-- The edge table's first line as a flat list: each edge's source row. -/
def refRow0 (ei : (⟨S2x800000, .i32⟩ : BufTy).Contents (Elt Ideal)) : (⟨S800000, .i32⟩ : BufTy).Contents (Elt Ideal) :=
  shapeCast S800000 (extractStridedSlice S1x800000 ![0, 0] ei slices_S2x800000_S1x800000_0_0) shapeCasts_S1x800000_S800000

/-- The edge table's second line as a flat list: each edge's destination row. -/
def refRow1 (ei : (⟨S2x800000, .i32⟩ : BufTy).Contents (Elt Ideal)) : (⟨S800000, .i32⟩ : BufTy).Contents (Elt Ideal) :=
  shapeCast S800000 (extractStridedSlice S1x800000 ![1, 0] ei slices_S2x800000_S1x800000_1_0) shapeCasts_S1x800000_S800000

/-- The gather's index table: a negative source row is counted from the end (50000 added), one column. -/
def refSrc (ei : (⟨S2x800000, .i32⟩ : BufTy).Contents (Elt Ideal)) : (⟨S800000x1, .i32⟩ : BufTy).Contents (Elt Ideal) :=
  broadcastInDim S800000x1 ![0] bcast_S800000_S800000x1_0
    (select (cmpi .slt (refRow0 ei) (broadcastInDim S800000 ![] bcast_S_S800000 (constantI S_ 32 0#32)))
      (addi (refRow0 ei) (broadcastInDim S800000 ![] bcast_S_S800000 (constantI S_ 32 50000#32))) (refRow0 ei))

/-- The scatter's index table: the destination rows, one column. -/
def refDst (ei : (⟨S2x800000, .i32⟩ : BufTy).Contents (Elt Ideal)) : (⟨S800000x1, .i32⟩ : BufTy).Contents (Elt Ideal) :=
  broadcastInDim S800000x1 ![0] bcast_S800000_S800000x1_0 (refRow1 ei)

/-- The neighbourhood sum: into a zero matrix, each edge adds its source's row of `x` at its destination's row. -/
def refAgg (x : FVec Ideal S50000x128 .f32) (ei : (⟨S2x800000, .i32⟩ : BufTy).Contents (Elt Ideal)) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32)) (refDst ei)
    (Host.gather gather_S50000x128_S800000x1_S800000x128_1_0_n_n_0_1_1128 x (refSrc ei))

/-- The first dense layer on `x` plus its neighbourhood sum, clamped below at zero. -/
def refHid (x : FVec Ideal S50000x128 .f32) (ei : (⟨S2x800000, .i32⟩ : BufTy).Contents (Elt Ideal)) (W1 : FVec Ideal S128x128 .f32) (b1 : FVec Ideal S128 .f32) :
    FVec Ideal S50000x128 .f32 :=
  maximumf
    (addf (Host.dotGeneral (F := Ideal) dot_S50000x128_S128x128_S50000x128_1_0_0_1_n_n none (addf x (refAgg x ei)) W1) (broadcastInDim S50000x128 ![0, 1] bcast_S1x128_S50000x128_0_1 (broadcastInDim S1x128 ![1] bcast_S128_S1x128_1 b1)))
    (broadcastInDim S50000x128 ![] bcast_S_S50000x128 (constant (F := Ideal) S_ .f32 0x00000000#32))

/-- The second dense layer: the perceptron's output. -/
def refH (x : FVec Ideal S50000x128 .f32) (ei : (⟨S2x800000, .i32⟩ : BufTy).Contents (Elt Ideal)) (W1 : FVec Ideal S128x128 .f32) (b1 : FVec Ideal S128 .f32)
    (W2 : FVec Ideal S128x128 .f32) (b2 : FVec Ideal S128 .f32) : FVec Ideal S50000x128 .f32 :=
  addf (Host.dotGeneral (F := Ideal) dot_S50000x128_S128x128_S50000x128_1_0_0_1_n_n none (refHid x ei W1 b1) W2) (broadcastInDim S50000x128 ![0, 1] bcast_S1x128_S50000x128_0_1 (broadcastInDim S1x128 ![1] bcast_S128_S1x128_1 b2))

/-- Each column's mean over the 50000 rows. -/
def refMean (h : FVec Ideal S50000x128 .f32) : FVec Ideal S128 .f32 :=
  Host.divf (F := Ideal) (Host.reduceAdd (F := Ideal) h (constant (F := Ideal) S_ .f32 0x00000000#32) reducesTo_S50000x128_S128_d0 h_S_)
    (broadcastInDim S128 ![] bcast_S_S128 (constant (F := Ideal) S_ .f32 0x47435000#32))

/-- The variance's divisor: the row count less the correction (zero here). -/
def refCount : FVec Ideal S_ .f32 :=
  subf (constant (F := Ideal) S_ .f32 0x47435000#32) (sitofp (F := Ideal) .f32 (constantI S_ 32 0#32))

/-- Each entry less its column's mean (the mean as the variance computes it, kept as a one-row matrix). -/
def refCentered (h : FVec Ideal S50000x128 .f32) : FVec Ideal S50000x128 .f32 :=
  subf h (broadcastInDim S50000x128 ![0, 1] bcast_S1x128_S50000x128_0_1
    (Host.divf (F := Ideal)
      (broadcastInDim S1x128 ![1] bcast_S128_S1x128_1 (Host.reduceAdd (F := Ideal) h (constant (F := Ideal) S_ .f32 0x00000000#32) reducesTo_S50000x128_S128_d0 h_S_))
      (broadcastInDim S1x128 ![] bcast_S_S1x128 (constant (F := Ideal) S_ .f32 0x47435000#32))))

/-- Each column's variance: the sum of the squared centered entries over the divisor where the divisor is positive,
    the not-a-number constant otherwise. -/
def refVar (h : FVec Ideal S50000x128 .f32) : FVec Ideal S128 .f32 :=
  select (broadcastInDim S128 ![] bcast_S_S128 (cmpf .ogt refCount (constant (F := Ideal) S_ .f32 0x00000000#32)))
    (Host.divf (F := Ideal)
      (Host.reduceAdd (F := Ideal) (mulf (refCentered h) (refCentered h)) (constant (F := Ideal) S_ .f32 0x00000000#32) reducesTo_S50000x128_S128_d0 h_S_)
      (broadcastInDim S128 ![] bcast_S_S128 refCount))
    (broadcastInDim S128 ![] bcast_S_S128 (id (constant (F := Ideal) S_ .f32 0x7FC00000#32)))

/-- The normalisation of a matrix `h` by column: centered, scaled by the inverse root of the variance plus the
    small constant, then by `g`, then shifted by `bt`. -/
def refNorm (h : FVec Ideal S50000x128 .f32) (g bt : FVec Ideal S128 .f32) : FVec Ideal S50000x128 .f32 :=
  addf
    (mulf
      (mulf (subf h (broadcastInDim S50000x128 ![0, 1] bcast_S1x128_S50000x128_0_1 (broadcastInDim S1x128 ![1] bcast_S128_S1x128_1 (refMean h))))
        (broadcastInDim S50000x128 ![0, 1] bcast_S1x128_S50000x128_0_1 (broadcastInDim S1x128 ![1] bcast_S128_S1x128_1 (Host.rsqrt (F := Ideal) (addf (refVar h) (broadcastInDim S128 ![] bcast_S_S128 (constant (F := Ideal) S_ .f32 0x3727C5AC#32)))))))
      (broadcastInDim S50000x128 ![0, 1] bcast_S1x128_S50000x128_0_1 (broadcastInDim S1x128 ![1] bcast_S128_S1x128_1 g)))
    (broadcastInDim S50000x128 ![0, 1] bcast_S1x128_S50000x128_0_1 (broadcastInDim S1x128 ![1] bcast_S128_S1x128_1 bt))

/-- The result: the perceptron's output normalised by column. -/
def refOut (x : FVec Ideal S50000x128 .f32) (ei : (⟨S2x800000, .i32⟩ : BufTy).Contents (Elt Ideal)) (W1 : FVec Ideal S128x128 .f32) (b1 : FVec Ideal S128 .f32)
    (W2 : FVec Ideal S128x128 .f32) (b2 : FVec Ideal S128 .f32) (g bt : FVec Ideal S128 .f32) : FVec Ideal S50000x128 .f32 :=
  refNorm (refH x ei W1 b1 W2 b2) g bt

/-! ## The program as a list of operations -/

variable {F : FTy → Type} [FloatOps F]

/-- The program's 73 operations in order, the two called functions' bodies in their callers' place: the first
    thirty-five are the program's own up to the variance, the next nineteen the variance's, the next three the select's,
    the last sixteen the normalisation. -/
abbrev ops : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_arg0 main_v13 main_v14 (addf : (⟨S50000x128, .f32⟩ : BufTy).Contents (Elt F) → (⟨S50000x128, .f32⟩ : BufTy).Contents (Elt F) → (⟨S50000x128, .f32⟩ : BufTy).Contents (Elt F)),
    StableHlo.binary main_v14 main_arg2 main_v15 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S50000x128 ![0, 1] bcast_S1x128_S50000x128_0_1 : (⟨S1x128, .f32⟩ : BufTy).Contents (Elt F) → (⟨S50000x128, .f32⟩ : BufTy).Contents (Elt F)),
    StableHlo.binary main_v15 main_v17 main_v18 (addf : (⟨S50000x128, .f32⟩ : BufTy).Contents (Elt F) → (⟨S50000x128, .f32⟩ : BufTy).Contents (Elt F) → (⟨S50000x128, .f32⟩ : BufTy).Contents (Elt F)),
    StableHlo.nullary main_cst_1 (constant S_ .f32 0x00000000#32),
    StableHlo.unary main_cst_1 main_v19 (broadcastInDim S50000x128 ![] bcast_S_S50000x128 : (⟨S_, .f32⟩ : BufTy).Contents (Elt F) → (⟨S50000x128, .f32⟩ : BufTy).Contents (Elt F)),
    StableHlo.binary main_v18 main_v19 main_v20 (maximumf : (⟨S50000x128, .f32⟩ : BufTy).Contents (Elt F) → (⟨S50000x128, .f32⟩ : BufTy).Contents (Elt F) → (⟨S50000x128, .f32⟩ : BufTy).Contents (Elt F)),
    StableHlo.binary main_v20 main_arg4 main_v21 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S50000x128 ![0, 1] bcast_S1x128_S50000x128_0_1 : (⟨S1x128, .f32⟩ : BufTy).Contents (Elt F) → (⟨S50000x128, .f32⟩ : BufTy).Contents (Elt F)),
    StableHlo.binary main_v21 main_v23 main_v24 (addf : (⟨S50000x128, .f32⟩ : BufTy).Contents (Elt F) → (⟨S50000x128, .f32⟩ : BufTy).Contents (Elt F) → (⟨S50000x128, .f32⟩ : BufTy).Contents (Elt F)),
    StableHlo.nullary main_cst_2 (constant S_ .f32 0x00000000#32),
    StableHlo.binary main_v24 main_cst_2 main_v25 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_3 (constant S_ .f32 0x47435000#32),
    StableHlo.unary main_cst_3 main_v26 (broadcastInDim S128 ![] bcast_S_S128 : (⟨S_, .f32⟩ : BufTy).Contents (Elt F) → (⟨S128, .f32⟩ : BufTy).Contents (Elt F)),
    StableHlo.binary main_v25 main_v26 main_v27 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    TRef.nullary main_call0.cst (constant S_ .f32 0x00000000#32),
    TRef.binary (.of main_v24) main_call0.cst main_call0.v0 (fun x v => Host.reduceAdd x v reducesTo_S50000x128_S128_d0 h_S_),
    TRef.unary main_call0.v0 main_call0.v1 (broadcastInDim S1x128 ![1] bcast_S128_S1x128_1),
    TRef.nullary main_call0.cst_0 (constant S_ .f32 0x47435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S50000x128 ![0, 1] bcast_S1x128_S50000x128_0_1),
    TRef.binary (.of main_v24) main_call0.v4 main_call0.v5 subf,
    TRef.binary main_call0.v5 main_call0.v5 main_call0.v6 mulf,
    TRef.unary (.of main_c_4) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    StableHlo.unary main_v27 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S50000x128 ![0, 1] bcast_S1x128_S50000x128_0_1 : (⟨S1x128, .f32⟩ : BufTy).Contents (Elt F) → (⟨S50000x128, .f32⟩ : BufTy).Contents (Elt F)),
    StableHlo.binary main_v24 main_v30 main_v31 (subf : (⟨S50000x128, .f32⟩ : BufTy).Contents (Elt F) → (⟨S50000x128, .f32⟩ : BufTy).Contents (Elt F) → (⟨S50000x128, .f32⟩ : BufTy).Contents (Elt F)),
    StableHlo.nullary main_cst_5 (constant S_ .f32 0x3727C5AC#32),
    StableHlo.unary main_cst_5 main_v32 (broadcastInDim S128 ![] bcast_S_S128 : (⟨S_, .f32⟩ : BufTy).Contents (Elt F) → (⟨S128, .f32⟩ : BufTy).Contents (Elt F)),
    StableHlo.binary main_v28 main_v32 main_v33 (addf : (⟨S128, .f32⟩ : BufTy).Contents (Elt F) → (⟨S128, .f32⟩ : BufTy).Contents (Elt F) → (⟨S128, .f32⟩ : BufTy).Contents (Elt F)),
    StableHlo.unary main_v33 main_v34 (Host.rsqrt : (⟨S128, .f32⟩ : BufTy).Contents (Elt F) → (⟨S128, .f32⟩ : BufTy).Contents (Elt F)),
    StableHlo.unary main_v34 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S50000x128 ![0, 1] bcast_S1x128_S50000x128_0_1 : (⟨S1x128, .f32⟩ : BufTy).Contents (Elt F) → (⟨S50000x128, .f32⟩ : BufTy).Contents (Elt F)),
    StableHlo.binary main_v31 main_v36 main_v37 (mulf : (⟨S50000x128, .f32⟩ : BufTy).Contents (Elt F) → (⟨S50000x128, .f32⟩ : BufTy).Contents (Elt F) → (⟨S50000x128, .f32⟩ : BufTy).Contents (Elt F)),
    StableHlo.unary main_arg6 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S50000x128 ![0, 1] bcast_S1x128_S50000x128_0_1 : (⟨S1x128, .f32⟩ : BufTy).Contents (Elt F) → (⟨S50000x128, .f32⟩ : BufTy).Contents (Elt F)),
    StableHlo.binary main_v37 main_v39 main_v40 (mulf : (⟨S50000x128, .f32⟩ : BufTy).Contents (Elt F) → (⟨S50000x128, .f32⟩ : BufTy).Contents (Elt F) → (⟨S50000x128, .f32⟩ : BufTy).Contents (Elt F)),
    StableHlo.unary main_arg7 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S50000x128 ![0, 1] bcast_S1x128_S50000x128_0_1 : (⟨S1x128, .f32⟩ : BufTy).Contents (Elt F) → (⟨S50000x128, .f32⟩ : BufTy).Contents (Elt F)),
    StableHlo.binary main_v40 main_v42 main_v43 (addf : (⟨S50000x128, .f32⟩ : BufTy).Contents (Elt F) → (⟨S50000x128, .f32⟩ : BufTy).Contents (Elt F) → (⟨S50000x128, .f32⟩ : BufTy).Contents (Elt F)) ]

/-- The program is that straight line: with the functions' definitions unfolded at their calls, both sides are the same
    chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

/-! ## What the line leaves in the result and in the arguments -/

set_option maxHeartbeats 1000000 in
/-- The fold at the result buffer is `refOut` of the arguments' contents: each operation's result read at the
    buffer it writes and passed over elsewhere, the typed references' transports the identity at these literal
    references; what is left is the stages' definitions unfolded. -/
theorem out_eq (V : Valuation τ sig (Elt Ideal)) :
    after (ops (F := Ideal)) V (main_v43 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  after_results_simp
  rfl

/-! No operation writes an argument's buffer. -/
theorem arg0_eq (V : Valuation τ sig (Elt Ideal)) :
    after (ops (F := Ideal)) V (main_arg0 : DevRef τ sig) = V (main_arg0 : DevRef τ sig) := by
  after_results_simp
theorem arg1_eq (V : Valuation τ sig (Elt Ideal)) :
    after (ops (F := Ideal)) V (main_arg1 : DevRef τ sig) = V (main_arg1 : DevRef τ sig) := by
  after_results_simp
theorem arg2_eq (V : Valuation τ sig (Elt Ideal)) :
    after (ops (F := Ideal)) V (main_arg2 : DevRef τ sig) = V (main_arg2 : DevRef τ sig) := by
  after_results_simp
theorem arg3_eq (V : Valuation τ sig (Elt Ideal)) :
    after (ops (F := Ideal)) V (main_arg3 : DevRef τ sig) = V (main_arg3 : DevRef τ sig) := by
  after_results_simp
theorem arg4_eq (V : Valuation τ sig (Elt Ideal)) :
    after (ops (F := Ideal)) V (main_arg4 : DevRef τ sig) = V (main_arg4 : DevRef τ sig) := by
  after_results_simp
theorem arg5_eq (V : Valuation τ sig (Elt Ideal)) :
    after (ops (F := Ideal)) V (main_arg5 : DevRef τ sig) = V (main_arg5 : DevRef τ sig) := by
  after_results_simp
theorem arg6_eq (V : Valuation τ sig (Elt Ideal)) :
    after (ops (F := Ideal)) V (main_arg6 : DevRef τ sig) = V (main_arg6 : DevRef τ sig) := by
  after_results_simp
theorem arg7_eq (V : Valuation τ sig (Elt Ideal)) :
    after (ops (F := Ideal)) V (main_arg7 : DevRef τ sig) = V (main_arg7 : DevRef τ sig) := by
  after_results_simp

/-- From any memory with zero counters, every weakly fair execution of the program terminates with the result buffer
    at `refOut` of the arguments' launch contents and the eight arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v43) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v43).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq defs main (fun _ => ops) main_eq (fun _ => ops_sub) m ρ)

end Cert.ReferenceIdeal.Hand

end
-- ==== Proof.RefValue.lean ====
/-
  The reference's result read at an index.

  The result of the reference program is a composition of whole-array operations. Read at the entry (p, q) it is the
  perceptron's output at (p, q), less its column's mean, times the inverse root of the column's variance plus a small
  constant, scaled and shifted. The column sums run over the 50000 rows; the variance is taken as the mean of the
  squared deviations; its divisor, written as 50000 less a correction of zero, is positive, so the guarded quotient
  is the quotient.
-/
import proofs.«116873_j21114059227217_1_alg».proof.Proof.RefRun
import proofs.«116873_j21114059227217_1_alg».proof.Proof.Spec
import proofs.«116873_j21114059227217_1_alg».proof.Proof.LibDense
import Idealize.ShloMosaic.PureOps.Ideal.Laws
import Idealize.ShloMosaic.Lib.ValueIdx
import Idealize.ShloMosaic.Lib.Pipeline.Value

noncomputable section

open scoped BigOperators

namespace Cert.ReferenceIdeal.Hand

open Cert.ReferenceIdeal Cert.ReferenceIdeal.Gen Idealize.ShloMosaic Idealize.ShloMosaic.ValueIdx

/-! ## Broadcasts and column sums at an index -/

/-- A one-row matrix broadcast over the rows reads, at (p, q), the row's entry q. -/
theorem bcast_row_apply {α : Type} {M N : ℕ} (v : (⟨2, ![1, N]⟩ : Shape).Idx → α)
    (h2 : (⟨2, ![1, N]⟩ : Shape).BroadcastsInDim ⟨2, ![M, N]⟩ ![0, 1]) (p : Fin M) (q : Fin N) :
    broadcastInDim ⟨2, ![M, N]⟩ ![0, 1] h2 v (ix2 p q) = v (ix2 (0 : Fin 1) q) := by
  have hq : (if N = 1 then 0 else q.val) = q.val := by
    split
    · have := q.isLt; omega
    · rfl
  refine broadcastInDim_apply ![0, 1] h2 _ (ix2 p q) (ix2 (0 : Fin 1) q) fun ax => ?_
  match ax with
  | ⟨0, _⟩ => rfl
  | ⟨1, _⟩ => exact hq.symm

/-- A vector laid out as a one-row matrix reads, at (0, q), the vector's entry q. -/
theorem bcast_vec_apply {α : Type} {N : ℕ} (b : (⟨1, ![N]⟩ : Shape).Idx → α)
    (h1 : (⟨1, ![N]⟩ : Shape).BroadcastsInDim ⟨2, ![1, N]⟩ ![1]) (q : Fin N) :
    broadcastInDim ⟨2, ![1, N]⟩ ![1] h1 b (ix2 (0 : Fin 1) q) = b (ix1 q) := by
  have hq : (if N = 1 then 0 else q.val) = q.val := by
    split
    · have := q.isLt; omega
    · rfl
  refine broadcastInDim_apply ![1] h1 b (ix2 (0 : Fin 1) q) (ix1 q) fun ax => ?_
  match ax with
  | ⟨0, _⟩ => exact hq.symm

/-- A scalar broadcast to any shape reads the scalar everywhere. -/
theorem bcast_scalar_apply {α : Type} {t : Shape} (c : (⟨0, ![]⟩ : Shape).Idx → α)
    (h : (⟨0, ![]⟩ : Shape).BroadcastsInDim t ![]) (j : t.Idx) :
    broadcastInDim t ![] h c j = c ix0 := by
  unfold broadcastInDim
  exact congrArg c (funext fun a => a.elim0)

/-- The host's sum of a matrix over its rows, at column j: the initial value plus the column's sum. -/
theorem hostColSum_apply {a b : ℕ} {φ : FTy} (src : FVec Ideal ⟨2, ![a, b]⟩ φ) (init : FVec Ideal ⟨0, ![]⟩ φ)
    (h' : (⟨2, ![a, b]⟩ : Shape).ReducesTo [0] ⟨1, ![b]⟩) (hu : 0 < (⟨0, ![]⟩ : Shape).numel)
    (h : (⟨2, ![a, b]⟩ : Shape).Reduces [0] ⟨1, ![b]⟩) (j : Fin b) :
    Host.reduceAdd (F := Ideal) src init h' hu (ix1 j) = init ix0 + ∑ i : Fin a, src (ix2 i j) := by
  refine (Ideal.hostReduceAdd_single h' h src _ (ix1 j)).trans ?_
  congr 1
  · exact congrArg init (eq_ix0 _)
  · exact Finset.sum_congr rfl fun i _ =>
      congrArg src (funext fun c => Fin.ext (by match c with | ⟨0, _⟩ => rfl | ⟨1, _⟩ => rfl))

/-! ## The literals -/

/-- The divisor literal is fifty thousand. -/
theorem ofBits_50000 : Ideal.ofBits .f32 0x47435000#32 = Cert.Spec.cnt 50000 := by
  unfold Cert.Spec.cnt
  simp [Ideal.ofBits, Ideal.ieee]
  rw [← EReal.coe_mul]
  norm_num

/-- The variance's divisor, fifty thousand less the conversion of the integer zero, is fifty thousand. -/
theorem refCount_apply (i : S_.Idx) : refCount i = Cert.Spec.cnt 50000 := by
  show Ideal.ofBits .f32 0x47435000#32 - (((0#32 : BitVec 32).toInt : ℝ) : EReal) = _
  rw [ofBits_50000]
  simp

/-- The host's quotient at an index. -/
theorem hostDivf_apply {s : Shape} {φ : FTy} (a b : FVec Ideal s φ) (i : s.Idx) :
    Host.divf (F := Ideal) a b i = Ideal.div (a i) (b i) := rfl

/-- The host's inverse square root at an index. -/
theorem hostRsqrt_apply {s : Shape} {φ : FTy} (a : FVec Ideal s φ) (i : s.Idx) :
    Host.rsqrt (F := Ideal) a i = Ideal.rsqrt (a i) := rfl

/-- The printed dimension numbers are the plain matrix product's. -/
theorem dot_eq_plain : dot_S50000x128_S128x128_S50000x128_1_0_0_1_n_n = DotDims.plain 50000 128 128 := rfl

/-! ## The stages at an index -/

/-- The hidden layer at (p, k): the rectified row-by-column sum plus the bias. -/
theorem refHid_apply (x : FVec Ideal S50000x128 .f32) (ei : (⟨S2x800000, .i32⟩ : BufTy).Contents (Elt Ideal)) (W1 : FVec Ideal S128x128 .f32) (b1 : FVec Ideal S128 .f32) (p : Fin 50000) (k : Fin 128) :
    refHid x ei W1 b1 (ix2 p k)
      = Cert.Spec.hid (fun j => x (ix2 p j)) (fun j => refAgg x ei (ix2 p j)) (fun j k => W1 (ix2 j k))
          (fun k => b1 (ix1 k)) k := by
  unfold refHid
  rw [maximumf_apply, dot_eq_plain, Dense.dot_bias_apply, bcast_scalar_apply, constant_apply, Ideal.ofBits_zero_f32]
  rfl

/-- The perceptron's output for node `p`, feature `q`, as a column indexed by the node. -/
def refHcol (x : FVec Ideal S50000x128 .f32) (ei : (⟨S2x800000, .i32⟩ : BufTy).Contents (Elt Ideal)) (W1 : FVec Ideal S128x128 .f32) (b1 : FVec Ideal S128 .f32) (W2 : FVec Ideal S128x128 .f32) (b2 : FVec Ideal S128 .f32) (q : Fin 128) (p : Fin 50000) : EReal :=
  Cert.Spec.mlp (fun j => x (ix2 p j)) (fun j => refAgg x ei (ix2 p j)) (fun j k => W1 (ix2 j k)) (fun k => b1 (ix1 k))
    (fun k q' => W2 (ix2 k q')) (fun q' => b2 (ix1 q')) q

/-- The perceptron's output at (p, q). -/
theorem refH_apply (x : FVec Ideal S50000x128 .f32) (ei : (⟨S2x800000, .i32⟩ : BufTy).Contents (Elt Ideal)) (W1 : FVec Ideal S128x128 .f32) (b1 : FVec Ideal S128 .f32) (W2 : FVec Ideal S128x128 .f32) (b2 : FVec Ideal S128 .f32) (p : Fin 50000) (q : Fin 128) :
    refH x ei W1 b1 W2 b2 (ix2 p q) = refHcol x ei W1 b1 W2 b2 q p := by
  unfold refH refHcol Cert.Spec.mlp
  rw [dot_eq_plain, Dense.dot_bias_apply]
  congr 1
  exact Finset.sum_congr rfl fun k _ => by rw [refHid_apply]

/-- The column mean at q. -/
theorem refMean_apply (h : FVec Ideal S50000x128 .f32) (q : Fin 128) :
    refMean h (ix1 q) = Cert.Spec.mean (fun p : Fin 50000 => h (ix2 p q)) := by
  unfold refMean Cert.Spec.mean
  rw [hostDivf_apply, hostColSum_apply (h := by decide), bcast_scalar_apply, constant_apply, constant_apply,
    Ideal.ofBits_zero_f32, zero_add, ofBits_50000]

/-- An entry less its column's mean. -/
theorem refCentered_apply (h : FVec Ideal S50000x128 .f32) (p : Fin 50000) (q : Fin 128) :
    refCentered h (ix2 p q) = h (ix2 p q) - Cert.Spec.mean (fun p' : Fin 50000 => h (ix2 p' q)) := by
  unfold refCentered Cert.Spec.mean
  rw [subf_apply, bcast_row_apply, hostDivf_apply, bcast_vec_apply, hostColSum_apply (h := by decide), bcast_scalar_apply,
    constant_apply, constant_apply, Ideal.ofBits_zero_f32, zero_add, ofBits_50000]

/-- The column variance at q: the divisor is positive, so the guarded quotient is the quotient — the mean of the
    squared deviations. -/
theorem refVar_apply (h : FVec Ideal S50000x128 .f32) (q : Fin 128) :
    refVar h (ix1 q) = Cert.Spec.varCentered (fun p : Fin 50000 => h (ix2 p q)) := by
  have hc : FloatOps.cmpf (F := Ideal) (φ := .f32) .ogt (Cert.Spec.cnt 50000) (0 : EReal) = 1#1 := by
    show Ideal.cmp .ogt _ _ = _
    simp [Ideal.cmp, Cert.Spec.cnt]
  unfold refVar Cert.Spec.varCentered
  rw [select_apply, bcast_scalar_apply, cmpf_apply, refCount_apply, constant_apply, Ideal.ofBits_zero_f32, hc, select_one,
    hostDivf_apply, hostColSum_apply (h := by decide), bcast_scalar_apply, refCount_apply, constant_apply,
    Ideal.ofBits_zero_f32, zero_add]
  refine congrArg (fun s => Ideal.div s (Cert.Spec.cnt 50000)) (Finset.sum_congr rfl fun p _ => ?_)
  rw [mulf_apply, refCentered_apply]

/-- The normalisation at (p, q). -/
theorem refNorm_apply (h : FVec Ideal S50000x128 .f32) (g bt : FVec Ideal S128 .f32) (p : Fin 50000) (q : Fin 128) :
    refNorm h g bt (ix2 p q)
      = Cert.Spec.bn (h (ix2 p q)) (Cert.Spec.mean (fun p' : Fin 50000 => h (ix2 p' q)))
          (Cert.Spec.varCentered (fun p' : Fin 50000 => h (ix2 p' q))) (Ideal.ofBits .f32 0x3727C5AC#32)
          (g (ix1 q)) (bt (ix1 q)) := by
  unfold refNorm Cert.Spec.bn
  rw [addf_apply, mulf_apply, mulf_apply, subf_apply, Dense.bias_rows_apply, Dense.bias_rows_apply, Dense.bias_rows_apply,
    Dense.bias_rows_apply, refMean_apply, hostRsqrt_apply, addf_apply, refVar_apply, bcast_scalar_apply, constant_apply]

/-- The reference's result at (p, q): the perceptron's column q normalised at row p. -/
theorem refOut_apply (x : FVec Ideal S50000x128 .f32) (ei : (⟨S2x800000, .i32⟩ : BufTy).Contents (Elt Ideal)) (W1 : FVec Ideal S128x128 .f32) (b1 : FVec Ideal S128 .f32) (W2 : FVec Ideal S128x128 .f32) (b2 : FVec Ideal S128 .f32) (g bt : FVec Ideal S128 .f32) (p : Fin 50000) (q : Fin 128) :
    refOut x ei W1 b1 W2 b2 g bt (ix2 p q)
      = Cert.Spec.bn (refHcol x ei W1 b1 W2 b2 q p) (Cert.Spec.mean (refHcol x ei W1 b1 W2 b2 q))
          (Cert.Spec.varCentered (refHcol x ei W1 b1 W2 b2 q)) (Ideal.ofBits .f32 0x3727C5AC#32)
          (g (ix1 q)) (bt (ix1 q)) := by
  have hcol : (fun p' : Fin 50000 => refH x ei W1 b1 W2 b2 (ix2 p' q)) = refHcol x ei W1 b1 W2 b2 q :=
    funext fun p' => refH_apply x ei W1 b1 W2 b2 p' q
  unfold refOut
  rw [refNorm_apply, hcol, refH_apply]

end Cert.ReferenceIdeal.Hand

end
-- ==== Proof.AggEq.lean ====
/-
  The two programs' neighbour aggregates are the same function.

  Both programs compute every node's neighbour aggregate by the same line of operations on the feature array and the
  edge list: the two lines of the edge list flattened, a negative source row counted from the end, the source rows
  gathered, and the gathered rows added into a zero matrix at the destination rows. The two texts name the shapes,
  the shape relations and the gather's and scatter's dimension numbers separately, with equal contents, so the two
  aggregates agree by unfolding.
-/
import proofs.«116873_j21114059227217_1_alg».proof.Proof.KHost
import proofs.«116873_j21114059227217_1_alg».proof.Proof.RefRun

namespace Cert.Bridge

open Idealize.ShloMosaic

/-- The kernel program's aggregate of a feature array and an edge list is the reference's. -/
theorem kerAgg_eq_refAgg (x : FVec Ideal Cert.KernelIdeal.S50000x128 .f32)
    (ei : (⟨Cert.KernelIdeal.S2x800000, .i32⟩ : BufTy).Contents (Elt Ideal)) :
    Cert.KernelIdeal.Hand.kerAgg x ei = Cert.ReferenceIdeal.Hand.refAgg x ei := rfl

end Cert.Bridge
-- ==== Proof.Bridge.lean ====
/-
  The two programs' results are the same array wherever the perceptron's output is real.

  Both results are the batch normalisation, column by column, of the same perceptron output: the neighbour
  aggregates agree, so the perceptron outputs agree entry by entry. The kernel program takes a column's variance
  as the mean of the squares less the squared mean, the reference as the mean of the squared deviations; on a
  column of real numbers these are equal. The perceptron's output is real when the argument arrays are.
-/
import proofs.«116873_j21114059227217_1_alg».proof.Proof.KOut
import proofs.«116873_j21114059227217_1_alg».proof.Proof.RefValue
import proofs.«116873_j21114059227217_1_alg».proof.Proof.AggEq
import proofs.«116873_j21114059227217_1_alg».proof.Proof.Spec
import proofs.«116873_j21114059227217_1_alg».proof.Proof.LibFinite

noncomputable section

namespace Cert.Bridge

open Idealize.ShloMosaic Idealize.ShloMosaic.ValueIdx
open Cert.LibFinite

/-- The perceptron's output column `q` is the same function of the node in both programs. -/
theorem kerH_eq_refHcol (x : FVec Ideal Cert.KernelIdeal.S50000x128 .f32)
    (ei : (⟨Cert.KernelIdeal.S2x800000, .i32⟩ : BufTy).Contents (Elt Ideal))
    (W1 : FVec Ideal Cert.KernelIdeal.S128x128 .f32) (b1 : FVec Ideal Cert.KernelIdeal.S128 .f32)
    (W2 : FVec Ideal Cert.KernelIdeal.S128x128 .f32) (b2 : FVec Ideal Cert.KernelIdeal.S128 .f32) (q : Fin 128) :
    Cert.KernelIdeal.Hand.kerH x ei W1 b1 W2 b2 q = Cert.ReferenceIdeal.Hand.refHcol x ei W1 b1 W2 b2 q := by
  funext p
  unfold Cert.KernelIdeal.Hand.kerH Cert.ReferenceIdeal.Hand.refHcol
  rw [kerAgg_eq_refAgg x ei]
  try rfl

/-- The two results agree when every entry of the perceptron's output is a real number. -/
theorem out_eq (x : FVec Ideal Cert.KernelIdeal.S50000x128 .f32)
    (ei : (⟨Cert.KernelIdeal.S2x800000, .i32⟩ : BufTy).Contents (Elt Ideal))
    (W1 : FVec Ideal Cert.KernelIdeal.S128x128 .f32) (b1 : FVec Ideal Cert.KernelIdeal.S128 .f32)
    (W2 : FVec Ideal Cert.KernelIdeal.S128x128 .f32) (b2 : FVec Ideal Cert.KernelIdeal.S128 .f32)
    (g bt : FVec Ideal Cert.KernelIdeal.S128 .f32)
    (hH : ∀ (q : Fin 128) (p : Fin 50000), IsFin (Cert.KernelIdeal.Hand.kerH x ei W1 b1 W2 b2 q p)) :
    Cert.KernelIdeal.Hand.kerOut x ei W1 b1 W2 b2 g bt = Cert.ReferenceIdeal.Hand.refOut x ei W1 b1 W2 b2 g bt := by
  funext i
  obtain ⟨p, q, rfl⟩ : ∃ (p : Fin 50000) (q : Fin 128), i = ix2 p q := ⟨i 0, i 1, eq_ix2 i⟩
  rw [Cert.ReferenceIdeal.Hand.refOut_apply]
  show Cert.Spec.bn (Cert.KernelIdeal.Hand.kerH x ei W1 b1 W2 b2 q p)
      (Cert.Spec.mean (Cert.KernelIdeal.Hand.kerH x ei W1 b1 W2 b2 q))
      (Cert.Spec.varMoments (Cert.KernelIdeal.Hand.kerH x ei W1 b1 W2 b2 q))
      (Ideal.ofBits .f32 0x3727C5AC#32) (g (ix1 q)) (bt (ix1 q)) = _
  rw [Cert.Spec.varMoments_eq_varCentered (by norm_num) _ (hH q), kerH_eq_refHcol x ei W1 b1 W2 b2 q]

/-- The perceptron's output is real when the feature array, its neighbour aggregate, the weights and the biases are:
    sums, products and maxima of real numbers. -/
theorem kerH_fin (x : FVec Ideal Cert.KernelIdeal.S50000x128 .f32)
    (ei : (⟨Cert.KernelIdeal.S2x800000, .i32⟩ : BufTy).Contents (Elt Ideal))
    (W1 : FVec Ideal Cert.KernelIdeal.S128x128 .f32) (b1 : FVec Ideal Cert.KernelIdeal.S128 .f32)
    (W2 : FVec Ideal Cert.KernelIdeal.S128x128 .f32) (b2 : FVec Ideal Cert.KernelIdeal.S128 .f32)
    (hx : ∀ i, IsFin (x i)) (hagg : ∀ i, IsFin (Cert.KernelIdeal.Hand.kerAgg x ei i))
    (hW1 : ∀ i, IsFin (W1 i)) (hb1 : ∀ i, IsFin (b1 i)) (hW2 : ∀ i, IsFin (W2 i)) (hb2 : ∀ i, IsFin (b2 i)) :
    ∀ (q : Fin 128) (p : Fin 50000), IsFin (Cert.KernelIdeal.Hand.kerH x ei W1 b1 W2 b2 q p) := by
  intro q p
  unfold Cert.KernelIdeal.Hand.kerH Cert.Spec.mlp Cert.Spec.hid
  exact IsFin.add (IsFin.sum _ _ fun k _ => IsFin.mul
    (IsFin.max (IsFin.add (IsFin.sum _ _ fun j _ => IsFin.mul (IsFin.add (hx _) (hagg _)) (hW1 _)) (hb1 _)) IsFin.zero)
    (hW2 _)) (hb2 _)

end Cert.Bridge

end
-- ==== Proof.LibFinDecode.lean ====
/-
  "Every entry is finite", decoded from its printed test, over the extended reals.

  A precondition written `all(|x| < +∞)` prints as a reduction by `and` of the entrywise comparison of `|x|` with the
  f32 word of `+∞`. On the extended reals `|x| = max x (−x)`, and `max x (−x) < ⊤` rules out both infinities: what
  is left is a real number. Stated for one array of any shape reduced along any axes to a scalar, whatever evidence
  the program carries for the broadcast and the reduction.
-/
import proofs.«116873_j21114059227217_1_alg».proof.Proof.LibFinite
import Idealize.ShloMosaic.Lib.ReduceAll
import Idealize.ShloMosaic.Lib.Pipeline.Value
import Idealize.ShloMosaic.Lib.ValueIdx

noncomputable section

namespace Cert.LibFinDecode

open Idealize.ShloMosaic Idealize.ShloMosaic.ValueIdx Cert.LibFinite

/-- The scalar shape has one index. -/
instance : Subsingleton (⟨0, ![]⟩ : Shape).Idx := ⟨fun a b => funext fun d => d.elim0⟩

/-- The f32 word `0x7F800000` is `+∞`. -/
theorem word_inf : Ideal.ofBits .f32 0x7F800000#32 = ⊤ := by simp [Ideal.ofBits, Ideal.ieee]

/-- An extended real whose absolute value is below `+∞` is a real number. -/
theorem isFin_of_abs_lt (x : EReal) (h : Ideal.cmp .olt (max x (-x)) (Ideal.ofBits .f32 0x7F800000#32) = 1#1) : IsFin x := by
  rw [word_inf] at h
  induction x using EReal.rec with
  | bot => simp [Ideal.cmp] at h
  | coe r => exact ⟨r, rfl⟩
  | top => simp [Ideal.cmp] at h

/-- One array's conjunct: if "all entries are below +∞ in absolute value" evaluates to true, every entry is real. -/
theorem all_fin {s : Shape} {axes : List (Fin s.rank)} (x : FVec Ideal s .f32) (hb : (⟨0, ![]⟩ : Shape).BroadcastsInDim s ![])
    (hr : s.ReducesTo axes (⟨0, ![]⟩ : Shape)) (hu : 0 < (⟨0, ![]⟩ : Shape).numel)
    (e : Host.reduce IntOp.andi (cmpf .olt (Host.absf x) (broadcastInDim s ![] hb (constant (⟨0, ![]⟩ : Shape) .f32 0x7F800000#32)))
      (constantI (⟨0, ![]⟩ : Shape) 1 1#1) hr hu ix0 = 1#1) (i : s.Idx) : IsFin (x i) := by
  have h1 := Host.reduce_andi_all _ _ hr hu ix0 e i
  have h2 : broadcastInDim s ![] hb (constant (F := Ideal) (⟨0, ![]⟩ : Shape) .f32 0x7F800000#32) i = Ideal.ofBits .f32 0x7F800000#32 :=
    broadcastInDim_apply _ hb _ i ix0 (fun a => a.elim0)
  apply isFin_of_abs_lt
  rw [← h2]
  exact h1

end Cert.LibFinDecode

end
-- ==== Proof.FinPre.lean ====
import proofs.«116873_j21114059227217_1_alg».proof.Proof.LibFinite
import proofs.«116873_j21114059227217_1_alg».proof.Proof.LibFinDecode
import proofs.«116873_j21114059227217_1_alg».proof.Proof.Gen.Pre_finite_inputs
import proofs.«116873_j21114059227217_1_alg».proof.Proof.Gen.KernelIdeal
import proofs.«116873_j21114059227217_1_alg».proof.Defs

/-! # Finiteness from the precondition

The precondition says of each floating-point argument array that every entry is below `+∞` in absolute value; over
the extended reals that makes every entry a real number. -/

noncomputable section

namespace Cert.KernelIdeal.Hand

open Cert.KernelIdeal Cert.KernelIdeal.Gen
open Idealize.ShloMosaic Idealize.ShloMosaic.TcCoe Idealize.SL.Sem Idealize.ShloMosaic.ValueIdx
open Cert.LibFinite

/-- A conjunction of two one-bit scalars read at the scalar shape's one index. -/
theorem andi_ix0 (a b : IVec (⟨0, ![]⟩ : Shape) 1) (h : andi a b ix0 = 1#1) : a ix0 = 1#1 ∧ b ix0 = 1#1 :=
  IntOp.andi_eq_one.mp h

/-- The printed test at its one index: when it holds, every entry of every floating-point array is a real number —
    a conjunction of one "all entries below +∞ in absolute value" per array. -/
theorem fn_fin (a0 : FVec Ideal Cert.Pre_finite_inputs.S50000x128 .f32) (a1 : IVec Cert.Pre_finite_inputs.S2x800000 32)
    (a2 : FVec Ideal Cert.Pre_finite_inputs.S128x128 .f32) (a3 : FVec Ideal Cert.Pre_finite_inputs.S128 .f32) (a4 : FVec Ideal Cert.Pre_finite_inputs.S128x128 .f32)
    (a5 : FVec Ideal Cert.Pre_finite_inputs.S128 .f32) (a6 : FVec Ideal Cert.Pre_finite_inputs.S128 .f32) (a7 : FVec Ideal Cert.Pre_finite_inputs.S128 .f32)
    (h : Cert.Pre_finite_inputs.fn (F := Ideal) a0 a1 a2 a3 a4 a5 a6 a7 ix0 = 1#1) :
    (∀ i, IsFin (a0 i)) ∧ (∀ i, IsFin (a2 i)) ∧ (∀ i, IsFin (a3 i)) ∧ (∀ i, IsFin (a4 i))
      ∧ (∀ i, IsFin (a5 i)) ∧ (∀ i, IsFin (a6 i)) ∧ (∀ i, IsFin (a7 i)) := by
  dsimp only [Cert.Pre_finite_inputs.fn, Cert.Pre_finite_inputs.fn_part1] at h
  obtain ⟨h, e7⟩ := andi_ix0 _ _ h
  obtain ⟨h, e6⟩ := andi_ix0 _ _ h
  obtain ⟨h, e5⟩ := andi_ix0 _ _ h
  obtain ⟨h, e4⟩ := andi_ix0 _ _ h
  obtain ⟨h, e3⟩ := andi_ix0 _ _ h
  obtain ⟨e0, e2⟩ := andi_ix0 _ _ h
  exact ⟨Cert.LibFinDecode.all_fin a0 _ _ _ e0, Cert.LibFinDecode.all_fin a2 _ _ _ e2, Cert.LibFinDecode.all_fin a3 _ _ _ e3,
    Cert.LibFinDecode.all_fin a4 _ _ _ e4, Cert.LibFinDecode.all_fin a5 _ _ _ e5, Cert.LibFinDecode.all_fin a6 _ _ _ e6,
    Cert.LibFinDecode.all_fin a7 _ _ _ e7⟩

/-- Under the precondition every entry of every floating-point argument array is a real number. -/
theorem pre_fin (m : (ℓ : Loc nD τ sig) → Buf (Elt Ideal) ℓ) (h : Cert.Pre_KernelIdeal m) (c : Dev nD) :
    (∀ i, IsFin ((m ((c.tc : Thread nD τ).loc main_arg0) : S50000x128.Idx → EReal) i))
    ∧ (∀ i, IsFin ((m ((c.tc : Thread nD τ).loc main_arg2) : S128x128.Idx → EReal) i))
    ∧ (∀ i, IsFin ((m ((c.tc : Thread nD τ).loc main_arg3) : S128.Idx → EReal) i))
    ∧ (∀ i, IsFin ((m ((c.tc : Thread nD τ).loc main_arg4) : S128x128.Idx → EReal) i))
    ∧ (∀ i, IsFin ((m ((c.tc : Thread nD τ).loc main_arg5) : S128.Idx → EReal) i))
    ∧ (∀ i, IsFin ((m ((c.tc : Thread nD τ).loc main_arg6) : S128.Idx → EReal) i))
    ∧ (∀ i, IsFin ((m ((c.tc : Thread nD τ).loc main_arg7) : S128.Idx → EReal) i)) :=
  fn_fin _ _ _ _ _ _ _ _ (congrFun (h c) ValueIdx.ix0)

end Cert.KernelIdeal.Hand

end
-- ==== Proof.LibScatterRows.lean ====
/-
  A row scatter with an add body, read at an entry, over the extended reals.

  What segment_sum (x.at[idx].add(u) on rows) of an [N, C] operand with R update rows lowers to: a scatter with update
  window axis 1, inserted window axis 0, scatter axis 0 mapped to operand axis 0, the index vector on axis 1 of the
  scatter indices [R, 1], and updates [R, C]. Update entry (e, c) lands on the operand entry (idx (e, 0) read as a signed
  integer, c) when that row exists, and is dropped otherwise. So the result's entry (i, c) is the operand's entry plus
  the sum of the update entries (e, c) over the update rows e whose index is i: the set of those rows depends on the
  indices and on i alone, not on the column nor on the number of columns. The extents N, R, C are arbitrary.
-/
import Idealize.ShloMosaic.PureOps.Ideal
import Idealize.ShloMosaic.Lib.ValueIdx

noncomputable section

open scoped BigOperators

namespace Idealize.ShloMosaic.ScatterRows

open Idealize.ShloMosaic Idealize.ShloMosaic.ValueIdx

/-- An update lands on the operand index `p` exactly when, on every axis, its start plus its window coordinate is `p`'s
    coordinate (any dimension numbers). -/
theorem resultIdx?_eq_some_iff {s si u : Shape} (d : ScatterDims s si u) {w : Nat} (j : u.Idx) (idx : IVec si w) (p : s.Idx) :
    d.resultIdx? j idx = some p ↔ ∀ a, d.start j idx a + (d.window j a : ℤ) = ((p a).val : ℤ) := by
  unfold ScatterDims.resultIdx?
  split
  · rename_i h
    rw [Option.some.injEq]
    constructor
    · rintro rfl a
      have h1 := (h a).1
      show _ = (((d.start j idx a + (d.window j a : ℤ)).toNat : ℕ) : ℤ)
      omega
    · intro hp
      funext a
      apply Fin.ext
      have h1 := hp a
      show (d.start j idx a + (d.window j a : ℤ)).toNat = (p a).val
      omega
  · rename_i h
    constructor
    · intro h'
      exact absurd h' (by simp)
    · intro hp
      exfalso
      apply h
      intro a
      have h1 := hp a
      have h2 := (p a).isLt
      omega

/-- The dimension numbers of a row scatter, for an operand [N, C], scatter indices [R, 1] and updates [R, C]; their
    conditions are decided on a program's literal shapes. -/
abbrev rowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat}

/-- On the row axis the window starts at the update row's index, read signed. -/
theorem start_row (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) :
    (rowDims N R C wf).start j idx 0 = (idx (ix2 (j 0) (0 : Fin 1))).toInt := by
  unfold ScatterDims.start
  rw [dif_pos (show (0 : Fin 2) ∈ (rowDims N R C wf).scatterDimsToOperandDims from List.mem_singleton.mpr rfl)]
  have hsi : (rowDims N R C wf).siIdx j ⟨List.idxOf (0 : Fin 2) (rowDims N R C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at 0. -/
theorem start_col (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) :
    (rowDims N R C wf).start j idx 1 = 0 := by
  unfold ScatterDims.start
  rw [dif_neg (show (1 : Fin 2) ∉ (rowDims N R C wf).scatterDimsToOperandDims from
    (show (1 : Fin 2) ∉ ([0] : List (Fin 2)) by decide))]

/-- The row axis is inserted: its window coordinate is 0. -/
theorem window_row (wf : ScatterDims.WF ⟨2, ![N, C]⟩ ⟨2, ![R, 1]⟩ ⟨2, ![R, C]⟩ [1] [0] [0] 1)
    (j : (⟨2, ![R, C]⟩ : Shape).Idx) : (rowDims N R C wf).window j 0 = 0 := by
  unfold ScatterDims.window
  rw [dif_neg]
  intro h
  have h2 := (List.mem_filter.mp h).2
  simp at h2

/-- The column axis carries the update's column. -/
theorem window_col (wf : ScatterDims.WF ⟨2, ![N, C]⟩ ⟨2, ![R, 1]⟩ ⟨2, ![R, C]⟩ [1] [0] [0] 1)
    (j : (⟨2, ![R, C]⟩ : Shape).Idx) : (rowDims N R C wf).window j 1 = (j 1).val := by
  unfold ScatterDims.window
  rw [dif_pos (show (1 : Fin 2) ∈ (rowDims N R C wf).sKept from
    List.mem_filter.mpr ⟨List.mem_finRange _, by simp⟩)]
  rfl

/-- The update rows that land on operand row `i`: those whose index, read signed, is `i`. -/
def hits (idx : IVec ⟨2, ![R, 1]⟩ w) (i : Fin N) : Finset (Fin R) :=
  Finset.univ.filter fun e => (idx (ix2 e (0 : Fin 1))).toInt = (i.val : ℤ)

/-- An update entry lands on (i, c) exactly when its row's index is i and its column is c. -/
theorem lands_iff (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) (i : Fin N) (c : Fin C) :
    (rowDims N R C wf).resultIdx? j idx = some (ix2 i c)
      ↔ (idx (ix2 (j 0) (0 : Fin 1))).toInt = (i.val : ℤ) ∧ (j 1).val = c.val := by
  rw [resultIdx?_eq_some_iff]
  constructor
  · intro h
    have h0 : (rowDims N R C wf).start j idx 0 + (((rowDims N R C wf).window j 0 : ℕ) : ℤ) = (i.val : ℤ) := h 0
    have h1 : (rowDims N R C wf).start j idx 1 + (((rowDims N R C wf).window j 1 : ℕ) : ℤ) = (c.val : ℤ) := h 1
    rw [start_row, window_row] at h0
    rw [start_col, window_col] at h1
    exact ⟨by omega, by omega⟩
  · rintro ⟨h0, h1⟩ a
    match a with
    | ⟨0, _⟩ =>
      show (rowDims N R C wf).start j idx 0 + (((rowDims N R C wf).window j 0 : ℕ) : ℤ) = (i.val : ℤ)
      rw [start_row, window_row, h0]
      omega
    | ⟨1, _⟩ =>
      show (rowDims N R C wf).start j idx 1 + (((rowDims N R C wf).window j 1 : ℕ) : ℤ) = (c.val : ℤ)
      rw [start_col, window_col, h1]
      omega

/-- The accumulating row scatter at (i, c): the operand's entry plus the sum of column c over the update rows whose
    index is i. -/
theorem scatterAdd_rows_apply (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (i : Fin N) (c : Fin C) :
    Ideal.hostScatterAdd (rowDims N R C wf) x idx upd (ix2 i c) = x (ix2 i c) + ∑ e ∈ hits (N := N) idx i, upd (ix2 e c) := by
  unfold Ideal.hostScatterAdd
  congr 1
  have key : ∀ j : (⟨2, ![R, C]⟩ : Shape).Idx, (rowDims N R C wf).resultIdx? j idx = some (ix2 i c) → ix2 (j 0) c = j := by
    intro j hj
    have h1 := ((lands_iff wf j idx i c).mp hj).2
    have h2 : j 1 = c := Fin.ext h1
    rw [← h2]
    exact (eq_ix2 j).symm
  refine Finset.sum_nbij' (fun j => (j 0 : Fin R)) (fun e => ix2 e c) ?_ ?_ ?_ ?_ ?_
  · intro j hj
    rw [Finset.mem_filter] at hj
    exact Finset.mem_filter.mpr ⟨Finset.mem_univ _, ((lands_iff wf j idx i c).mp hj.2).1⟩
  · intro e he
    have he2 := (Finset.mem_filter.mp he).2
    rw [Finset.mem_filter]
    exact ⟨Finset.mem_univ _, (lands_iff wf (ix2 e c) idx i c).mpr ⟨he2, rfl⟩⟩
  · intro j hj
    rw [Finset.mem_filter] at hj
    exact key j hj.2
  · intro e _
    rfl
  · intro j hj
    rw [Finset.mem_filter] at hj
    exact congrArg upd (key j hj.2).symm

end Idealize.ShloMosaic.ScatterRows

end
-- ==== Proof.LibGatherRows.lean ====
/-
  A row gather read at an entry.

  What x[idx] of an [N, C] array x at a vector of R row numbers lowers to: a gather with offset axis 1, collapsed
  slice axis 0, start index map [0], the index vector on axis 1 of the start indices [R, 1], and slices of size
  [1, C]. Its entry (e, j) is x at row (the start index idx (e, 0), read as a signed integer and clamped into
  [0, N - 1]) and column j. So the result is x with rows picked by a function of the start indices alone; in
  particular a gather of this kind commutes with every operation that acts on each row separately. The extents
  N, R, C and the element type are arbitrary.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather, for an operand [N, C], start indices [R, 1] and a result [R, C]; their
    conditions are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand row that result row e reads: the start index, signed, clamped into [0, N - 1]. -/
def rowOf {N R w : Nat} (hN : 0 < N) (idx : IVec ⟨2, ![R, 1]⟩ w) (e : Fin R) : Fin N :=
  ⟨min (idx (ix2 e (0 : Fin 1))).toInt.toNat (N - 1), by omega⟩

/-- The row gather at (e, j): the operand at the clamped start row and column j. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N R C wf) x idx (ix2 e j) = x (ix2 (rowOf hN idx e) j) := by
  unfold Host.gather
  congr 1
  funext a
  refine Fin.ext ?_
  match a with
  | ⟨0, _⟩ =>
    show (rowDims N R C wf).start (ix2 e j) idx 0 + (rowDims N R C wf).batchCoord (ix2 e j) 0
      + (rowDims N R C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 e j) ⟨List.idxOf (0 : Fin 2) (rowDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N R C wf).start (ix2 e j) idx 1 + (rowDims N R C wf).batchCoord (ix2 e j) 1
      + (rowDims N R C wf).offCoord (ix2 e j) 1 = j.val
    rw [GatherDims.batchCoord_eq_zero _ _ _ List.not_mem_nil]
    unfold GatherDims.start
    rw [dif_neg (show (1 : Fin 2) ∉ (rowDims N R C wf).startIndexMap from
      (show (1 : Fin 2) ∉ ([0] : List (Fin 2)) by decide))]
    unfold GatherDims.offCoord
    rw [dif_pos (show (1 : Fin 2) ∈ (rowDims N R C wf).sKept from
      (GatherDims.mem_sKept _ _).mpr ⟨(show (1 : Fin 2) ∉ ([0] : List (Fin 2)) by decide), List.not_mem_nil⟩)]
    have hval : ∀ k : Fin 2, k = 1 → ((ix2 e j k : Fin _) : Nat) = j.val := by rintro _ rfl; rfl
    rw [hval _ (List.getElem_singleton _)]
    omega

/-- The whole result: the operand's rows picked by the clamped start indices. -/
theorem gather_rows {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) :
    Host.gather (rowDims N R C wf) x idx = fun i => x (ix2 (rowOf hN idx (i 0)) (i 1)) := by
  funext i
  obtain ⟨e, j, rfl⟩ : ∃ (e : Fin R) (j : Fin C), i = ix2 e j := ⟨i 0, i 1, eq_ix2 i⟩
  exact gather_rows_apply hN wf x idx e j

end Idealize.ShloMosaic.GatherRows

end
-- ==== Proof.FinAgg.lean ====
import proofs.«116873_j21114059227217_1_alg».proof.Proof.KHost
import proofs.«116873_j21114059227217_1_alg».proof.Proof.LibFinite
import proofs.«116873_j21114059227217_1_alg».proof.Proof.LibScatterRows
import proofs.«116873_j21114059227217_1_alg».proof.Proof.LibGatherRows

/-! # The neighbour aggregate of a real array is real

Entry (p, q) of the aggregate is zero plus the sum, over the edges whose destination is p, of the gathered source
entries; each gathered entry is one of the feature array's own entries, and a finite sum of real numbers is real. -/

noncomputable section

namespace Cert.KernelIdeal.Hand

open Cert.KernelIdeal Cert.KernelIdeal.Gen
open Idealize.ShloMosaic Idealize.ShloMosaic.TcCoe Idealize.SL.Sem Idealize.ShloMosaic.ValueIdx
open Cert.LibFinite

/-- An accumulating row scatter of real updates into a real operand is real, whatever the extents: each entry is
    the operand's entry plus a finite sum of update entries. -/
theorem scatterAdd_rows_fin {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (hx : ∀ i, IsFin (x i)) (hu : ∀ j, IsFin (upd j)) (i : (⟨2, ![N, C]⟩ : Shape).Idx) :
    IsFin (Ideal.hostScatterAdd (ScatterRows.rowDims N R C wf) x idx upd i) := by
  obtain ⟨p, q, rfl⟩ : ∃ (p : Fin N) (q : Fin C), i = ix2 p q := ⟨i 0, i 1, eq_ix2 i⟩
  rw [ScatterRows.scatterAdd_rows_apply]
  exact IsFin.add (hx _) (IsFin.sum _ _ fun e _ => hu _)

/-- A row gather of a real array is real, whatever the extents: each entry is one of the array's entries. -/
theorem gather_rows_fin {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → EReal) (idx : IVec ⟨2, ![R, 1]⟩ w) (hx : ∀ i, IsFin (x i))
    (j : (⟨2, ![R, C]⟩ : Shape).Idx) : IsFin (Host.gather (GatherRows.rowDims N R C wf) x idx j) := by
  rw [GatherRows.gather_rows hN wf x idx]
  exact hx _

/-- The same for the program's accumulating scatter at the ideal float model, which is that exact sum. -/
theorem hostScatterAdd_rows_fin {N R C w : Nat}
    (wf : ScatterDims.WF ⟨2, ![N, C]⟩ ⟨2, ![R, 1]⟩ ⟨2, ![R, C]⟩ [1] [0] [0] 1)
    (x : FVec Ideal ⟨2, ![N, C]⟩ .f32) (idx : IVec ⟨2, ![R, 1]⟩ w) (upd : FVec Ideal ⟨2, ![R, C]⟩ .f32)
    (hx : ∀ i, IsFin (x i)) (hu : ∀ j, IsFin (upd j)) (i : (⟨2, ![N, C]⟩ : Shape).Idx) :
    IsFin (Host.scatterAdd (F := Ideal) (ScatterRows.rowDims N R C wf) x idx upd i) :=
  scatterAdd_rows_fin wf x idx upd hx hu i

/-- The program's scatter dimension numbers are those of a row scatter. -/
theorem scatter_eq_rowDims : scatter_S50000x128_S800000x1_S800000x128_1_0_0_1
    = ScatterRows.rowDims 50000 800000 128 scatter_S50000x128_S800000x1_S800000x128_1_0_0_1_wf := rfl

/-- The program's gather dimension numbers are those of a row gather. -/
theorem gather_eq_rowDims : gather_S50000x128_S800000x1_S800000x128_1_0_n_n_0_1_1128
    = GatherRows.rowDims 50000 800000 128 gather_S50000x128_S800000x1_S800000x128_1_0_n_n_0_1_1128_wf := rfl

/-- The neighbour aggregate of a real array is real. -/
theorem kerAgg_fin (x : FVec Ideal S50000x128 .f32) (ei : (⟨S2x800000, .i32⟩ : BufTy).Contents (Elt Ideal))
    (hx : ∀ i, IsFin (x i)) : ∀ i, IsFin (kerAgg x ei i) := by
  intro i
  unfold kerAgg
  rw [scatter_eq_rowDims, gather_eq_rowDims]
  refine hostScatterAdd_rows_fin _ _ _ _ (fun i => ?_) (fun j => gather_rows_fin (by omega) _ x _ hx j) i
  rw [bcast_const_apply, Ideal.ofBits_zero_f32]
  exact IsFin.zero

end Cert.KernelIdeal.Hand

end
-- ==== Proof.lean ====
/-
  A graph layer — every node's features plus the sum of its in-neighbours' features through a two-layer
  perceptron, then batch normalisation over all the nodes — computed two ways: by a program of two tiled kernels
  around host operations (the perceptron kernel also accumulates each column's sum and sum of squares, from which the
  host takes the variance as the mean of the squares less the squared mean), and by a plain array program (the
  variance as the mean of the squared deviations).

  Each program runs to the end without a fault and leaves its arguments as it found them: the two-kernel program as
  a chain of four segments (host operations, the perceptron kernel over 25 row tiles with its two accumulators
  carried from tile to tile, host operations, the normalisation kernel over 25 tiles), the array program as one
  stretch of host operations. Read at exact extended-real arithmetic the two results are equal entry by entry: the
  aggregate is the same term on both sides; a matrix product into a zero accumulator, tile by tile, is the plain
  product row by row; the tiles' column sums are consecutive runs of the column sums over all the nodes; and on a
  column of real numbers — which is what finite inputs give — the two forms of the variance agree.
-/
import proofs.«116873_j21114059227217_1_alg».proof.Defs
import proofs.«116873_j21114059227217_1_alg».proof.Proof.Gen.Kernel
import proofs.«116873_j21114059227217_1_alg».proof.Proof.Gen.KernelIdeal
import proofs.«116873_j21114059227217_1_alg».proof.Proof.Gen.ReferenceIdeal
import proofs.«116873_j21114059227217_1_alg».proof.Proof.Gen.Pre_finite_inputs
import proofs.«116873_j21114059227217_1_alg».proof.Proof.BFrame
import proofs.«116873_j21114059227217_1_alg».proof.Proof.KVal
import proofs.«116873_j21114059227217_1_alg».proof.Proof.RefValue
import proofs.«116873_j21114059227217_1_alg».proof.Proof.Bridge
import proofs.«116873_j21114059227217_1_alg».proof.Proof.FinPre
import proofs.«116873_j21114059227217_1_alg».proof.Proof.FinAgg
import Idealize.ShloMosaic.Adequacy
import Idealize.ShloMosaic.Init

noncomputable section

namespace Cert.Proof

open Idealize.ShloMosaic Idealize.SL.Sem

/-- The two-kernel program, at the word level: it runs and keeps its arguments. -/
theorem frame_k : Cert.frame_Kernel := fun m ρ _ => Cert.Kernel.Hand.frame m ρ

/-- The same program read at exact arithmetic. -/
theorem frame_ki : Cert.frame_KernelIdeal := fun m ρ _ => Cert.KernelIdeal.Hand.frame m ρ

/-- The array program: its run with the result dropped. -/
theorem frame_r : Cert.frame_ReferenceIdeal := fun m ρ _ =>
  (θ_run Cert.ReferenceIdeal.defs _ _).mono (fun _ h c => (h c).2) (Cert.ReferenceIdeal.Hand.run m ρ)

/-- No operation of the kernel program was rewritten for the exact reading. -/
theorem preserves : Cert.preserves_Kernel_KernelIdeal := trivial

/-- From memories agreeing on the arguments both programs end, with equal results: the kernel program's result is the
    normalised perceptron output with the variance by moments, the array program's the same with the variance by
    squared deviations, and finite inputs make every perceptron output a real number. -/
theorem algebraic : Cert.algebraic_KernelIdeal_ReferenceIdeal := by
  intro m ρ m' ρ' hpre hagree
  refine ⟨fun c => Cert.KernelIdeal.Hand.kerOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Hand.kernel_value m c), (h c).2⟩)
      (Cert.KernelIdeal.Hand.run_value m ρ)
  · refine (θ_run Cert.ReferenceIdeal.defs _ _).mono (fun _ h c => ⟨(h c).1.trans ?_, (h c).2⟩)
      (Cert.ReferenceIdeal.Hand.run m' ρ')
    obtain ⟨h0, h1, h2, h3, h4, h5, h6, h7⟩ := hagree c
    obtain ⟨f0, f2, f3, f4, f5, -, -⟩ := Cert.KernelIdeal.Hand.pre_fin m hpre c
    rw [h0, h1, h2, h3, h4, h5, h6, h7]
    exact (Cert.Bridge.out_eq _ _ _ _ _ _ _ _ (Cert.Bridge.kerH_fin _ _ _ _ _ _ f0 (Cert.KernelIdeal.Hand.kerAgg_fin _ _ f0) f2 f3 f4 f5)).symm

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
